-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v50_0)) (v2 : (c : Dev Cert.KernelIdeal.nD) → Buf (Elt Ideal) ((c.tc : Thread Cert.KernelIdeal.nD Cert.KernelIdeal.τ).loc Cert.KernelIdeal.main_v97_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v50_0) = v1 c
          ∧ r.2.mem ((c.tc : Thread Cert.KernelIdeal.nD Cert.KernelIdeal.τ).loc Cert.KernelIdeal.main_v97_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x16 : Shape := ⟨2, ![50000, 16]⟩
abbrev S10000x32 : Shape := ⟨2, ![10000, 32]⟩
abbrev S10000x8 : Shape := ⟨2, ![10000, 8]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S10000x32 : S_.BroadcastsInDim S10000x32 (![] : Fin 0 → Fin S10000x32.rank)
  reducesTo_S10000x32_S_d0_1 : S10000x32.ReducesTo [0, 1] S_
  bcast_S_S10000x8 : S_.BroadcastsInDim S10000x8 (![] : Fin 0 → Fin S10000x8.rank)
  reducesTo_S10000x8_S_d0_1 : S10000x8.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part4 {F : FTy → Type} [FloatOps F] (main_arg18 : FVec F S256 .f32) (main_arg19 : FVec F S256x256 .f32) (main_arg20 : FVec F S256 .f32) (main_v63 : IVec S_ 1) (main_v67 : IVec S_ 1) : IVec S_ 1 :=
  let main_v68 : IVec S_ 1 := andi main_v63 main_v67
  let main_v69 : FVec F S256 .f32 := Host.absf main_arg18
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg19
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg20
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg15 : FVec F S512x256 .f32) (main_arg16 : FVec F S256 .f32) (main_arg17 : FVec F S256x256 .f32) (main_arg18 : FVec F S256 .f32) (main_arg19 : FVec F S256x256 .f32) (main_arg20 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x256 .f32 := Host.absf main_arg15
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg18 main_arg19 main_arg20 main_v63 main_v67

def fn_part2 {F : FTy → Type} [FloatOps F] (main_arg11 : FVec F S512x256 .f32) (main_arg12 : FVec F S256 .f32) (main_arg13 : FVec F S256x256 .f32) (main_arg14 : FVec F S256 .f32) (main_arg15 : FVec F S512x256 .f32) (main_arg16 : FVec F S256 .f32) (main_arg17 : FVec F S256x256 .f32) (main_arg18 : FVec F S256 .f32) (main_arg19 : FVec F S256x256 .f32) (main_arg20 : FVec F S256 .f32) (main_v33 : IVec S_ 1) : IVec S_ 1 :=
  let main_v34 : FVec F S512x256 .f32 := Host.absf main_arg11
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_arg17 main_arg18 main_arg19 main_arg20 main_v48 main_v49 main_v50

def fn_part1 {F : FTy → Type} [FloatOps F] (main_arg8 : FVec F S10000x8 .f32) (main_arg9 : FVec F S256x256 .f32) (main_arg10 : FVec F S256 .f32) (main_arg11 : FVec F S512x256 .f32) (main_arg12 : FVec F S256 .f32) (main_arg13 : FVec F S256x256 .f32) (main_arg14 : FVec F S256 .f32) (main_arg15 : FVec F S512x256 .f32) (main_arg16 : FVec F S256 .f32) (main_arg17 : FVec F S256x256 .f32) (main_arg18 : FVec F S256 .f32) (main_arg19 : FVec F S256x256 .f32) (main_arg20 : FVec F S256 .f32) (main_v13 : IVec S_ 1) (main_v16 : IVec S10000x32 1) : IVec S_ 1 :=
  let main_c_5 : IVec S_ 1 := constantI S_ 1 1#1
  let main_v17 : IVec S_ 1 := (fun x v => Host.reduce IntOp.andi x v reducesTo_S10000x32_S_d0_1 h_S_) main_v16 main_c_5
  let main_v18 : IVec S_ 1 := andi main_v13 main_v17
  let main_v19 : FVec F S10000x8 .f32 := Host.absf main_arg8
  let main_cst_6 : FVec F S_ .f32 := constant S_ .f32 0x7F800000#32
  let main_v20 : FVec F S10000x8 .f32 := broadcastInDim S10000x8 ![] bcast_S_S10000x8 main_cst_6
  let main_v21 : IVec S10000x8 1 := cmpf .olt main_v19 main_v20
  let main_c_7 : IVec S_ 1 := constantI S_ 1 1#1
  let main_v22 : IVec S_ 1 := (fun x v => Host.reduce IntOp.andi x v reducesTo_S10000x8_S_d0_1 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S100000x256 .f32) (main_arg1 : IVec S50000x16 32) (main_arg2 : IVec S50000x16 32) (main_arg3 : IVec S10000x32 32) (main_arg4 : IVec S10000x8 32) (main_arg5 : FVec F S50000x16 .f32) (main_arg6 : FVec F S50000x16 .f32) (main_arg7 : FVec F S10000x32 .f32) (main_arg8 : FVec F S10000x8 .f32) (main_arg9 : FVec F S256x256 .f32) (main_arg10 : FVec F S256 .f32) (main_arg11 : FVec F S512x256 .f32) (main_arg12 : FVec F S256 .f32) (main_arg13 : FVec F S256x256 .f32) (main_arg14 : FVec F S256 .f32) (main_arg15 : FVec F S512x256 .f32) (main_arg16 : FVec F S256 .f32) (main_arg17 : FVec F S256x256 .f32) (main_arg18 : FVec F S256 .f32) (main_arg19 : FVec F S256x256 .f32) (main_arg20 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x16 .f32 := Host.absf main_arg5
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S50000x16 .f32 := Host.absf main_arg6
  let main_cst_2 : FVec F S_ .f32 := constant S_ .f32 0x7F800000#32
  let main_v10 : FVec F S50000x16 .f32 := broadcastInDim S50000x16 ![] bcast_S_S50000x16 main_cst_2
  let main_v11 : IVec S50000x16 1 := cmpf .olt main_v9 main_v10
  let main_c_3 : IVec S_ 1 := constantI S_ 1 1#1
  let main_v12 : IVec S_ 1 := (fun x v => Host.reduce IntOp.andi x v reducesTo_S50000x16_S_d0_1 h_S_) main_v11 main_c_3
  let main_v13 : IVec S_ 1 := andi main_v8 main_v12
  let main_v14 : FVec F S10000x32 .f32 := Host.absf main_arg7
  let main_cst_4 : FVec F S_ .f32 := constant S_ .f32 0x7F800000#32
  let main_v15 : FVec F S10000x32 .f32 := broadcastInDim S10000x32 ![] bcast_S_S10000x32 main_cst_4
  let main_v16 : IVec S10000x32 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S100000x256 : Shape := ⟨2, ![100000, 256]⟩
abbrev S50000x16 : Shape := ⟨2, ![50000, 16]⟩
abbrev S10000x32 : Shape := ⟨2, ![10000, 32]⟩
abbrev S10000x8 : Shape := ⟨2, ![10000, 8]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S4000x256 : Shape := ⟨2, ![4000, 256]⟩
abbrev S_ : Shape := ⟨0, ![]⟩
abbrev S50000x16x1 : Shape := ⟨3, ![50000, 16, 1]⟩
abbrev S50000x16x256 : Shape := ⟨3, ![50000, 16, 256]⟩
abbrev S50000x256 : Shape := ⟨2, ![50000, 256]⟩
abbrev S50000 : Shape := ⟨1, ![50000]⟩
abbrev S50000x1 : Shape := ⟨2, ![50000, 1]⟩
abbrev S2000x256 : Shape := ⟨2, ![2000, 256]⟩
abbrev S2000x512 : Shape := ⟨2, ![2000, 512]⟩
abbrev S10000x32x1 : Shape := ⟨3, ![10000, 32, 1]⟩
abbrev S10000x32x256 : Shape := ⟨3, ![10000, 32, 256]⟩
abbrev S10000x256 : Shape := ⟨2, ![10000, 256]⟩
abbrev S10000 : Shape := ⟨1, ![10000]⟩
abbrev S10000x1 : Shape := ⟨2, ![10000, 1]⟩
abbrev S10000x8x1 : Shape := ⟨3, ![10000, 8, 1]⟩
abbrev S10000x8x256 : Shape := ⟨3, ![10000, 8, 256]⟩

abbrev nBuf : Space → Nat
  | .hbm => 162
  | .vmem => 42
  | .smem => 0
  | _ => 0

abbrev hbmTy0_0 (i : Nat) : BufTy := match i % 128 with
  | 0 => ⟨S100000x256, .f32⟩
  | 1 => ⟨S50000x16, .i32⟩
  | 2 => ⟨S50000x16, .i32⟩
  | 3 => ⟨S10000x32, .i32⟩
  | 4 => ⟨S10000x8, .i32⟩
  | 5 => ⟨S50000x16, .f32⟩
  | 6 => ⟨S50000x16, .f32⟩
  | 7 => ⟨S10000x32, .f32⟩
  | 8 => ⟨S10000x8, .f32⟩
  | 9 => ⟨S256x256, .f32⟩
  | 10 => ⟨S256, .f32⟩
  | 11 => ⟨S512x256, .f32⟩
  | 12 => ⟨S256, .f32⟩
  | 13 => ⟨S256x256, .f32⟩
  | 14 => ⟨S256, .f32⟩
  | 15 => ⟨S512x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S100000x256, .bf16⟩
  | 22 => ⟨S1x256, .f32⟩
  | 23 => ⟨S1x256, .f32⟩
  | 24 => ⟨S100000x256, .f32⟩
  | 25 => ⟨S100000x256, .bf16⟩
  | 26 => ⟨S_, .i32⟩
  | 27 => ⟨S50000x16, .i32⟩
  | 28 => ⟨S50000x16, .i1⟩
  | 29 => ⟨S_, .i32⟩
  | 30 => ⟨S50000x16, .i32⟩
  | 31 => ⟨S50000x16, .i32⟩
  | 32 => ⟨S50000x16, .i32⟩
  | 33 => ⟨S50000x16x1, .i32⟩
  | 34 => ⟨S50000x16x256, .bf16⟩
  | 35 => ⟨S50000x16x256, .f32⟩
  | 36 => ⟨S50000x16x1, .f32⟩
  | 37 => ⟨S50000x16x256, .f32⟩
  | 38 => ⟨S50000x16x256, .f32⟩
  | 39 => ⟨S_, .f32⟩
  | 40 => ⟨S50000x256, .f32⟩
  | 41 => ⟨S_, .f32⟩
  | 42 => ⟨S50000, .f32⟩
  | 43 => ⟨S50000x1, .f32⟩
  | 44 => ⟨S_, .f32⟩
  | 45 => ⟨S50000x1, .f32⟩
  | 46 => ⟨S50000x1, .i1⟩
  | 47 => ⟨S_, .f32⟩
  | 48 => ⟨S50000x1, .f32⟩
  | 49 => ⟨S50000x1, .f32⟩
  | 50 => ⟨S50000x256, .f32⟩
  | 51 => ⟨S50000x256, .f32⟩
  | 52 => ⟨S_, .f32⟩
  | 53 => ⟨S_, .f32⟩
  | 54 => ⟨S50000x256, .i1⟩
  | 55 => ⟨S50000x256, .f32⟩
  | 56 => ⟨S50000x256, .f32⟩
  | 57 => ⟨S_, .i32⟩
  | 58 => ⟨S50000x16, .i32⟩
  | 59 => ⟨S50000x16, .i1⟩
  | 60 => ⟨S_, .i32⟩
  | 61 => ⟨S50000x16, .i32⟩
  | 62 => ⟨S50000x16, .i32⟩
  | 63 => ⟨S50000x16, .i32⟩
  | 64 => ⟨S50000x16x1, .i32⟩
  | 65 => ⟨S50000x16x256, .bf16⟩
  | 66 => ⟨S50000x16x256, .f32⟩
  | 67 => ⟨S50000x16x1, .f32⟩
  | 68 => ⟨S50000x16x256, .f32⟩
  | 69 => ⟨S50000x16x256, .f32⟩
  | 70 => ⟨S_, .f32⟩
  | 71 => ⟨S50000x256, .f32⟩
  | 72 => ⟨S_, .f32⟩
  | 73 => ⟨S50000, .f32⟩
  | 74 => ⟨S50000x1, .f32⟩
  | 75 => ⟨S_, .f32⟩
  | 76 => ⟨S50000x1, .f32⟩
  | 77 => ⟨S50000x1, .i1⟩
  | 78 => ⟨S_, .f32⟩
  | 79 => ⟨S50000x1, .f32⟩
  | 80 => ⟨S50000x1, .f32⟩
  | 81 => ⟨S50000x256, .f32⟩
  | 82 => ⟨S50000x256, .f32⟩
  | 83 => ⟨S_, .f32⟩
  | 84 => ⟨S_, .f32⟩
  | 85 => ⟨S50000x256, .i1⟩
  | 86 => ⟨S50000x256, .f32⟩
  | 87 => ⟨S50000x256, .f32⟩
  | 88 => ⟨S1x256, .f32⟩
  | 89 => ⟨S1x256, .f32⟩
  | 90 => ⟨S1x256, .f32⟩
  | 91 => ⟨S1x256, .f32⟩
  | 92 => ⟨S50000x256, .f32⟩
  | 93 => ⟨S50000x256, .bf16⟩
  | 94 => ⟨S_, .i32⟩
  | 95 => ⟨S10000x32, .i32⟩
  | 96 => ⟨S10000x32, .i1⟩
  | 97 => ⟨S_, .i32⟩
  | 98 => ⟨S10000x32, .i32⟩
  | 99 => ⟨S10000x32, .i32⟩
  | 100 => ⟨S10000x32, .i32⟩
  | 101 => ⟨S10000x32x1, .i32⟩
  | 102 => ⟨S10000x32x256, .bf16⟩
  | 103 => ⟨S10000x32x256, .f32⟩
  | 104 => ⟨S10000x32x1, .f32⟩
  | 105 => ⟨S10000x32x256, .f32⟩
  | 106 => ⟨S10000x32x256, .f32⟩
  | 107 => ⟨S_, .f32⟩
  | 108 => ⟨S10000x256, .f32⟩
  | 109 => ⟨S_, .f32⟩
  | 110 => ⟨S10000, .f32⟩
  | 111 => ⟨S10000x1, .f32⟩
  | 112 => ⟨S_, .f32⟩
  | 113 => ⟨S10000x1, .f32⟩
  | 114 => ⟨S10000x1, .i1⟩
  | 115 => ⟨S_, .f32⟩
  | 116 => ⟨S10000x1, .f32⟩
  | 117 => ⟨S10000x1, .f32⟩
  | 118 => ⟨S10000x256, .f32⟩
  | 119 => ⟨S10000x256, .f32⟩
  | 120 => ⟨S_, .f32⟩
  | 121 => ⟨S_, .f32⟩
  | 122 => ⟨S10000x256, .i1⟩
  | 123 => ⟨S10000x256, .f32⟩
  | 124 => ⟨S10000x256, .f32⟩
  | 125 => ⟨S_, .i32⟩
  | 126 => ⟨S10000x8, .i32⟩
  | 127 => ⟨S10000x8, .i1⟩
  | _ => ⟨S100000x256, .f32⟩

abbrev hbmTy0_1 (i : Nat) : BufTy := match i % 128 with
  | 0 => ⟨S_, .i32⟩
  | 1 => ⟨S10000x8, .i32⟩
  | 2 => ⟨S10000x8, .i32⟩
  | 3 => ⟨S10000x8, .i32⟩
  | 4 => ⟨S10000x8x1, .i32⟩
  | 5 => ⟨S10000x8x256, .bf16⟩
  | 6 => ⟨S10000x8x256, .f32⟩
  | 7 => ⟨S10000x8x1, .f32⟩
  | 8 => ⟨S10000x8x256, .f32⟩
  | 9 => ⟨S10000x8x256, .f32⟩
  | 10 => ⟨S_, .f32⟩
  | 11 => ⟨S10000x256, .f32⟩
  | 12 => ⟨S_, .f32⟩
  | 13 => ⟨S10000, .f32⟩
  | 14 => ⟨S10000x1, .f32⟩
  | 15 => ⟨S_, .f32⟩
  | 16 => ⟨S10000x1, .f32⟩
  | 17 => ⟨S10000x1, .i1⟩
  | 18 => ⟨S_, .f32⟩
  | 19 => ⟨S10000x1, .f32⟩
  | 20 => ⟨S10000x1, .f32⟩
  | 21 => ⟨S10000x256, .f32⟩
  | 22 => ⟨S10000x256, .f32⟩
  | 23 => ⟨S_, .f32⟩
  | 24 => ⟨S_, .f32⟩
  | 25 => ⟨S10000x256, .i1⟩
  | 26 => ⟨S10000x256, .f32⟩
  | 27 => ⟨S10000x256, .f32⟩
  | 28 => ⟨S1x256, .f32⟩
  | 29 => ⟨S1x256, .f32⟩
  | 30 => ⟨S1x256, .f32⟩
  | 31 => ⟨S1x256, .f32⟩
  | 32 => ⟨S10000x256, .f32⟩
  | 33 => ⟨S10000x256, .bf16⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S4000x256, .f32⟩
  | .local _ .vmem, ⟨7, _⟩ => ⟨S4000x256, .f32⟩
  | .local _ .vmem, ⟨8, _⟩ => ⟨S4000x256, .bf16⟩
  | .local _ .vmem, ⟨9, _⟩ => ⟨S4000x256, .bf16⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S512x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .bf16⟩
  | .local _ .vmem, ⟨25, _⟩ => ⟨S2000x256, .bf16⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S1x256, .f32⟩
  | .local _ .vmem, ⟨32, _⟩ => ⟨S512x256, .f32⟩
  | .local _ .vmem, ⟨33, _⟩ => ⟨S1x256, .f32⟩
  | .local _ .vmem, ⟨34, _⟩ => ⟨S256x256, .f32⟩
  | .local _ .vmem, ⟨35, _⟩ => ⟨S1x256, .f32⟩
  | .local _ .vmem, ⟨36, _⟩ => ⟨S256x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .bf16⟩
  | .local _ .vmem, ⟨41, _⟩ => ⟨S2000x256, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3_0 : Ref sig .tc := ⟨.hbm, 24, rfl⟩
abbrev main_v3_1 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_4 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_c_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_cst_8 : Ref sig .tc := ⟨.hbm, 72, rfl⟩
abbrev main_v37 : Ref sig .tc := ⟨.hbm, 73, rfl⟩
abbrev main_v38 : Ref sig .tc := ⟨.hbm, 74, rfl⟩
abbrev main_cst_9 : Ref sig .tc := ⟨.hbm, 75, rfl⟩
abbrev main_v39 : Ref sig .tc := ⟨.hbm, 76, rfl⟩
abbrev main_v40 : Ref sig .tc := ⟨.hbm, 77, rfl⟩
abbrev main_cst_10 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_11 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50_0 : Ref sig .tc := ⟨.hbm, 92, rfl⟩
abbrev main_v50_1 : Ref sig .tc := ⟨.hbm, 93, rfl⟩
abbrev main_c_12 : Ref sig .tc := ⟨.hbm, 94, rfl⟩
abbrev main_v51 : Ref sig .tc := ⟨.hbm, 95, rfl⟩
abbrev main_v52 : Ref sig .tc := ⟨.hbm, 96, rfl⟩
abbrev main_c_13 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_14 : Ref sig .tc := ⟨.hbm, 107, rfl⟩
abbrev main_v62 : Ref sig .tc := ⟨.hbm, 108, rfl⟩
abbrev main_cst_15 : Ref sig .tc := ⟨.hbm, 109, rfl⟩
abbrev main_v63 : Ref sig .tc := ⟨.hbm, 110, rfl⟩
abbrev main_v64 : Ref sig .tc := ⟨.hbm, 111, rfl⟩
abbrev main_cst_16 : Ref sig .tc := ⟨.hbm, 112, rfl⟩
abbrev main_v65 : Ref sig .tc := ⟨.hbm, 113, rfl⟩
abbrev main_v66 : Ref sig .tc := ⟨.hbm, 114, rfl⟩
abbrev main_cst_17 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_18 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v71 : Ref sig .tc := ⟨.hbm, 124, rfl⟩
abbrev main_c_19 : Ref sig .tc := ⟨.hbm, 125, rfl⟩
abbrev main_v72 : Ref sig .tc := ⟨.hbm, 126, rfl⟩
abbrev main_v73 : Ref sig .tc := ⟨.hbm, 127, rfl⟩
abbrev main_c_20 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_21 : Ref sig .tc := ⟨.hbm, 138, rfl⟩
abbrev main_v83 : Ref sig .tc := ⟨.hbm, 139, rfl⟩
abbrev main_cst_22 : Ref sig .tc := ⟨.hbm, 140, rfl⟩
abbrev main_v84 : Ref sig .tc := ⟨.hbm, 141, rfl⟩
abbrev main_v85 : Ref sig .tc := ⟨.hbm, 142, rfl⟩
abbrev main_cst_23 : Ref sig .tc := ⟨.hbm, 143, rfl⟩
abbrev main_v86 : Ref sig .tc := ⟨.hbm, 144, rfl⟩
abbrev main_v87 : Ref sig .tc := ⟨.hbm, 145, rfl⟩
abbrev main_cst_24 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_25 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97_0 : Ref sig .tc := ⟨.hbm, 160, rfl⟩
abbrev main_v97_1 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg10_1 : Ref sig .tc := ⟨.vmem, 39, rfl⟩
abbrev cc2_stg11_0 : Ref sig .tc := ⟨.vmem, 40, rfl⟩
abbrev cc2_stg11_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem10_1 : DmaSem sig := 39
abbrev cc2_sem11_0 : DmaSem sig := 40
abbrev cc2_sem11_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2000x256 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  bitsLt_bf16_f32 : FTy.bits .bf16 < FTy.bits .f32
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  packedbf16_S4000x256_S4000x256_0_0 : (Rect.unit (s := S4000x256) ![0, 0] S4000x256.size inb_S4000x256_S4000x256_0_0).PackedRows (EltTy.packing .bf16)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  bcast_S50000x16x1_S50000x16x256_0_1_2 : S50000x16x1.BroadcastsInDim S50000x16x256 (![0, 1, 2] : Fin 3 → Fin S50000x16x256.rank)
  reducesTo_S50000x16x256_S50000x256_d1 : S50000x16x256.ReducesTo [1] S50000x256
  h_S_ : 0 < S_.numel
  reducesTo_S50000x16_S50000_d1 : S50000x16.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  concatenates_S2000x256_S2000x256_S2000x512_d1 : Shape.Concatenates [S2000x256, S2000x256] S2000x512 1
  inb_S512x256_S512x256_0_0 : ∀ a, (![0, 0] : Fin 2 → Nat) a + S512x256.size a ≤ S512x256.size a
  h_S512x256 : 0 < S512x256.numel
  packedbf16_S2000x256_S2000x256_0_0 : (Rect.unit (s := S2000x256) ![0, 0] S2000x256.size inb_S2000x256_S2000x256_0_0).PackedRows (EltTy.packing .bf16)
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  bcast_S10000x32x1_S10000x32x256_0_1_2 : S10000x32x1.BroadcastsInDim S10000x32x256 (![0, 1, 2] : Fin 3 → Fin S10000x32x256.rank)
  reducesTo_S10000x32x256_S10000x256_d1 : S10000x32x256.ReducesTo [1] S10000x256
  reducesTo_S10000x32_S10000_d1 : S10000x32.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  bcast_S10000x8x1_S10000x8x256_0_1_2 : S10000x8x1.BroadcastsInDim S10000x8x256 (![0, 1, 2] : Fin 3 → Fin S10000x8x256.rank)
  reducesTo_S10000x8x256_S10000x256_d1 : S10000x8x256.ReducesTo [1] S10000x256
  reducesTo_S10000x8_S10000_d1 : S10000x8.ReducesTo [1] S10000
  dot_S4000x256_S256x256_S4000x256_1_0_0_1_n_n_wf : DotDims.WF S4000x256 S256x256 S4000x256 [1] [0] [0] [1] [] []
  gather_S100000x256_S50000x16x1_S50000x16x256_2_0_n_n_0_2_1256_wf : GatherDims.WF S100000x256 S50000x16x1 S50000x16x256 [2] [0] [] [0] [] 2 ![1, 256]
  dot_S2000x256_S256x256_S2000x256_1_0_0_1_n_n_wf : DotDims.WF S2000x256 S256x256 S2000x256 [1] [0] [0] [1] [] []
  dot_S2000x512_S512x256_S2000x256_1_0_0_1_n_n_wf : DotDims.WF S2000x512 S512x256 S2000x256 [1] [0] [0] [1] [] []
  gather_S100000x256_S10000x32x1_S10000x32x256_2_0_n_n_0_2_1256_wf : GatherDims.WF S100000x256 S10000x32x1 S10000x32x256 [2] [0] [] [0] [] 2 ![1, 256]
  gather_S50000x256_S10000x8x1_S10000x8x256_2_0_n_n_0_2_1256_wf : GatherDims.WF S50000x256 S10000x8x1 S10000x8x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .f32 = 32 ∨ (Rect.block (s := S100000x256) S4000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .bf16 = 32 ∨ (Rect.block (s := S100000x256) S4000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S50000x256.size a
  hwx1_10 : ∀ i : grid1.Coords, EltTy.bits .f32 = 32 ∨ (Rect.block (s := S50000x256) S2000x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x256.size a ≤ S50000x256.size a
  hwx1_11 : ∀ i : grid1.Coords, EltTy.bits .bf16 = 32 ∨ (Rect.block (s := S50000x256) S2000x256.size (cc1_transform_11 i) (hinb1_11 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S10000x256.size a
  hwx2_1 : ∀ i : grid2.Coords, EltTy.bits .f32 = 32 ∨ (Rect.block (s := S10000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S512x256.size a
  hwx2_4 : ∀ i : grid2.Coords, EltTy.bits .f32 = 32 ∨ (Rect.block (s := S512x256) S512x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .f32 = 32 ∨ (Rect.block (s := S256x256) S256x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x256.size a ≤ S10000x256.size a
  hwx2_10 : ∀ i : grid2.Coords, EltTy.bits .f32 = 32 ∨ (Rect.block (s := S10000x256) S2000x256.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x256.size a ≤ S10000x256.size a
  hwx2_11 : ∀ i : grid2.Coords, EltTy.bits .bf16 = 32 ∨ (Rect.block (s := S10000x256) S2000x256.size (cc2_transform_11 i) (hinb2_11 i)).WholeWords (EltTy.packing .bf16)

variable [Facts₀]

def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S100000x256_S50000x16x1_S50000x16x256_2_0_n_n_0_2_1256 : GatherDims S100000x256 S50000x16x1 S50000x16x256 where
  offsetDims := [2]
  collapsedSliceDims := [0]
  operandBatchingDims := []
  startIndicesBatchingDims := []
  startIndexMap := [0]
  indexVectorDim := 2
  sliceSizes := ![1, 256]
  wf := gather_S100000x256_S50000x16x1_S50000x16x256_2_0_n_n_0_2_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S100000x256_S10000x32x1_S10000x32x256_2_0_n_n_0_2_1256 : GatherDims S100000x256 S10000x32x1 S10000x32x256 where
  offsetDims := [2]
  collapsedSliceDims := [0]
  operandBatchingDims := []
  startIndicesBatchingDims := []
  startIndexMap := [0]
  indexVectorDim := 2
  sliceSizes := ![1, 256]
  wf := gather_S100000x256_S10000x32x1_S10000x32x256_2_0_n_n_0_2_1256_wf
def gather_S50000x256_S10000x8x1_S10000x8x256_2_0_n_n_0_2_1256 : GatherDims S50000x256 S10000x8x1 S10000x8x256 where
  offsetDims := [2]
  collapsedSliceDims := [0]
  operandBatchingDims := []
  startIndicesBatchingDims := []
  startIndexMap := [0]
  indexVectorDim := 2
  sliceSizes := ![1, 256]
  wf := gather_S50000x256_S10000x8x1_S10000x8x256_2_0_n_n_0_2_1256_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg19) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S4000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v49) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v50_0) S2000x256.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v50_1) S2000x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v71) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v93) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S512x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v94) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v95) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg19) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v96) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v97_0) S2000x256.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v97_1) S2000x256.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x256 : Shape := ⟨2, ![100000, 256]⟩
abbrev S50000x16 : Shape := ⟨2, ![50000, 16]⟩
abbrev S10000x32 : Shape := ⟨2, ![10000, 32]⟩
abbrev S10000x8 : Shape := ⟨2, ![10000, 8]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S_ : Shape := ⟨0, ![]⟩
abbrev S50000x16x1 : Shape := ⟨3, ![50000, 16, 1]⟩
abbrev S50000x16x256 : Shape := ⟨3, ![50000, 16, 256]⟩
abbrev S50000x256 : Shape := ⟨2, ![50000, 256]⟩
abbrev S50000 : Shape := ⟨1, ![50000]⟩
abbrev S50000x1 : Shape := ⟨2, ![50000, 1]⟩
abbrev S50000x512 : Shape := ⟨2, ![50000, 512]⟩
abbrev S10000x32x1 : Shape := ⟨3, ![10000, 32, 1]⟩
abbrev S10000x32x256 : Shape := ⟨3, ![10000, 32, 256]⟩
abbrev S10000x256 : Shape := ⟨2, ![10000, 256]⟩
abbrev S10000 : Shape := ⟨1, ![10000]⟩
abbrev S10000x1 : Shape := ⟨2, ![10000, 1]⟩
abbrev S10000x8x1 : Shape := ⟨3, ![10000, 8, 1]⟩
abbrev S10000x8x256 : Shape := ⟨3, ![10000, 8, 256]⟩
abbrev S10000x512 : Shape := ⟨2, ![10000, 512]⟩

abbrev nBuf : Space → Nat
  | .hbm => 189
  | .vmem => 0
  | .smem => 0
  | _ => 0

abbrev hbmTy0_0 (i : Nat) : BufTy := match i % 128 with
  | 0 => ⟨S100000x256, .f32⟩
  | 1 => ⟨S50000x16, .i32⟩
  | 2 => ⟨S50000x16, .i32⟩
  | 3 => ⟨S10000x32, .i32⟩
  | 4 => ⟨S10000x8, .i32⟩
  | 5 => ⟨S50000x16, .f32⟩
  | 6 => ⟨S50000x16, .f32⟩
  | 7 => ⟨S10000x32, .f32⟩
  | 8 => ⟨S10000x8, .f32⟩
  | 9 => ⟨S256x256, .f32⟩
  | 10 => ⟨S256, .f32⟩
  | 11 => ⟨S512x256, .f32⟩
  | 12 => ⟨S256, .f32⟩
  | 13 => ⟨S256x256, .f32⟩
  | 14 => ⟨S256, .f32⟩
  | 15 => ⟨S512x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S100000x256, .f32⟩
  | 22 => ⟨S1x256, .f32⟩
  | 23 => ⟨S100000x256, .f32⟩
  | 24 => ⟨S100000x256, .f32⟩
  | 25 => ⟨S100000x256, .f32⟩
  | 26 => ⟨S1x256, .f32⟩
  | 27 => ⟨S100000x256, .f32⟩
  | 28 => ⟨S100000x256, .f32⟩
  | 29 => ⟨S_, .i32⟩
  | 30 => ⟨S50000x16, .i32⟩
  | 31 => ⟨S50000x16, .i1⟩
  | 32 => ⟨S_, .i32⟩
  | 33 => ⟨S50000x16, .i32⟩
  | 34 => ⟨S50000x16, .i32⟩
  | 35 => ⟨S50000x16, .i32⟩
  | 36 => ⟨S50000x16x1, .i32⟩
  | 37 => ⟨S50000x16x256, .f32⟩
  | 38 => ⟨S50000x16x1, .f32⟩
  | 39 => ⟨S50000x16x256, .f32⟩
  | 40 => ⟨S50000x16x256, .f32⟩
  | 41 => ⟨S_, .f32⟩
  | 42 => ⟨S50000x256, .f32⟩
  | 43 => ⟨S_, .f32⟩
  | 44 => ⟨S50000, .f32⟩
  | 45 => ⟨S50000x1, .f32⟩
  | 46 => ⟨S_, .f32⟩
  | 47 => ⟨S50000x1, .f32⟩
  | 48 => ⟨S50000x1, .i1⟩
  | 49 => ⟨S_, .f32⟩
  | 50 => ⟨S50000x1, .f32⟩
  | 51 => ⟨S50000x1, .f32⟩
  | 52 => ⟨S50000x256, .f32⟩
  | 53 => ⟨S50000x256, .f32⟩
  | 54 => ⟨S_, .f32⟩
  | 55 => ⟨S_, .f32⟩
  | 56 => ⟨S50000x256, .i1⟩
  | 57 => ⟨S50000x256, .f32⟩
  | 58 => ⟨S50000x256, .f32⟩
  | 59 => ⟨S50000x256, .f32⟩
  | 60 => ⟨S1x256, .f32⟩
  | 61 => ⟨S50000x256, .f32⟩
  | 62 => ⟨S50000x256, .f32⟩
  | 63 => ⟨S_, .i32⟩
  | 64 => ⟨S50000x16, .i32⟩
  | 65 => ⟨S50000x16, .i1⟩
  | 66 => ⟨S_, .i32⟩
  | 67 => ⟨S50000x16, .i32⟩
  | 68 => ⟨S50000x16, .i32⟩
  | 69 => ⟨S50000x16, .i32⟩
  | 70 => ⟨S50000x16x1, .i32⟩
  | 71 => ⟨S50000x16x256, .f32⟩
  | 72 => ⟨S50000x16x1, .f32⟩
  | 73 => ⟨S50000x16x256, .f32⟩
  | 74 => ⟨S50000x16x256, .f32⟩
  | 75 => ⟨S_, .f32⟩
  | 76 => ⟨S50000x256, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .i1⟩
  | 83 => ⟨S_, .f32⟩
  | 84 => ⟨S50000x1, .f32⟩
  | 85 => ⟨S50000x1, .f32⟩
  | 86 => ⟨S50000x256, .f32⟩
  | 87 => ⟨S50000x256, .f32⟩
  | 88 => ⟨S_, .f32⟩
  | 89 => ⟨S_, .f32⟩
  | 90 => ⟨S50000x256, .i1⟩
  | 91 => ⟨S50000x256, .f32⟩
  | 92 => ⟨S50000x256, .f32⟩
  | 93 => ⟨S50000x512, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x256, .f32⟩
  | 102 => ⟨S1x256, .f32⟩
  | 103 => ⟨S50000x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S_, .i32⟩
  | 110 => ⟨S10000x32, .i32⟩
  | 111 => ⟨S10000x32, .i1⟩
  | 112 => ⟨S_, .i32⟩
  | 113 => ⟨S10000x32, .i32⟩
  | 114 => ⟨S10000x32, .i32⟩
  | 115 => ⟨S10000x32, .i32⟩
  | 116 => ⟨S10000x32x1, .i32⟩
  | 117 => ⟨S10000x32x256, .f32⟩
  | 118 => ⟨S10000x32x1, .f32⟩
  | 119 => ⟨S10000x32x256, .f32⟩
  | 120 => ⟨S10000x32x256, .f32⟩
  | 121 => ⟨S_, .f32⟩
  | 122 => ⟨S10000x256, .f32⟩
  | 123 => ⟨S_, .f32⟩
  | 124 => ⟨S10000, .f32⟩
  | 125 => ⟨S10000x1, .f32⟩
  | 126 => ⟨S_, .f32⟩
  | 127 => ⟨S10000x1, .f32⟩
  | _ => ⟨S100000x256, .f32⟩

abbrev hbmTy0_1 (i : Nat) : BufTy := match i % 128 with
  | 0 => ⟨S10000x1, .i1⟩
  | 1 => ⟨S_, .f32⟩
  | 2 => ⟨S10000x1, .f32⟩
  | 3 => ⟨S10000x1, .f32⟩
  | 4 => ⟨S10000x256, .f32⟩
  | 5 => ⟨S10000x256, .f32⟩
  | 6 => ⟨S_, .f32⟩
  | 7 => ⟨S_, .f32⟩
  | 8 => ⟨S10000x256, .i1⟩
  | 9 => ⟨S10000x256, .f32⟩
  | 10 => ⟨S10000x256, .f32⟩
  | 11 => ⟨S10000x256, .f32⟩
  | 12 => ⟨S1x256, .f32⟩
  | 13 => ⟨S10000x256, .f32⟩
  | 14 => ⟨S10000x256, .f32⟩
  | 15 => ⟨S_, .i32⟩
  | 16 => ⟨S10000x8, .i32⟩
  | 17 => ⟨S10000x8, .i1⟩
  | 18 => ⟨S_, .i32⟩
  | 19 => ⟨S10000x8, .i32⟩
  | 20 => ⟨S10000x8, .i32⟩
  | 21 => ⟨S10000x8, .i32⟩
  | 22 => ⟨S10000x8x1, .i32⟩
  | 23 => ⟨S10000x8x256, .f32⟩
  | 24 => ⟨S10000x8x1, .f32⟩
  | 25 => ⟨S10000x8x256, .f32⟩
  | 26 => ⟨S10000x8x256, .f32⟩
  | 27 => ⟨S_, .f32⟩
  | 28 => ⟨S10000x256, .f32⟩
  | 29 => ⟨S_, .f32⟩
  | 30 => ⟨S10000, .f32⟩
  | 31 => ⟨S10000x1, .f32⟩
  | 32 => ⟨S_, .f32⟩
  | 33 => ⟨S10000x1, .f32⟩
  | 34 => ⟨S10000x1, .i1⟩
  | 35 => ⟨S_, .f32⟩
  | 36 => ⟨S10000x1, .f32⟩
  | 37 => ⟨S10000x1, .f32⟩
  | 38 => ⟨S10000x256, .f32⟩
  | 39 => ⟨S10000x256, .f32⟩
  | 40 => ⟨S_, .f32⟩
  | 41 => ⟨S_, .f32⟩
  | 42 => ⟨S10000x256, .i1⟩
  | 43 => ⟨S10000x256, .f32⟩
  | 44 => ⟨S10000x256, .f32⟩
  | 45 => ⟨S10000x512, .f32⟩
  | 46 => ⟨S10000x256, .f32⟩
  | 47 => ⟨S1x256, .f32⟩
  | 48 => ⟨S10000x256, .f32⟩
  | 49 => ⟨S10000x256, .f32⟩
  | 50 => ⟨S_, .f32⟩
  | 51 => ⟨S10000x256, .f32⟩
  | 52 => ⟨S10000x256, .f32⟩
  | 53 => ⟨S10000x256, .f32⟩
  | 54 => ⟨S1x256, .f32⟩
  | 55 => ⟨S10000x256, .f32⟩
  | 56 => ⟨S10000x256, .f32⟩
  | 57 => ⟨S10000x256, .f32⟩
  | 58 => ⟨S1x256, .f32⟩
  | 59 => ⟨S10000x256, .f32⟩
  | 60 => ⟨S10000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_11 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call2_cst : Ref sig .tc := ⟨.hbm, 98, rfl⟩
abbrev main_call2_v0 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_12 : Ref sig .tc := ⟨.hbm, 109, rfl⟩
abbrev main_v66 : Ref sig .tc := ⟨.hbm, 110, rfl⟩
abbrev main_v67 : Ref sig .tc := ⟨.hbm, 111, rfl⟩
abbrev main_c_13 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_14 : Ref sig .tc := ⟨.hbm, 121, rfl⟩
abbrev main_v76 : Ref sig .tc := ⟨.hbm, 122, rfl⟩
abbrev main_cst_15 : Ref sig .tc := ⟨.hbm, 123, rfl⟩
abbrev main_v77 : Ref sig .tc := ⟨.hbm, 124, rfl⟩
abbrev main_v78 : Ref sig .tc := ⟨.hbm, 125, rfl⟩
abbrev main_cst_16 : Ref sig .tc := ⟨.hbm, 126, rfl⟩
abbrev main_v79 : Ref sig .tc := ⟨.hbm, 127, rfl⟩
abbrev main_v80 : Ref sig .tc := ⟨.hbm, 128, rfl⟩
abbrev main_cst_17 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_18 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_19 : Ref sig .tc := ⟨.hbm, 143, rfl⟩
abbrev main_v90 : Ref sig .tc := ⟨.hbm, 144, rfl⟩
abbrev main_v91 : Ref sig .tc := ⟨.hbm, 145, rfl⟩
abbrev main_c_20 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_21 : Ref sig .tc := ⟨.hbm, 155, rfl⟩
abbrev main_v100 : Ref sig .tc := ⟨.hbm, 156, rfl⟩
abbrev main_cst_22 : Ref sig .tc := ⟨.hbm, 157, rfl⟩
abbrev main_v101 : Ref sig .tc := ⟨.hbm, 158, rfl⟩
abbrev main_v102 : Ref sig .tc := ⟨.hbm, 159, rfl⟩
abbrev main_cst_23 : Ref sig .tc := ⟨.hbm, 160, rfl⟩
abbrev main_v103 : Ref sig .tc := ⟨.hbm, 161, rfl⟩
abbrev main_v104 : Ref sig .tc := ⟨.hbm, 162, rfl⟩
abbrev main_cst_24 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_25 : Ref sig .tc := ⟨.hbm, 168, rfl⟩
abbrev main_call4_v0 : Ref sig .tc := ⟨.hbm, 169, rfl⟩
abbrev main_call4_v1 : Ref sig .tc := ⟨.hbm, 170, rfl⟩
abbrev main_call4_v2 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_call5_cst : Ref sig .tc := ⟨.hbm, 178, rfl⟩
abbrev main_call5_v0 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  bcast_S50000x16x1_S50000x16x256_0_1_2 : S50000x16x1.BroadcastsInDim S50000x16x256 (![0, 1, 2] : Fin 3 → Fin S50000x16x256.rank)
  reducesTo_S50000x16x256_S50000x256_d1 : S50000x16x256.ReducesTo [1] S50000x256
  h_S_ : 0 < S_.numel
  reducesTo_S50000x16_S50000_d1 : S50000x16.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  concatenates_S50000x256_S50000x256_S50000x512_d1 : Shape.Concatenates [S50000x256, S50000x256] S50000x512 1
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  bcast_S10000x32x1_S10000x32x256_0_1_2 : S10000x32x1.BroadcastsInDim S10000x32x256 (![0, 1, 2] : Fin 3 → Fin S10000x32x256.rank)
  reducesTo_S10000x32x256_S10000x256_d1 : S10000x32x256.ReducesTo [1] S10000x256
  reducesTo_S10000x32_S10000_d1 : S10000x32.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  bcast_S10000x8x1_S10000x8x256_0_1_2 : S10000x8x1.BroadcastsInDim S10000x8x256 (![0, 1, 2] : Fin 3 → Fin S10000x8x256.rank)
  reducesTo_S10000x8x256_S10000x256_d1 : S10000x8x256.ReducesTo [1] S10000x256
  reducesTo_S10000x8_S10000_d1 : S10000x8.ReducesTo [1] S10000
  concatenates_S10000x256_S10000x256_S10000x512_d1 : Shape.Concatenates [S10000x256, S10000x256] S10000x512 1
  dot_S100000x256_S256x256_S100000x256_1_0_0_1_n_n_wf : DotDims.WF S100000x256 S256x256 S100000x256 [1] [0] [0] [1] [] []
  gather_S100000x256_S50000x16x1_S50000x16x256_2_0_n_n_0_2_1256_wf : GatherDims.WF S100000x256 S50000x16x1 S50000x16x256 [2] [0] [] [0] [] 2 ![1, 256]
  dot_S50000x256_S256x256_S50000x256_1_0_0_1_n_n_wf : DotDims.WF S50000x256 S256x256 S50000x256 [1] [0] [0] [1] [] []
  dot_S50000x512_S512x256_S50000x256_1_0_0_1_n_n_wf : DotDims.WF S50000x512 S512x256 S50000x256 [1] [0] [0] [1] [] []
  gather_S100000x256_S10000x32x1_S10000x32x256_2_0_n_n_0_2_1256_wf : GatherDims.WF S100000x256 S10000x32x1 S10000x32x256 [2] [0] [] [0] [] 2 ![1, 256]
  dot_S10000x256_S256x256_S10000x256_1_0_0_1_n_n_wf : DotDims.WF S10000x256 S256x256 S10000x256 [1] [0] [0] [1] [] []
  gather_S50000x256_S10000x8x1_S10000x8x256_2_0_n_n_0_2_1256_wf : GatherDims.WF S50000x256 S10000x8x1 S10000x8x256 [2] [0] [] [0] [] 2 ![1, 256]
  dot_S10000x512_S512x256_S10000x256_1_0_0_1_n_n_wf : DotDims.WF S10000x512 S512x256 S10000x256 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S50000x16x1_S50000x16x256_2_0_n_n_0_2_1256 : GatherDims S100000x256 S50000x16x1 S50000x16x256 where
  offsetDims := [2]
  collapsedSliceDims := [0]
  operandBatchingDims := []
  startIndicesBatchingDims := []
  startIndexMap := [0]
  indexVectorDim := 2
  sliceSizes := ![1, 256]
  wf := gather_S100000x256_S50000x16x1_S50000x16x256_2_0_n_n_0_2_1256_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S100000x256_S10000x32x1_S10000x32x256_2_0_n_n_0_2_1256 : GatherDims S100000x256 S10000x32x1 S10000x32x256 where
  offsetDims := [2]
  collapsedSliceDims := [0]
  operandBatchingDims := []
  startIndicesBatchingDims := []
  startIndexMap := [0]
  indexVectorDim := 2
  sliceSizes := ![1, 256]
  wf := gather_S100000x256_S10000x32x1_S10000x32x256_2_0_n_n_0_2_1256_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S50000x256_S10000x8x1_S10000x8x256_2_0_n_n_0_2_1256 : GatherDims S50000x256 S10000x8x1 S10000x8x256 where
  offsetDims := [2]
  collapsedSliceDims := [0]
  operandBatchingDims := []
  startIndicesBatchingDims := []
  startIndexMap := [0]
  indexVectorDim := 2
  sliceSizes := ![1, 256]
  wf := gather_S50000x256_S10000x8x1_S10000x8x256_2_0_n_n_0_2_1256_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumnsConcat.lean ====
/-
  Two matrices joined along their columns, read at coordinates, for any extents and element type: the [a, b₁ + b₂]
  matrix `[x₁ | x₂]` reads, at (p, d), `x₁` at (p, d) when `d < b₁` and `x₂` at (p, d - b₁) otherwise (what a kernel's
  `jnp.concatenate([x₁, x₂], axis=-1)` of two [a, ·] values needs); and an [a, 1, 1] array cast to the column [a, 1]
  reads, at (p, 0), the operand at (p, 0, 0) (a keepdims slice of an [a, k, 1] array with one unit axis dropped).
-/
import Idealize.ShloMosaic.Lib.ValueIdx
import Idealize.ShloMosaic.Lib.Pipeline.Value

namespace Idealize.ShloMosaic.ValueIdx

variable {α : Type}

/-- A column in the first piece: `[x₁ | x₂]` at (p, d) with `d < b₁` is `x₁` at (p, d). -/
theorem concatenate_cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : d.val < b₁) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₁ (ix2 p ⟨d.val, hd⟩) :=
  concatenate_pair_apply_left _ x₁ x₂ h (ix2 p d) rfl (ix2 p ⟨d.val, hd⟩)
    (fun c => match c with | ⟨0, _⟩ => rfl | ⟨1, _⟩ => rfl)

/-- A column in the second piece: `[x₁ | x₂]` at (p, d) with `b₁ ≤ d` is `x₂` at (p, d - b₁). -/
theorem concatenate_cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : b₁ ≤ d.val) (hd2 : d.val - b₁ < b₂) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₂ (ix2 p ⟨d.val - b₁, hd2⟩) :=
  concatenate_pair_apply_right _ x₁ x₂ h (ix2 p d) rfl rfl (ix2 p ⟨d.val - b₁, hd2⟩)
    (fun c hc => match c, hc with | ⟨0, _⟩, _ => rfl | ⟨1, _⟩, hc => absurd rfl hc)
    (by show d.val - b₁ + b₁ = d.val; omega)

/-- An [a, 1, 1] array cast to the column [a, 1] reads, at (p, 0), the operand at (p, 0, 0). -/
theorem shapeCast_a11_a1_apply {a : ℕ} (x : (⟨3, ![a, 1, 1]⟩ : Shape).Idx → α)
    (h : (⟨3, ![a, 1, 1]⟩ : Shape).ShapeCasts ⟨2, ![a, 1]⟩) (p : Fin a) :
    shapeCast ⟨2, ![a, 1]⟩ x h (ix2 p (0 : Fin 1)) = x (ix3 p (0 : Fin 1) (0 : Fin 1)) :=
  shapeCast_apply x h _ _ (by
    rw [Shape.rowMajor_val_three, Shape.rowMajor_val_two]
    show (p.val * 1 + 0) * 1 + 0 = p.val * 1 + 0
    omega)

end Idealize.ShloMosaic.ValueIdx
-- ==== Proof.LibRowLayers.lean ====
/-
  Layers that act on the rows of a matrix, read one row at a time on the extended reals.

  A linear layer x · W + b, the rectifier, and the join of two matrices along their columns each produce row r of
  their result from row r of their operands alone.  Stated for any extents: row r of the matrix unit's product into
  a zero accumulator (operands narrowed to bf16) plus a [1, n] bias repeated down the rows, and row r of the host's
  dot product plus a bias vector broadcast [n] → [1, n] → [a, n], are both `linRow` — the sum over j of u j · W j q
  plus b q — of row r of x; the rectifier spelt as a maximum with a zero splat (kernel) or with a broadcast zero
  constant (host) is `reluRow`; a concatenate along the last axis is `joinRow`; a change of float format keeps the
  row.  With these a kernel that cuts the rows of an MLP into blocks and a reference that treats the whole matrix
  are read as the same function of a row, layer by layer, by one rewrite per layer.
  It imports LibMatmul (a rank-2 product read at (p, q)) and LibColumnsConcat (a column join read at (p, d)).
-/
import proofs.«132306_j27711128994331_2_alg».proof.Proof.LibMatmul
import proofs.«132306_j27711128994331_2_alg».proof.Proof.LibColumnsConcat
import Idealize.ShloMosaic.Lib.ValueIdx
import Idealize.ShloMosaic.Lib.Pipeline.Value
import Idealize.ShloMosaic.Lib.ValueLayout
import Idealize.ShloMosaic.PureOps.Ideal

open scoped BigOperators

noncomputable section

namespace Idealize.ShloMosaic.RowLayers

open Idealize.ShloMosaic Idealize.ShloMosaic.ValueIdx

/-- A matrix as a function of its row and column. -/
def mat {k n : ℕ} (W : (⟨2, ![k, n]⟩ : Shape).Idx → EReal) : Fin k → Fin n → EReal := fun j q => W (ix2 j q)

/-- A one-row matrix as a function of its column. -/
def row1 {n : ℕ} (b : (⟨2, ![1, n]⟩ : Shape).Idx → EReal) : Fin n → EReal := fun q => b (ix2 (0 : Fin 1) q)

/-- A vector as a function of its position. -/
def vec {n : ℕ} (b : (⟨1, ![n]⟩ : Shape).Idx → EReal) : Fin n → EReal := fun q => b (ix1 q)

/-- Row r of a matrix. -/
def rowOf {a k : ℕ} (x : (⟨2, ![a, k]⟩ : Shape).Idx → EReal) (r : Fin a) : Fin k → EReal := fun j => x (ix2 r j)

/-- A linear layer on one row: entry q of u · W + b. -/
def linRow {k n : ℕ} (W : Fin k → Fin n → EReal) (b : Fin n → EReal) (u : Fin k → EReal) : Fin n → EReal :=
  fun q => (∑ j : Fin k, u j * W j q) + b q

/-- The rectifier on one row: the larger of each entry and the value of the all-zero f32 word. -/
def reluRow {n : ℕ} (u : Fin n → EReal) : Fin n → EReal := fun q => max (u q) (Ideal.ofBits .f32 0x00000000#32)

/-- Two rows side by side. -/
def joinRow {b₁ b₂ b : ℕ} (hb : b = b₁ + b₂) (u : Fin b₁ → EReal) (v : Fin b₂ → EReal) : Fin b → EReal :=
  fun d => if h : d.val < b₁ then u ⟨d.val, h⟩ else v ⟨d.val - b₁, by have := d.isLt; omega⟩

variable {a k n : ℕ}

/-- Row p of the matrix unit's x · W (both operands narrowed to bf16, zero accumulator) plus a [1, n] bias repeated down
    the rows is the linear layer on row p of x. -/
theorem kernel_lin_row (d : DotDims ⟨2, ![a, k]⟩ ⟨2, ![k, n]⟩ ⟨2, ![a, n]⟩)
    (hl : d.lhsContracting = [1]) (hr : d.rhsContracting = [0]) (hln : d.lhsNonContracting = [0])
    (hrn : d.rhsNonContracting = [1]) (hlb : d.lhsBatch = []) (hrb : d.rhsBatch = [])
    (h1 : FTy.bf16.bits < FTy.f32.bits)
    (hb : (⟨2, ![1, n]⟩ : Shape).Broadcasts ⟨2, ![a, n]⟩)
    (x : FVec Ideal ⟨2, ![a, k]⟩ .f32) (W : FVec Ideal ⟨2, ![k, n]⟩ .f32) (b : FVec Ideal ⟨2, ![1, n]⟩ .f32) (p : Fin a) :
    rowOf (addf (matmul d none (truncf .bf16 x h1) (truncf .bf16 W h1) (constant ⟨2, ![a, n]⟩ .f32 0x00000000#32))
        (broadcastTo ⟨2, ![a, n]⟩ b hb)) p
      = linRow (mat W) (row1 b) (rowOf x p) := by
  funext q
  show FloatOps.matmul d none (truncf .bf16 x h1) (truncf .bf16 W h1) (constant ⟨2, ![a, n]⟩ .f32 0x00000000#32) (ix2 p q)
      + broadcastTo ⟨2, ![a, n]⟩ b hb (ix2 p q) = _
  rw [matmul_zero_ix2 d hl hr hln hrn hlb hrb,
    broadcastTo_apply b hb (ix2 p q) (ix2 (0 : Fin 1) q) (fun c => match c with
      | ⟨0, _⟩ => by show 0 = if (1 : ℕ) = 1 then 0 else _; rw [if_pos rfl]
      | ⟨1, _⟩ => by
        show q.val = if n = 1 then 0 else q.val
        split
        · have := q.isLt; omega
        · rfl)]
  rfl

/-- Row p of the rectifier as the kernel spells it: the entrywise maximum with the splat of the zero word. -/
theorem kernel_relu_row (x : FVec Ideal ⟨2, ![a, n]⟩ .f32) (p : Fin a) :
    rowOf (maximumf x (broadcast ⟨2, ![a, n]⟩ (Scalar.ofBits (F := Ideal) .f32 0x00000000#32))) p = reluRow (rowOf x p) := rfl

/-- Row r of the rectifier as the host spells it: the entrywise maximum with the broadcast of the zero constant. -/
theorem host_relu_row (h : (⟨0, ![]⟩ : Shape).BroadcastsInDim ⟨2, ![a, n]⟩ ![]) (x : FVec Ideal ⟨2, ![a, n]⟩ .f32) (r : Fin a) :
    rowOf (maximumf x (broadcastInDim ⟨2, ![a, n]⟩ ![] h (constant (F := Ideal) ⟨0, ![]⟩ .f32 0x00000000#32))) r = reluRow (rowOf x r) := by
  funext q
  show max (x (ix2 r q)) (broadcastInDim ⟨2, ![a, n]⟩ ![] h (constant (F := Ideal) ⟨0, ![]⟩ .f32 0x00000000#32) (ix2 r q)) = _
  rw [broadcastInDim_apply _ h _ (ix2 r q) (fun c => c.elim0) (fun c => c.elim0)]
  rfl

/-- Row r of the host's x · W plus a bias vector broadcast first to one row and then down the rows is the linear layer
    on row r of x. -/
theorem host_lin_row (d : DotDims ⟨2, ![a, k]⟩ ⟨2, ![k, n]⟩ ⟨2, ![a, n]⟩)
    (hl : d.lhsContracting = [1]) (hr : d.rhsContracting = [0]) (hln : d.lhsNonContracting = [0])
    (hrn : d.rhsNonContracting = [1]) (hlb : d.lhsBatch = []) (hrb : d.rhsBatch = [])
    (h1 : (⟨1, ![n]⟩ : Shape).BroadcastsInDim ⟨2, ![1, n]⟩ ![1])
    (h2 : (⟨2, ![1, n]⟩ : Shape).BroadcastsInDim ⟨2, ![a, n]⟩ ![0, 1])
    (x : FVec Ideal ⟨2, ![a, k]⟩ .f32) (W : FVec Ideal ⟨2, ![k, n]⟩ .f32) (b : FVec Ideal ⟨1, ![n]⟩ .f32) (r : Fin a) :
    rowOf (addf (Host.dotGeneral d none x W)
        (broadcastInDim ⟨2, ![a, n]⟩ ![0, 1] h2 (broadcastInDim ⟨2, ![1, n]⟩ ![1] h1 b))) r
      = linRow (mat W) (vec b) (rowOf x r) := by
  funext q
  show Host.dotGeneral d none x W (ix2 r q)
      + broadcastInDim ⟨2, ![a, n]⟩ ![0, 1] h2 (broadcastInDim ⟨2, ![1, n]⟩ ![1] h1 b) (ix2 r q) = _
  simp only [Host.dotGeneral]
  rw [dotGeneral_ix2 d hl hr hln hrn hlb hrb,
    broadcastInDim_apply _ h2 _ (ix2 r q) (ix2 (0 : Fin 1) q) (fun c => match c with
      | ⟨0, _⟩ => by show 0 = if (1 : ℕ) = 1 then 0 else _; rw [if_pos rfl]
      | ⟨1, _⟩ => by
        show q.val = if n = 1 then 0 else q.val
        split
        · have := q.isLt; omega
        · rfl),
    broadcastInDim_apply _ h1 b (ix2 (0 : Fin 1) q) (ix1 q) (fun c => match c with
      | ⟨0, _⟩ => by
        show q.val = if n = 1 then 0 else q.val
        split
        · have := q.isLt; omega
        · rfl)]
  rfl

/-- Row r of two matrices [a, b₁] and [a, b₂] joined along their columns is the two rows side by side. -/
theorem concat_row {b₁ b₂ b : ℕ} (hb : b = b₁ + b₂)
    (h : Shape.Concatenates [⟨2, ![a, b₁]⟩, ⟨2, ![a, b₂]⟩] ⟨2, ![a, b]⟩ (1 : Fin (⟨2, ![a, b]⟩ : Shape).rank))
    (A : (⟨2, ![a, b₁]⟩ : Shape).Idx → EReal) (B : (⟨2, ![a, b₂]⟩ : Shape).Idx → EReal) (r : Fin a) :
    rowOf (concatenate ⟨2, ![a, b]⟩ (1 : Fin (⟨2, ![a, b]⟩ : Shape).rank) [⟨⟨2, ![a, b₁]⟩, A⟩, ⟨⟨2, ![a, b₂]⟩, B⟩] h) r
      = joinRow hb (rowOf A r) (rowOf B r) := by
  funext d
  unfold joinRow
  by_cases hd : d.val < b₁
  · rw [dif_pos hd]; exact concatenate_cols_left A B h r d hd
  · rw [dif_neg hd]; exact concatenate_cols_right A B h r d (by omega) (by have := d.isLt; omega)

/-- A change of float format does not change a row. -/
theorem truncf_row (h1 : FTy.bf16.bits < FTy.f32.bits) (x : FVec Ideal ⟨2, ![a, n]⟩ .f32) (p : Fin a) :
    rowOf (truncf .bf16 x h1) p = rowOf x p := rfl

end Idealize.ShloMosaic.RowLayers

end
-- ==== Proof.Spec.lean ====
/-
  The mathematics both programs compute, one row at a time.

  Every stage of the encoder acts on the rows of a matrix independently: a linear layer sends the row u to
  u · W + b, the rectifier clips every entry at zero from below, and a join puts two rows side by side.  The
  dimension-0 embedding of a row is proj (lin0 u); the embedding of a level-1 or level-2 cell is
  proj (enc (lin0 u | v)) with enc = (rectifier of a linear layer) followed by a linear layer, where u is the
  cell's masked mean of chunk features and v its masked mean of boundary embeddings.  Since all of this is row by
  row, a program that cuts the rows into blocks and one that treats the whole matrix compute the same array.
-/
import proofs.«132306_j27711128994331_2_alg».proof.Proof.LibRowLayers

noncomputable section

namespace Cert.Spec

open Idealize.ShloMosaic Idealize.ShloMosaic.RowLayers

/-- The dimension-0 embedding of one row: proj (lin0 u). -/
def emb0Row (W0 : Fin 256 → Fin 256 → EReal) (b0 : Fin 256 → EReal) (Wout : Fin 256 → Fin 256 → EReal)
    (bout : Fin 256 → EReal) (u : Fin 256 → EReal) : Fin 256 → EReal :=
  linRow Wout bout (linRow W0 b0 u)

/-- The embedding of one higher cell from its two masked means u (chunk features) and v (boundary embeddings):
    proj (enc (lin0 u | v)). -/
def levelRow (W0 : Fin 256 → Fin 256 → EReal) (b0 : Fin 256 → EReal) (Wa : Fin 512 → Fin 256 → EReal)
    (ba : Fin 256 → EReal) (Wb : Fin 256 → Fin 256 → EReal) (bb : Fin 256 → EReal)
    (Wout : Fin 256 → Fin 256 → EReal) (bout : Fin 256 → EReal) (u v : Fin 256 → EReal) : Fin 256 → EReal :=
  linRow Wout bout (linRow Wb bb (reluRow (linRow Wa ba (joinRow (b₁ := 256) (b₂ := 256) (b := 512) rfl (linRow W0 b0 u) v))))

end Cert.Spec

end
-- ==== Proof.KernelRows.lean ====
/-
  The idealized kernels' block computations, one row at a time.

  The dimension-0 kernel sends a block of chunk rows through lin0 and then proj; the level kernel sends a block of
  masked-mean rows u (and the matching boundary means v) through lin0, joins (lin0 u | v), and applies the encoder
  and proj.  Every step acts on the rows separately, so row p of the block a kernel stores is the row function of
  Spec applied to row p of its input blocks, with the weights as the kernel holds them (a bias as a [1, 256] block).
-/
import proofs.«132306_j27711128994331_2_alg».proof.Proof.Gen.KernelIdeal.Skeleton
import proofs.«132306_j27711128994331_2_alg».proof.Proof.Spec

set_option maxRecDepth 16384

noncomputable section

namespace Cert.KernelIdeal.Rows

open Cert.KernelIdeal Cert.KernelIdeal.Gen Cert.Spec Idealize.ShloMosaic.RowLayers
open Idealize.ShloMosaic Idealize.ShloMosaic.ValueIdx

/-- Row p of the dimension-0 kernel's stored block: proj (lin0 (row p of the chunk block)). -/
theorem pay0_row (x0 : Vec Ideal S4000x256 .f32) (x1 : Vec Ideal S256x256 .f32) (x2 : Vec Ideal S1x256 .f32)
    (x3 : Vec Ideal S256x256 .f32) (x4 : Vec Ideal S1x256 .f32) (p : Fin 4000) :
    rowOf (k0_pay1 x0 x1 x2 x3 x4) p = emb0Row (mat x1) (row1 x2) (mat x3) (row1 x4) (rowOf x0 p) := by
  unfold k0_pay1 emb0Row
  dsimp only
  simp only [shapeCast_self]
  rw [kernel_lin_row dot_S4000x256_S256x256_S4000x256_1_0_0_1_n_n rfl rfl rfl rfl rfl rfl,
    kernel_lin_row dot_S4000x256_S256x256_S4000x256_1_0_0_1_n_n rfl rfl rfl rfl rfl rfl]

/-- Row p of the level kernel's stored block: proj (enc (lin0 u | v)) for u, v the rows p of the two mean blocks. -/
theorem pay1_row (x0 x1 : Vec Ideal S2000x256 .f32) (x2 : Vec Ideal S256x256 .f32) (x3 : Vec Ideal S1x256 .f32)
    (x4 : Vec Ideal S512x256 .f32) (x5 : Vec Ideal S1x256 .f32) (x6 : Vec Ideal S256x256 .f32) (x7 : Vec Ideal S1x256 .f32)
    (x8 : Vec Ideal S256x256 .f32) (x9 : Vec Ideal S1x256 .f32) (p : Fin 2000) :
    rowOf (k1_pay1 (k1_pay3 x0 x2 x3 x1 x4 x5 x6 x7 x8) x9) p
      = levelRow (mat x2) (row1 x3) (mat x4) (row1 x5) (mat x6) (row1 x7) (mat x8) (row1 x9) (rowOf x0 p) (rowOf x1 p) := by
  unfold k1_pay1 k1_pay3 levelRow
  dsimp only
  simp only [shapeCast_self]
  rw [kernel_lin_row dot_S2000x256_S256x256_S2000x256_1_0_0_1_n_n rfl rfl rfl rfl rfl rfl,
    kernel_lin_row dot_S2000x256_S256x256_S2000x256_1_0_0_1_n_n rfl rfl rfl rfl rfl rfl,
    kernel_relu_row,
    kernel_lin_row dot_S2000x512_S512x256_S2000x256_1_0_0_1_n_n rfl rfl rfl rfl rfl rfl,
    concat_row (b₁ := 256) (b₂ := 256) (b := 512) rfl,
    kernel_lin_row dot_S2000x256_S256x256_S2000x256_1_0_0_1_n_n rfl rfl rfl rfl rfl rfl]
  simp only [shapeCast_self]

/-- The same for the second level's kernel (the same body at the second level's weights). -/
theorem pay2_row (x0 x1 : Vec Ideal S2000x256 .f32) (x2 : Vec Ideal S256x256 .f32) (x3 : Vec Ideal S1x256 .f32)
    (x4 : Vec Ideal S512x256 .f32) (x5 : Vec Ideal S1x256 .f32) (x6 : Vec Ideal S256x256 .f32) (x7 : Vec Ideal S1x256 .f32)
    (x8 : Vec Ideal S256x256 .f32) (x9 : Vec Ideal S1x256 .f32) (p : Fin 2000) :
    rowOf (k2_pay1 (k2_pay3 x0 x2 x3 x1 x4 x5 x6 x7 x8) x9) p
      = levelRow (mat x2) (row1 x3) (mat x4) (row1 x5) (mat x6) (row1 x7) (mat x8) (row1 x9) (rowOf x0 p) (rowOf x1 p) := by
  unfold k2_pay1 k2_pay3 levelRow
  dsimp only
  simp only [shapeCast_self]
  rw [kernel_lin_row dot_S2000x256_S256x256_S2000x256_1_0_0_1_n_n rfl rfl rfl rfl rfl rfl,
    kernel_lin_row dot_S2000x256_S256x256_S2000x256_1_0_0_1_n_n rfl rfl rfl rfl rfl rfl,
    kernel_relu_row,
    kernel_lin_row dot_S2000x512_S512x256_S2000x256_1_0_0_1_n_n rfl rfl rfl rfl rfl rfl,
    concat_row (b₁ := 256) (b₂ := 256) (b := 512) rfl,
    kernel_lin_row dot_S2000x256_S256x256_S2000x256_1_0_0_1_n_n rfl rfl rfl rfl rfl rfl]
  simp only [shapeCast_self]

/-- The narrowed copies the kernels also store are the same rows: narrowing is the identity on extended reals. -/
theorem pay0b_row (x0 : Vec Ideal S4000x256 .f32) (x1 : Vec Ideal S256x256 .f32) (x2 : Vec Ideal S1x256 .f32)
    (x3 : Vec Ideal S256x256 .f32) (x4 : Vec Ideal S1x256 .f32) (p : Fin 4000) :
    rowOf (k0_pay2 x0 x1 x2 x3 x4) p = emb0Row (mat x1) (row1 x2) (mat x3) (row1 x4) (rowOf x0 p) :=
  pay0_row x0 x1 x2 x3 x4 p

theorem pay1b_row (x0 x1 : Vec Ideal S2000x256 .f32) (x2 : Vec Ideal S256x256 .f32) (x3 : Vec Ideal S1x256 .f32)
    (x4 : Vec Ideal S512x256 .f32) (x5 : Vec Ideal S1x256 .f32) (x6 : Vec Ideal S256x256 .f32) (x7 : Vec Ideal S1x256 .f32)
    (x8 : Vec Ideal S256x256 .f32) (x9 : Vec Ideal S1x256 .f32) (p : Fin 2000) :
    rowOf (k1_pay2 (k1_pay3 x0 x2 x3 x1 x4 x5 x6 x7 x8) x9) p
      = levelRow (mat x2) (row1 x3) (mat x4) (row1 x5) (mat x6) (row1 x7) (mat x8) (row1 x9) (rowOf x0 p) (rowOf x1 p) :=
  pay1_row x0 x1 x2 x3 x4 x5 x6 x7 x8 x9 p

end Cert.KernelIdeal.Rows

namespace Cert.Spec

open Idealize.ShloMosaic Idealize.ShloMosaic.ValueIdx Idealize.ShloMosaic.RowLayers

/-- The dimension-0 embedding of a whole matrix of chunk rows (weights as the kernel holds them). -/
def embArr {M : ℕ} (x : (⟨2, ![M, 256]⟩ : Shape).Idx → EReal) (W0 : (⟨2, ![256, 256]⟩ : Shape).Idx → EReal)
    (b0 : (⟨2, ![1, 256]⟩ : Shape).Idx → EReal) (Wout : (⟨2, ![256, 256]⟩ : Shape).Idx → EReal)
    (bout : (⟨2, ![1, 256]⟩ : Shape).Idx → EReal) : (⟨2, ![M, 256]⟩ : Shape).Idx → EReal :=
  fun i => emb0Row (mat W0) (row1 b0) (mat Wout) (row1 bout) (rowOf x (i 0)) (i 1)

/-- The embedding of a whole level of cells from the two matrices of masked means. -/
def levelArr {M : ℕ} (u v : (⟨2, ![M, 256]⟩ : Shape).Idx → EReal) (W0 : (⟨2, ![256, 256]⟩ : Shape).Idx → EReal)
    (b0 : (⟨2, ![1, 256]⟩ : Shape).Idx → EReal) (Wa : (⟨2, ![512, 256]⟩ : Shape).Idx → EReal)
    (ba : (⟨2, ![1, 256]⟩ : Shape).Idx → EReal) (Wb : (⟨2, ![256, 256]⟩ : Shape).Idx → EReal)
    (bb : (⟨2, ![1, 256]⟩ : Shape).Idx → EReal) (Wout : (⟨2, ![256, 256]⟩ : Shape).Idx → EReal)
    (bout : (⟨2, ![1, 256]⟩ : Shape).Idx → EReal) : (⟨2, ![M, 256]⟩ : Shape).Idx → EReal :=
  fun i => levelRow (mat W0) (row1 b0) (mat Wa) (row1 ba) (mat Wb) (row1 bb) (mat Wout) (row1 bout)
    (rowOf u (i 0)) (rowOf v (i 0)) (i 1)

end Cert.Spec

end
-- ==== Proof.Region0.lean ====
/-
  Region 0 (the dimension-0 embedding) as one array.

  The region cuts the 100000 chunk rows into 25 blocks of 4000; the weights are whole-array blocks that never move.
  Point t stores, as block t of each output, the rows 4000·t … 4000·t + 3999 of proj (lin0 chunk_features): row p of
  what the body stores is the row function of row 4000·t + p.  The 25 blocks tile the array, so after the region
  both outputs (the f32 array and its narrowed copy, the same extended reals) hold proj (lin0 chunk_features).
-/
import proofs.«132306_j27711128994331_2_alg».proof.Proof.Gen.KernelIdeal.Frame
import proofs.«132306_j27711128994331_2_alg».proof.Proof.KernelRows
import Idealize.ShloMosaic.Lib.Pipeline.Value

set_option maxRecDepth 16384

noncomputable section

namespace Cert.KernelIdeal.Region0

open Cert.KernelIdeal Cert.KernelIdeal.Gen Cert.KernelIdeal.Rows Cert.Spec Idealize.ShloMosaic.RowLayers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The array row that row p of block t is. -/
def grow (t : Fin cfg0.N) (p : Fin 4000) : Fin 100000 :=
  ⟨t.val * 4000 + p.val, by have := Nat.lt_of_lt_of_eq t.isLt N_0; have := p.isLt; omega⟩

/-! The printed index maps over the 25 points: a row window sits at block t, a weight window at block 0. -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)

/-! Each input window's block at point t, read off its array as the region finds it. -/
theorem rd_0 (c : Dev nD) (t : Fin cfg0.N) (p : Fin 4000) :
    rowOf (a := 4000) (k := 256) (iblk0 V c 0 t) p = rowOf (V c main_arg0) (grow t p) := by
  obtain ⟨e0, e1⟩ := idx_0 t
  funext j
  show V c main_arg0 (((cfg0.win 0).blk t).view.emb (ix2 p j)) = V c main_arg0 (ix2 (grow t p) j)
  refine congrArg _ (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 256 + 1 * j.val = j.val; rw [e1]; omega
theorem rd_1 (c : Dev nD) (t : Fin cfg0.N) : mat (k := 256) (n := 256) (iblk0 V c 1 t) = mat (V c main_arg9) := by
  obtain ⟨e0, e1⟩ := idx_1 t
  funext i j
  show V c main_arg9 (((cfg0.win 1).blk t).view.emb (ix2 i j)) = V c main_arg9 (ix2 i j)
  refine congrArg _ (funext fun a => Fin.ext ?_)
  match a with
  | ⟨0, _⟩ => show win0_1.index t (0 : Fin 2) * 256 + 1 * i.val = i.val; rw [e0]; omega
  | ⟨1, _⟩ => show win0_1.index t (1 : Fin 2) * 256 + 1 * j.val = j.val; rw [e1]; omega
theorem rd_2 (c : Dev nD) (t : Fin cfg0.N) : row1 (n := 256) (iblk0 V c 2 t) = row1 (V c main_v1) := by
  obtain ⟨e0, e1⟩ := idx_2 t
  funext j
  show V c main_v1 (((cfg0.win 2).blk t).view.emb (ix2 (0 : Fin 1) j)) = V c main_v1 (ix2 (0 : Fin 1) j)
  refine congrArg _ (funext fun a => Fin.ext ?_)
  match a with
  | ⟨0, _⟩ => show win0_2.index t (0 : Fin 2) * 1 + 1 * 0 = 0; rw [e0]
  | ⟨1, _⟩ => show win0_2.index t (1 : Fin 2) * 256 + 1 * j.val = j.val; rw [e1]; omega
theorem rd_3 (c : Dev nD) (t : Fin cfg0.N) : mat (k := 256) (n := 256) (iblk0 V c 3 t) = mat (V c main_arg19) := by
  obtain ⟨e0, e1⟩ := idx_3 t
  funext i j
  show V c main_arg19 (((cfg0.win 3).blk t).view.emb (ix2 i j)) = V c main_arg19 (ix2 i j)
  refine congrArg _ (funext fun a => Fin.ext ?_)
  match a with
  | ⟨0, _⟩ => show win0_3.index t (0 : Fin 2) * 256 + 1 * i.val = i.val; rw [e0]; omega
  | ⟨1, _⟩ => show win0_3.index t (1 : Fin 2) * 256 + 1 * j.val = j.val; rw [e1]; omega
theorem rd_4 (c : Dev nD) (t : Fin cfg0.N) : row1 (n := 256) (iblk0 V c 4 t) = row1 (V c main_v2) := by
  obtain ⟨e0, e1⟩ := idx_4 t
  funext j
  show V c main_v2 (((cfg0.win 4).blk t).view.emb (ix2 (0 : Fin 1) j)) = V c main_v2 (ix2 (0 : Fin 1) j)
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * j.val = j.val; rw [e1]; omega

/-! ## Output window 5 (the f32 embedding) -/

/-- Entry (p, q) of block t is entry (4000·t + p, q) of the array. -/
theorem emb_5 (t : Fin cfg0.N) (p : Fin 4000) (q : Fin 256) :
    ((cfg0.win 5).blk t).view.emb (ix2 p q) = ix2 (grow t p) q := by
  obtain ⟨e0, e1⟩ := idx_5 t
  refine funext fun a => Fin.ext ?_
  match a with
  | ⟨0, _⟩ => show win0_5.index t (0 : Fin 2) * 4000 + 1 * p.val = t.val * 4000 + p.val; rw [e0]; omega
  | ⟨1, _⟩ => show win0_5.index t (1 : Fin 2) * 256 + 1 * q.val = q.val; rw [e1]; omega

/-- What point t writes back is block t of the whole-array function: row p of the stored block is the row function
    of row 4000·t + p of the inputs. -/
theorem flushed_5_eq (c : Dev nD) (t : Fin cfg0.N) :
    (dat0 V c).flushed 5 t = ((cfg0.win 5).blk t).view.read (Elt Ideal)
      (embArr (M := 100000) (V c main_arg0) (V c main_arg9) (V c main_v1) (V c main_arg19) (V c main_v2)) := by
  show (cfg0.win 5).cut (grid0.coords t) ((dat0 V c).after 5 t) = _
  rw [after0_5]
  unfold out0_5
  rw [View.canon_unit_zero hz]
  simp only [View.ld_unit_zero (S := S4000x256) hz, View.ld_unit_zero (S := S256x256) hz, View.ld_unit_zero (S := S1x256) hz]
  funext j
  obtain ⟨p, q, rfl⟩ : ∃ (p : Fin 4000) (q : Fin 256), j = ix2 p q := ⟨j 0, j 1, eq_ix2 j⟩
  show k0_pay1 (iblk0 V c 0 t) (iblk0 V c 1 t) (iblk0 V c 2 t) (iblk0 V c 3 t) (iblk0 V c 4 t) (ix2 p q)
    = (embArr (M := 100000) (V c main_arg0) (V c main_arg9) (V c main_v1) (V c main_arg19) (V c main_v2)) (((cfg0.win 5).blk t).view.emb (ix2 p q))
  rw [emb_5 t p q]
  refine (congrFun (pay0_row (iblk0 V c 0 t) (iblk0 V c 1 t) (iblk0 V c 2 t) (iblk0 V c 3 t) (iblk0 V c 4 t) p) q).trans ?_
  rw [rd_0 V c t p, rd_1 V c t, rd_2 V c t, rd_3 V c t, rd_4 V c t]
  rfl

/-- An index is in point t's block iff each coordinate is in the block's range. -/
theorem mem_blk_5 (t : Fin cfg0.N) (i : S100000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v3_0).slice (win0_5.rect t)).set ↔ _
  rw [View.set_slice_whole, Rect.mem_set_unit]
  exact Iff.rfl

/-- The 25 blocks tile the array: row r lies in block r / 4000. -/
theorem cover_5 (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have ht : (i 0).val / 4000 < cfg0.N := Nat.lt_of_lt_of_eq (by omega : (i 0).val / 4000 < 25) N_0.symm
  obtain ⟨e0, e1⟩ := idx_5 ⟨(i 0).val / 4000, ht⟩
  refine ⟨⟨(i 0).val / 4000, ht⟩, flush0_5 _, ?_⟩
  rw [mem_blk_5]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_5.index ⟨(i 0).val / 4000, ht⟩ (1 : Fin 2) * 256 ≤ (i 1).val ∧ (i 1).val < win0_5.index ⟨(i 0).val / 4000, ht⟩ (1 : Fin 2) * 256 + 256
    rw [e1]
    omega

/-- The array after the region. -/
theorem final_5 (c : Dev nD) :
    (dat0 V c).arrAt 5 cfg0.N = (embArr (M := 100000) (V c main_arg0) (V c main_arg9) (V c main_v1) (V c main_arg19) (V c main_v2)) :=
  (dat0 V c).arrAt_eq_of_cover 5 _ (fun t _ => flushed_5_eq V c t) (cover_5)

/-! ## Output window 6 (its narrowed copy) -/

/-- Entry (p, q) of block t is entry (4000·t + p, q) of the array. -/
theorem emb_6 (t : Fin cfg0.N) (p : Fin 4000) (q : Fin 256) :
    ((cfg0.win 6).blk t).view.emb (ix2 p q) = ix2 (grow t p) q := by
  obtain ⟨e0, e1⟩ := idx_6 t
  refine funext fun a => Fin.ext ?_
  match a with
  | ⟨0, _⟩ => show win0_6.index t (0 : Fin 2) * 4000 + 1 * p.val = t.val * 4000 + p.val; rw [e0]; omega
  | ⟨1, _⟩ => show win0_6.index t (1 : Fin 2) * 256 + 1 * q.val = q.val; rw [e1]; omega

/-- What point t writes back is block t of the whole-array function: row p of the stored block is the row function
    of row 4000·t + p of the inputs. -/
theorem flushed_6_eq (c : Dev nD) (t : Fin cfg0.N) :
    (dat0 V c).flushed 6 t = ((cfg0.win 6).blk t).view.read (Elt Ideal)
      (embArr (M := 100000) (V c main_arg0) (V c main_arg9) (V c main_v1) (V c main_arg19) (V c main_v2)) := by
  show (cfg0.win 6).cut (grid0.coords t) ((dat0 V c).after 6 t) = _
  rw [after0_6]
  unfold out0_6
  rw [View.canon_unit_zero hz]
  simp only [View.ld_unit_zero (S := S4000x256) hz, View.ld_unit_zero (S := S256x256) hz, View.ld_unit_zero (S := S1x256) hz]
  funext j
  obtain ⟨p, q, rfl⟩ : ∃ (p : Fin 4000) (q : Fin 256), j = ix2 p q := ⟨j 0, j 1, eq_ix2 j⟩
  show k0_pay2 (iblk0 V c 0 t) (iblk0 V c 1 t) (iblk0 V c 2 t) (iblk0 V c 3 t) (iblk0 V c 4 t) (ix2 p q)
    = (embArr (M := 100000) (V c main_arg0) (V c main_arg9) (V c main_v1) (V c main_arg19) (V c main_v2)) (((cfg0.win 6).blk t).view.emb (ix2 p q))
  rw [emb_6 t p q]
  refine (congrFun (pay0b_row (iblk0 V c 0 t) (iblk0 V c 1 t) (iblk0 V c 2 t) (iblk0 V c 3 t) (iblk0 V c 4 t) p) q).trans ?_
  rw [rd_0 V c t p, rd_1 V c t, rd_2 V c t, rd_3 V c t, rd_4 V c t]
  rfl

/-- An index is in point t's block iff each coordinate is in the block's range. -/
theorem mem_blk_6 (t : Fin cfg0.N) (i : S100000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v3_1).slice (win0_6.rect t)).set ↔ _
  rw [View.set_slice_whole, Rect.mem_set_unit]
  exact Iff.rfl

/-- The 25 blocks tile the array: row r lies in block r / 4000. -/
theorem cover_6 (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have ht : (i 0).val / 4000 < cfg0.N := Nat.lt_of_lt_of_eq (by omega : (i 0).val / 4000 < 25) N_0.symm
  obtain ⟨e0, e1⟩ := idx_6 ⟨(i 0).val / 4000, ht⟩
  refine ⟨⟨(i 0).val / 4000, ht⟩, flush0_6 _, ?_⟩
  rw [mem_blk_6]
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_6.index ⟨(i 0).val / 4000, ht⟩ (1 : Fin 2) * 256 ≤ (i 1).val ∧ (i 1).val < win0_6.index ⟨(i 0).val / 4000, ht⟩ (1 : Fin 2) * 256 + 256
    rw [e1]
    omega

/-- The array after the region. -/
theorem final_6 (c : Dev nD) :
    (dat0 V c).arrAt 6 cfg0.N = (embArr (M := 100000) (V c main_arg0) (V c main_arg9) (V c main_v1) (V c main_arg19) (V c main_v2)) :=
  (dat0 V c).arrAt_eq_of_cover 6 _ (fun t _ => flushed_6_eq V c t) (cover_6)

end Cert.KernelIdeal.Region0

end
-- ==== Proof.Region1.lean ====
/-
  Region 1 (the level-1 embedding) as one array.

  The region cuts the 50000 level-1 cells into 25 blocks of 2000 rows; the weights are whole-array blocks that never
  move.  Point t stores, as block t of each output, the rows 2000·t … 2000·t + 1999 of proj (enc1 (lin0 u | v)), where
  u is the matrix of masked means of chunk features and v the matrix of masked means of boundary embeddings as the
  region finds them: row p of what the body stores is the row function of rows 2000·t + p of u and v.  The 25 blocks
  tile the array, so after the region both outputs (the f32 array and its narrowed copy, the same extended reals)
  hold the whole level.
-/
import proofs.«132306_j27711128994331_2_alg».proof.Proof.Gen.KernelIdeal.Frame
import proofs.«132306_j27711128994331_2_alg».proof.Proof.KernelRows
import Idealize.ShloMosaic.Lib.Pipeline.Value

set_option maxRecDepth 16384

noncomputable section

namespace Cert.KernelIdeal.Region1

open Cert.KernelIdeal Cert.KernelIdeal.Gen Cert.KernelIdeal.Rows Cert.Spec Idealize.ShloMosaic.RowLayers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The array row that row p of block t is. -/
def grow (t : Fin cfg1.N) (p : Fin 2000) : Fin 50000 :=
  ⟨t.val * 2000 + p.val, by have := Nat.lt_of_lt_of_eq t.isLt N_1; have := p.isLt; omega⟩

/-! The printed index maps over the 25 points: a row window sits at block t, a weight window at block 0. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = 0 ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = 0 ∧ win1_9.index t (1 : Fin 2) = 0 :=
  (by decide +kernel : ∀ t : Fin grid1.N, _)
theorem idx_10 : ∀ t : Fin cfg1.N, win1_10.index t (0 : Fin 2) = t.val ∧ win1_10.index t (1 : Fin 2) = 0 :=
  (by decide +kernel : ∀ t : Fin grid1.N, _)
theorem idx_11 : ∀ t : Fin cfg1.N, win1_11.index t (0 : Fin 2) = t.val ∧ win1_11.index t (1 : Fin 2) = 0 :=
  (by decide +kernel : ∀ t : Fin grid1.N, _)

/-! Each input window's block at point t, read off its array as the region finds it. -/
theorem rd_0 (c : Dev nD) (t : Fin cfg1.N) (p : Fin 2000) :
    rowOf (a := 2000) (k := 256) (iblk1 V c 0 t) p = rowOf (V c main_v24) (grow t p) := by
  obtain ⟨e0, e1⟩ := idx_0 t
  funext j
  show V c main_v24 (((cfg1.win 0).blk t).view.emb (ix2 p j)) = V c main_v24 (ix2 (grow t p) j)
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * j.val = j.val; rw [e1]; omega
theorem rd_1 (c : Dev nD) (t : Fin cfg1.N) (p : Fin 2000) :
    rowOf (a := 2000) (k := 256) (iblk1 V c 1 t) p = rowOf (V c main_v45) (grow t p) := by
  obtain ⟨e0, e1⟩ := idx_1 t
  funext j
  show V c main_v45 (((cfg1.win 1).blk t).view.emb (ix2 p j)) = V c main_v45 (ix2 (grow t p) j)
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 256 + 1 * j.val = j.val; rw [e1]; omega
theorem rd_2 (c : Dev nD) (t : Fin cfg1.N) : mat (k := 256) (n := 256) (iblk1 V c 2 t) = mat (V c main_arg9) := by
  obtain ⟨e0, e1⟩ := idx_2 t
  funext i j
  show V c main_arg9 (((cfg1.win 2).blk t).view.emb (ix2 i j)) = V c main_arg9 (ix2 i j)
  refine congrArg _ (funext fun a => Fin.ext ?_)
  match a with
  | ⟨0, _⟩ => show win1_2.index t (0 : Fin 2) * 256 + 1 * i.val = i.val; rw [e0]; omega
  | ⟨1, _⟩ => show win1_2.index t (1 : Fin 2) * 256 + 1 * j.val = j.val; rw [e1]; omega
theorem rd_3 (c : Dev nD) (t : Fin cfg1.N) : row1 (n := 256) (iblk1 V c 3 t) = row1 (V c main_v46) := by
  obtain ⟨e0, e1⟩ := idx_3 t
  funext j
  show V c main_v46 (((cfg1.win 3).blk t).view.emb (ix2 (0 : Fin 1) j)) = V c main_v46 (ix2 (0 : Fin 1) j)
  refine congrArg _ (funext fun a => Fin.ext ?_)
  match a with
  | ⟨0, _⟩ => show win1_3.index t (0 : Fin 2) * 1 + 1 * 0 = 0; rw [e0]
  | ⟨1, _⟩ => show win1_3.index t (1 : Fin 2) * 256 + 1 * j.val = j.val; rw [e1]; omega
theorem rd_4 (c : Dev nD) (t : Fin cfg1.N) : mat (k := 512) (n := 256) (iblk1 V c 4 t) = mat (V c main_arg11) := by
  obtain ⟨e0, e1⟩ := idx_4 t
  funext i j
  show V c main_arg11 (((cfg1.win 4).blk t).view.emb (ix2 i j)) = V c main_arg11 (ix2 i j)
  refine congrArg _ (funext fun a => Fin.ext ?_)
  match a with
  | ⟨0, _⟩ => show win1_4.index t (0 : Fin 2) * 512 + 1 * i.val = i.val; rw [e0]; omega
  | ⟨1, _⟩ => show win1_4.index t (1 : Fin 2) * 256 + 1 * j.val = j.val; rw [e1]; omega
theorem rd_5 (c : Dev nD) (t : Fin cfg1.N) : row1 (n := 256) (iblk1 V c 5 t) = row1 (V c main_v47) := by
  obtain ⟨e0, e1⟩ := idx_5 t
  funext j
  show V c main_v47 (((cfg1.win 5).blk t).view.emb (ix2 (0 : Fin 1) j)) = V c main_v47 (ix2 (0 : Fin 1) j)
  refine congrArg _ (funext fun a => Fin.ext ?_)
  match a with
  | ⟨0, _⟩ => show win1_5.index t (0 : Fin 2) * 1 + 1 * 0 = 0; rw [e0]
  | ⟨1, _⟩ => show win1_5.index t (1 : Fin 2) * 256 + 1 * j.val = j.val; rw [e1]; omega
theorem rd_6 (c : Dev nD) (t : Fin cfg1.N) : mat (k := 256) (n := 256) (iblk1 V c 6 t) = mat (V c main_arg13) := by
  obtain ⟨e0, e1⟩ := idx_6 t
  funext i j
  show V c main_arg13 (((cfg1.win 6).blk t).view.emb (ix2 i j)) = V c main_arg13 (ix2 i j)
  refine congrArg _ (funext fun a => Fin.ext ?_)
  match a with
  | ⟨0, _⟩ => show win1_6.index t (0 : Fin 2) * 256 + 1 * i.val = i.val; rw [e0]; omega
  | ⟨1, _⟩ => show win1_6.index t (1 : Fin 2) * 256 + 1 * j.val = j.val; rw [e1]; omega
theorem rd_7 (c : Dev nD) (t : Fin cfg1.N) : row1 (n := 256) (iblk1 V c 7 t) = row1 (V c main_v48) := by
  obtain ⟨e0, e1⟩ := idx_7 t
  funext j
  show V c main_v48 (((cfg1.win 7).blk t).view.emb (ix2 (0 : Fin 1) j)) = V c main_v48 (ix2 (0 : Fin 1) j)
  refine congrArg _ (funext fun a => Fin.ext ?_)
  match a with
  | ⟨0, _⟩ => show win1_7.index t (0 : Fin 2) * 1 + 1 * 0 = 0; rw [e0]
  | ⟨1, _⟩ => show win1_7.index t (1 : Fin 2) * 256 + 1 * j.val = j.val; rw [e1]; omega
theorem rd_8 (c : Dev nD) (t : Fin cfg1.N) : mat (k := 256) (n := 256) (iblk1 V c 8 t) = mat (V c main_arg19) := by
  obtain ⟨e0, e1⟩ := idx_8 t
  funext i j
  show V c main_arg19 (((cfg1.win 8).blk t).view.emb (ix2 i j)) = V c main_arg19 (ix2 i j)
  refine congrArg _ (funext fun a => Fin.ext ?_)
  match a with
  | ⟨0, _⟩ => show win1_8.index t (0 : Fin 2) * 256 + 1 * i.val = i.val; rw [e0]; omega
  | ⟨1, _⟩ => show win1_8.index t (1 : Fin 2) * 256 + 1 * j.val = j.val; rw [e1]; omega
theorem rd_9 (c : Dev nD) (t : Fin cfg1.N) : row1 (n := 256) (iblk1 V c 9 t) = row1 (V c main_v49) := by
  obtain ⟨e0, e1⟩ := idx_9 t
  funext j
  show V c main_v49 (((cfg1.win 9).blk t).view.emb (ix2 (0 : Fin 1) j)) = V c main_v49 (ix2 (0 : Fin 1) j)
  refine congrArg _ (funext fun a => Fin.ext ?_)
  match a with
  | ⟨0, _⟩ => show win1_9.index t (0 : Fin 2) * 1 + 1 * 0 = 0; rw [e0]
  | ⟨1, _⟩ => show win1_9.index t (1 : Fin 2) * 256 + 1 * j.val = j.val; rw [e1]; omega

/-! ## Output window 10 (the f32 embedding) -/

/-- Entry (p, q) of block t is entry (2000·t + p, q) of the array. -/
theorem emb_10 (t : Fin cfg1.N) (p : Fin 2000) (q : Fin 256) :
    ((cfg1.win 10).blk t).view.emb (ix2 p q) = ix2 (grow t p) q := by
  obtain ⟨e0, e1⟩ := idx_10 t
  refine funext fun a => Fin.ext ?_
  match a with
  | ⟨0, _⟩ => show win1_10.index t (0 : Fin 2) * 2000 + 1 * p.val = t.val * 2000 + p.val; rw [e0]; omega
  | ⟨1, _⟩ => show win1_10.index t (1 : Fin 2) * 256 + 1 * q.val = q.val; rw [e1]; omega

/-- What point t writes back is block t of the whole-array function: row p of the stored block is the row function
    of row 2000·t + p of the inputs. -/
theorem flushed_10_eq (c : Dev nD) (t : Fin cfg1.N) :
    (dat1 V c).flushed 10 t = ((cfg1.win 10).blk t).view.read (Elt Ideal)
      (levelArr (M := 50000) (V c main_v24) (V c main_v45) (V c main_arg9) (V c main_v46) (V c main_arg11) (V c main_v47) (V c main_arg13) (V c main_v48) (V c main_arg19) (V c main_v49)) := by
  show (cfg1.win 10).cut (grid1.coords t) ((dat1 V c).after 10 t) = _
  rw [after1_10]
  unfold out1_10
  rw [View.canon_unit_zero hz]
  simp only [View.ld_unit_zero (S := S2000x256) hz, View.ld_unit_zero (S := S256x256) hz, View.ld_unit_zero (S := S1x256) hz, View.ld_unit_zero (S := S512x256) hz]
  funext j
  obtain ⟨p, q, rfl⟩ : ∃ (p : Fin 2000) (q : Fin 256), j = ix2 p q := ⟨j 0, j 1, eq_ix2 j⟩
  show k1_pay1 (k1_pay3 (iblk1 V c 0 t) (iblk1 V c 2 t) (iblk1 V c 3 t) (iblk1 V c 1 t) (iblk1 V c 4 t) (iblk1 V c 5 t) (iblk1 V c 6 t) (iblk1 V c 7 t) (iblk1 V c 8 t)) (iblk1 V c 9 t) (ix2 p q)
    = (levelArr (M := 50000) (V c main_v24) (V c main_v45) (V c main_arg9) (V c main_v46) (V c main_arg11) (V c main_v47) (V c main_arg13) (V c main_v48) (V c main_arg19) (V c main_v49)) (((cfg1.win 10).blk t).view.emb (ix2 p q))
  rw [emb_10 t p q]
  refine (congrFun (pay1_row (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p) q).trans ?_
  rw [rd_0 V c t p, rd_1 V c t p, rd_2 V c t, rd_3 V c t, rd_4 V c t, rd_5 V c t, rd_6 V c t, rd_7 V c t, rd_8 V c t, rd_9 V c t]
  rfl

/-- An index is in point t's block iff each coordinate is in the block's range. -/
theorem mem_blk_10 (t : Fin cfg1.N) (i : S50000x256.Idx) :
    i ∈ ((cfg1.win 10).blk t).view.set ↔ ∀ a : Fin 2, win1_10.index t a * S2000x256.size a ≤ (i a).val ∧ (i a).val < win1_10.index t a * S2000x256.size a + S2000x256.size a := by
  show i ∈ ((View.whole main_v50_0).slice (win1_10.rect t)).set ↔ _
  rw [View.set_slice_whole, Rect.mem_set_unit]
  exact Iff.rfl

/-- The 25 blocks tile the array: row r lies in block r / 2000. -/
theorem cover_10 (i : S50000x256.Idx) :
    ∃ t : Fin cfg1.N, (cfg1.win 10).flush t = true ∧ i ∈ ((cfg1.win 10).blk t).view.set := by
  have hi0 : (i 0).val < 50000 := (i 0).isLt
  have hi1 : (i 1).val < 256 := (i 1).isLt
  have ht : (i 0).val / 2000 < cfg1.N := Nat.lt_of_lt_of_eq (by omega : (i 0).val / 2000 < 25) N_1.symm
  obtain ⟨e0, e1⟩ := idx_10 ⟨(i 0).val / 2000, ht⟩
  refine ⟨⟨(i 0).val / 2000, ht⟩, flush1_10 _, ?_⟩
  rw [mem_blk_10]
  intro a
  match a with
  | ⟨0, _⟩ =>
    show win1_10.index ⟨(i 0).val / 2000, ht⟩ (0 : Fin 2) * 2000 ≤ (i 0).val ∧ (i 0).val < win1_10.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_10.index ⟨(i 0).val / 2000, ht⟩ (1 : Fin 2) * 256 ≤ (i 1).val ∧ (i 1).val < win1_10.index ⟨(i 0).val / 2000, ht⟩ (1 : Fin 2) * 256 + 256
    rw [e1]
    omega

/-- The array after the region. -/
theorem final_10 (c : Dev nD) :
    (dat1 V c).arrAt 10 cfg1.N = (levelArr (M := 50000) (V c main_v24) (V c main_v45) (V c main_arg9) (V c main_v46) (V c main_arg11) (V c main_v47) (V c main_arg13) (V c main_v48) (V c main_arg19) (V c main_v49)) :=
  (dat1 V c).arrAt_eq_of_cover 10 _ (fun t _ => flushed_10_eq V c t) (cover_10)

/-! ## Output window 11 (its narrowed copy) -/

/-- Entry (p, q) of block t is entry (2000·t + p, q) of the array. -/
theorem emb_11 (t : Fin cfg1.N) (p : Fin 2000) (q : Fin 256) :
    ((cfg1.win 11).blk t).view.emb (ix2 p q) = ix2 (grow t p) q := by
  obtain ⟨e0, e1⟩ := idx_11 t
  refine funext fun a => Fin.ext ?_
  match a with
  | ⟨0, _⟩ => show win1_11.index t (0 : Fin 2) * 2000 + 1 * p.val = t.val * 2000 + p.val; rw [e0]; omega
  | ⟨1, _⟩ => show win1_11.index t (1 : Fin 2) * 256 + 1 * q.val = q.val; rw [e1]; omega

/-- What point t writes back is block t of the whole-array function: row p of the stored block is the row function
    of row 2000·t + p of the inputs. -/
theorem flushed_11_eq (c : Dev nD) (t : Fin cfg1.N) :
    (dat1 V c).flushed 11 t = ((cfg1.win 11).blk t).view.read (Elt Ideal)
      (levelArr (M := 50000) (V c main_v24) (V c main_v45) (V c main_arg9) (V c main_v46) (V c main_arg11) (V c main_v47) (V c main_arg13) (V c main_v48) (V c main_arg19) (V c main_v49)) := by
  show (cfg1.win 11).cut (grid1.coords t) ((dat1 V c).after 11 t) = _
  rw [after1_11]
  unfold out1_11
  rw [View.canon_unit_zero hz]
  simp only [View.ld_unit_zero (S := S2000x256) hz, View.ld_unit_zero (S := S256x256) hz, View.ld_unit_zero (S := S1x256) hz, View.ld_unit_zero (S := S512x256) hz]
  funext j
  obtain ⟨p, q, rfl⟩ : ∃ (p : Fin 2000) (q : Fin 256), j = ix2 p q := ⟨j 0, j 1, eq_ix2 j⟩
  show k1_pay2 (k1_pay3 (iblk1 V c 0 t) (iblk1 V c 2 t) (iblk1 V c 3 t) (iblk1 V c 1 t) (iblk1 V c 4 t) (iblk1 V c 5 t) (iblk1 V c 6 t) (iblk1 V c 7 t) (iblk1 V c 8 t)) (iblk1 V c 9 t) (ix2 p q)
    = (levelArr (M := 50000) (V c main_v24) (V c main_v45) (V c main_arg9) (V c main_v46) (V c main_arg11) (V c main_v47) (V c main_arg13) (V c main_v48) (V c main_arg19) (V c main_v49)) (((cfg1.win 11).blk t).view.emb (ix2 p q))
  rw [emb_11 t p q]
  refine (congrFun (pay1b_row (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p) q).trans ?_
  rw [rd_0 V c t p, rd_1 V c t p, rd_2 V c t, rd_3 V c t, rd_4 V c t, rd_5 V c t, rd_6 V c t, rd_7 V c t, rd_8 V c t, rd_9 V c t]
  rfl

/-- An index is in point t's block iff each coordinate is in the block's range. -/
theorem mem_blk_11 (t : Fin cfg1.N) (i : S50000x256.Idx) :
    i ∈ ((cfg1.win 11).blk t).view.set ↔ ∀ a : Fin 2, win1_11.index t a * S2000x256.size a ≤ (i a).val ∧ (i a).val < win1_11.index t a * S2000x256.size a + S2000x256.size a := by
  show i ∈ ((View.whole main_v50_1).slice (win1_11.rect t)).set ↔ _
  rw [View.set_slice_whole, Rect.mem_set_unit]
  exact Iff.rfl

/-- The 25 blocks tile the array: row r lies in block r / 2000. -/
theorem cover_11 (i : S50000x256.Idx) :
    ∃ t : Fin cfg1.N, (cfg1.win 11).flush t = true ∧ i ∈ ((cfg1.win 11).blk t).view.set := by
  have hi0 : (i 0).val < 50000 := (i 0).isLt
  have hi1 : (i 1).val < 256 := (i 1).isLt
  have ht : (i 0).val / 2000 < cfg1.N := Nat.lt_of_lt_of_eq (by omega : (i 0).val / 2000 < 25) N_1.symm
  obtain ⟨e0, e1⟩ := idx_11 ⟨(i 0).val / 2000, ht⟩
  refine ⟨⟨(i 0).val / 2000, ht⟩, flush1_11 _, ?_⟩
  rw [mem_blk_11]
  intro a
  match a with
  | ⟨0, _⟩ =>
    show win1_11.index ⟨(i 0).val / 2000, ht⟩ (0 : Fin 2) * 2000 ≤ (i 0).val ∧ (i 0).val < win1_11.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_11.index ⟨(i 0).val / 2000, ht⟩ (1 : Fin 2) * 256 ≤ (i 1).val ∧ (i 1).val < win1_11.index ⟨(i 0).val / 2000, ht⟩ (1 : Fin 2) * 256 + 256
    rw [e1]
    omega

/-- The array after the region. -/
theorem final_11 (c : Dev nD) :
    (dat1 V c).arrAt 11 cfg1.N = (levelArr (M := 50000) (V c main_v24) (V c main_v45) (V c main_arg9) (V c main_v46) (V c main_arg11) (V c main_v47) (V c main_arg13) (V c main_v48) (V c main_arg19) (V c main_v49)) :=
  (dat1 V c).arrAt_eq_of_cover 11 _ (fun t _ => flushed_11_eq V c t) (cover_11)

end Cert.KernelIdeal.Region1

end
-- ==== Proof.Region2.lean ====
/-
  Region 2 (the level-2 embedding) as one array.

  The region cuts the 10000 level-2 cells into 5 blocks of 2000 rows; the weights are whole-array blocks that never
  move.  Point t stores, as block t of the output, the rows 2000·t … 2000·t + 1999 of proj (enc2 (lin0 u | v)), where
  u is the matrix of masked means of chunk features and v the matrix of masked means of level-1 embeddings as the
  region finds them: row p of what the body stores is the row function of rows 2000·t + p of u and v.  The 5 blocks
  tile the array, so after the region the f32 output holds the whole level.
-/
import proofs.«132306_j27711128994331_2_alg».proof.Proof.Gen.KernelIdeal.Frame
import proofs.«132306_j27711128994331_2_alg».proof.Proof.KernelRows
import Idealize.ShloMosaic.Lib.Pipeline.Value

set_option maxRecDepth 16384

noncomputable section

namespace Cert.KernelIdeal.Region2

open Cert.KernelIdeal Cert.KernelIdeal.Gen Cert.KernelIdeal.Rows Cert.Spec Idealize.ShloMosaic.RowLayers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The array row that row p of block t is. -/
def grow (t : Fin cfg2.N) (p : Fin 2000) : Fin 10000 :=
  ⟨t.val * 2000 + p.val, by have := Nat.lt_of_lt_of_eq t.isLt N_2; have := p.isLt; omega⟩

/-! The printed index maps over the 5 points: a row window sits at block t, a weight window at block 0. -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = 0 ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
theorem idx_9 : ∀ t : Fin cfg2.N, win2_9.index t (0 : Fin 2) = 0 ∧ win2_9.index t (1 : Fin 2) = 0 :=
  (by decide +kernel : ∀ t : Fin grid2.N, _)
theorem idx_10 : ∀ t : Fin cfg2.N, win2_10.index t (0 : Fin 2) = t.val ∧ win2_10.index t (1 : Fin 2) = 0 :=
  (by decide +kernel : ∀ t : Fin grid2.N, _)

/-! Each input window's block at point t, read off its array as the region finds it. -/
theorem rd_0 (c : Dev nD) (t : Fin cfg2.N) (p : Fin 2000) :
    rowOf (a := 2000) (k := 256) (iblk2 V c 0 t) p = rowOf (V c main_v71) (grow t p) := by
  obtain ⟨e0, e1⟩ := idx_0 t
  funext j
  show V c main_v71 (((cfg2.win 0).blk t).view.emb (ix2 p j)) = V c main_v71 (ix2 (grow t p) j)
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * j.val = j.val; rw [e1]; omega
theorem rd_1 (c : Dev nD) (t : Fin cfg2.N) (p : Fin 2000) :
    rowOf (a := 2000) (k := 256) (iblk2 V c 1 t) p = rowOf (V c main_v92) (grow t p) := by
  obtain ⟨e0, e1⟩ := idx_1 t
  funext j
  show V c main_v92 (((cfg2.win 1).blk t).view.emb (ix2 p j)) = V c main_v92 (ix2 (grow t p) j)
  refine congrArg _ (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 256 + 1 * j.val = j.val; rw [e1]; omega
theorem rd_2 (c : Dev nD) (t : Fin cfg2.N) : mat (k := 256) (n := 256) (iblk2 V c 2 t) = mat (V c main_arg9) := by
  obtain ⟨e0, e1⟩ := idx_2 t
  funext i j
  show V c main_arg9 (((cfg2.win 2).blk t).view.emb (ix2 i j)) = V c main_arg9 (ix2 i j)
  refine congrArg _ (funext fun a => Fin.ext ?_)
  match a with
  | ⟨0, _⟩ => show win2_2.index t (0 : Fin 2) * 256 + 1 * i.val = i.val; rw [e0]; omega
  | ⟨1, _⟩ => show win2_2.index t (1 : Fin 2) * 256 + 1 * j.val = j.val; rw [e1]; omega
theorem rd_3 (c : Dev nD) (t : Fin cfg2.N) : row1 (n := 256) (iblk2 V c 3 t) = row1 (V c main_v93) := by
  obtain ⟨e0, e1⟩ := idx_3 t
  funext j
  show V c main_v93 (((cfg2.win 3).blk t).view.emb (ix2 (0 : Fin 1) j)) = V c main_v93 (ix2 (0 : Fin 1) j)
  refine congrArg _ (funext fun a => Fin.ext ?_)
  match a with
  | ⟨0, _⟩ => show win2_3.index t (0 : Fin 2) * 1 + 1 * 0 = 0; rw [e0]
  | ⟨1, _⟩ => show win2_3.index t (1 : Fin 2) * 256 + 1 * j.val = j.val; rw [e1]; omega
theorem rd_4 (c : Dev nD) (t : Fin cfg2.N) : mat (k := 512) (n := 256) (iblk2 V c 4 t) = mat (V c main_arg15) := by
  obtain ⟨e0, e1⟩ := idx_4 t
  funext i j
  show V c main_arg15 (((cfg2.win 4).blk t).view.emb (ix2 i j)) = V c main_arg15 (ix2 i j)
  refine congrArg _ (funext fun a => Fin.ext ?_)
  match a with
  | ⟨0, _⟩ => show win2_4.index t (0 : Fin 2) * 512 + 1 * i.val = i.val; rw [e0]; omega
  | ⟨1, _⟩ => show win2_4.index t (1 : Fin 2) * 256 + 1 * j.val = j.val; rw [e1]; omega
theorem rd_5 (c : Dev nD) (t : Fin cfg2.N) : row1 (n := 256) (iblk2 V c 5 t) = row1 (V c main_v94) := by
  obtain ⟨e0, e1⟩ := idx_5 t
  funext j
  show V c main_v94 (((cfg2.win 5).blk t).view.emb (ix2 (0 : Fin 1) j)) = V c main_v94 (ix2 (0 : Fin 1) j)
  refine congrArg _ (funext fun a => Fin.ext ?_)
  match a with
  | ⟨0, _⟩ => show win2_5.index t (0 : Fin 2) * 1 + 1 * 0 = 0; rw [e0]
  | ⟨1, _⟩ => show win2_5.index t (1 : Fin 2) * 256 + 1 * j.val = j.val; rw [e1]; omega
theorem rd_6 (c : Dev nD) (t : Fin cfg2.N) : mat (k := 256) (n := 256) (iblk2 V c 6 t) = mat (V c main_arg17) := by
  obtain ⟨e0, e1⟩ := idx_6 t
  funext i j
  show V c main_arg17 (((cfg2.win 6).blk t).view.emb (ix2 i j)) = V c main_arg17 (ix2 i j)
  refine congrArg _ (funext fun a => Fin.ext ?_)
  match a with
  | ⟨0, _⟩ => show win2_6.index t (0 : Fin 2) * 256 + 1 * i.val = i.val; rw [e0]; omega
  | ⟨1, _⟩ => show win2_6.index t (1 : Fin 2) * 256 + 1 * j.val = j.val; rw [e1]; omega
theorem rd_7 (c : Dev nD) (t : Fin cfg2.N) : row1 (n := 256) (iblk2 V c 7 t) = row1 (V c main_v95) := by
  obtain ⟨e0, e1⟩ := idx_7 t
  funext j
  show V c main_v95 (((cfg2.win 7).blk t).view.emb (ix2 (0 : Fin 1) j)) = V c main_v95 (ix2 (0 : Fin 1) j)
  refine congrArg _ (funext fun a => Fin.ext ?_)
  match a with
  | ⟨0, _⟩ => show win2_7.index t (0 : Fin 2) * 1 + 1 * 0 = 0; rw [e0]
  | ⟨1, _⟩ => show win2_7.index t (1 : Fin 2) * 256 + 1 * j.val = j.val; rw [e1]; omega
theorem rd_8 (c : Dev nD) (t : Fin cfg2.N) : mat (k := 256) (n := 256) (iblk2 V c 8 t) = mat (V c main_arg19) := by
  obtain ⟨e0, e1⟩ := idx_8 t
  funext i j
  show V c main_arg19 (((cfg2.win 8).blk t).view.emb (ix2 i j)) = V c main_arg19 (ix2 i j)
  refine congrArg _ (funext fun a => Fin.ext ?_)
  match a with
  | ⟨0, _⟩ => show win2_8.index t (0 : Fin 2) * 256 + 1 * i.val = i.val; rw [e0]; omega
  | ⟨1, _⟩ => show win2_8.index t (1 : Fin 2) * 256 + 1 * j.val = j.val; rw [e1]; omega
theorem rd_9 (c : Dev nD) (t : Fin cfg2.N) : row1 (n := 256) (iblk2 V c 9 t) = row1 (V c main_v96) := by
  obtain ⟨e0, e1⟩ := idx_9 t
  funext j
  show V c main_v96 (((cfg2.win 9).blk t).view.emb (ix2 (0 : Fin 1) j)) = V c main_v96 (ix2 (0 : Fin 1) j)
  refine congrArg _ (funext fun a => Fin.ext ?_)
  match a with
  | ⟨0, _⟩ => show win2_9.index t (0 : Fin 2) * 1 + 1 * 0 = 0; rw [e0]
  | ⟨1, _⟩ => show win2_9.index t (1 : Fin 2) * 256 + 1 * j.val = j.val; rw [e1]; omega

/-! ## Output window 10 (the f32 embedding) -/

/-- Entry (p, q) of block t is entry (2000·t + p, q) of the array. -/
theorem emb_10 (t : Fin cfg2.N) (p : Fin 2000) (q : Fin 256) :
    ((cfg2.win 10).blk t).view.emb (ix2 p q) = ix2 (grow t p) q := by
  obtain ⟨e0, e1⟩ := idx_10 t
  refine funext fun a => Fin.ext ?_
  match a with
  | ⟨0, _⟩ => show win2_10.index t (0 : Fin 2) * 2000 + 1 * p.val = t.val * 2000 + p.val; rw [e0]; omega
  | ⟨1, _⟩ => show win2_10.index t (1 : Fin 2) * 256 + 1 * q.val = q.val; rw [e1]; omega

/-- What point t writes back is block t of the whole-array function: row p of the stored block is the row function
    of row 2000·t + p of the inputs. -/
theorem flushed_10_eq (c : Dev nD) (t : Fin cfg2.N) :
    (dat2 V c).flushed 10 t = ((cfg2.win 10).blk t).view.read (Elt Ideal)
      (levelArr (M := 10000) (V c main_v71) (V c main_v92) (V c main_arg9) (V c main_v93) (V c main_arg15) (V c main_v94) (V c main_arg17) (V c main_v95) (V c main_arg19) (V c main_v96)) := by
  show (cfg2.win 10).cut (grid2.coords t) ((dat2 V c).after 10 t) = _
  rw [after2_10]
  unfold out2_10
  rw [View.canon_unit_zero hz]
  simp only [View.ld_unit_zero (S := S2000x256) hz, View.ld_unit_zero (S := S256x256) hz, View.ld_unit_zero (S := S1x256) hz, View.ld_unit_zero (S := S512x256) hz]
  funext j
  obtain ⟨p, q, rfl⟩ : ∃ (p : Fin 2000) (q : Fin 256), j = ix2 p q := ⟨j 0, j 1, eq_ix2 j⟩
  show k2_pay1 (k2_pay3 (iblk2 V c 0 t) (iblk2 V c 2 t) (iblk2 V c 3 t) (iblk2 V c 1 t) (iblk2 V c 4 t) (iblk2 V c 5 t) (iblk2 V c 6 t) (iblk2 V c 7 t) (iblk2 V c 8 t)) (iblk2 V c 9 t) (ix2 p q)
    = (levelArr (M := 10000) (V c main_v71) (V c main_v92) (V c main_arg9) (V c main_v93) (V c main_arg15) (V c main_v94) (V c main_arg17) (V c main_v95) (V c main_arg19) (V c main_v96)) (((cfg2.win 10).blk t).view.emb (ix2 p q))
  rw [emb_10 t p q]
  refine (congrFun (pay2_row (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) p) q).trans ?_
  rw [rd_0 V c t p, rd_1 V c t p, rd_2 V c t, rd_3 V c t, rd_4 V c t, rd_5 V c t, rd_6 V c t, rd_7 V c t, rd_8 V c t, rd_9 V c t]
  rfl

/-- An index is in point t's block iff each coordinate is in the block's range. -/
theorem mem_blk_10 (t : Fin cfg2.N) (i : S10000x256.Idx) :
    i ∈ ((cfg2.win 10).blk t).view.set ↔ ∀ a : Fin 2, win2_10.index t a * S2000x256.size a ≤ (i a).val ∧ (i a).val < win2_10.index t a * S2000x256.size a + S2000x256.size a := by
  show i ∈ ((View.whole main_v97_0).slice (win2_10.rect t)).set ↔ _
  rw [View.set_slice_whole, Rect.mem_set_unit]
  exact Iff.rfl

/-- The 5 blocks tile the array: row r lies in block r / 2000. -/
theorem cover_10 (i : S10000x256.Idx) :
    ∃ t : Fin cfg2.N, (cfg2.win 10).flush t = true ∧ i ∈ ((cfg2.win 10).blk t).view.set := by
  have hi0 : (i 0).val < 10000 := (i 0).isLt
  have hi1 : (i 1).val < 256 := (i 1).isLt
  have ht : (i 0).val / 2000 < cfg2.N := Nat.lt_of_lt_of_eq (by omega : (i 0).val / 2000 < 5) N_2.symm
  obtain ⟨e0, e1⟩ := idx_10 ⟨(i 0).val / 2000, ht⟩
  refine ⟨⟨(i 0).val / 2000, ht⟩, flush2_10 _, ?_⟩
  rw [mem_blk_10]
  intro a
  match a with
  | ⟨0, _⟩ =>
    show win2_10.index ⟨(i 0).val / 2000, ht⟩ (0 : Fin 2) * 2000 ≤ (i 0).val ∧ (i 0).val < win2_10.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_10.index ⟨(i 0).val / 2000, ht⟩ (1 : Fin 2) * 256 ≤ (i 1).val ∧ (i 1).val < win2_10.index ⟨(i 0).val / 2000, ht⟩ (1 : Fin 2) * 256 + 256
    rw [e1]
    omega

/-- The array after the region. -/
theorem final_10 (c : Dev nD) :
    (dat2 V c).arrAt 10 cfg2.N = (levelArr (M := 10000) (V c main_v71) (V c main_v92) (V c main_arg9) (V c main_v93) (V c main_arg15) (V c main_v94) (V c main_arg17) (V c main_v95) (V c main_arg19) (V c main_v96)) :=
  (dat2 V c).arrAt_eq_of_cover 10 _ (fun t _ => flushed_10_eq V c t) (cover_10)

end Cert.KernelIdeal.Region2

end
-- ==== Proof.RefRows.lean ====
/-
  The idealized reference, one row at a time, and its masked means as functions of their source.

  The reference computes the same three arrays whole: proj (lin0 x) for the chunk rows, and for each level
  proj (enc (lin0 u | v)) with u and v that level's masked means.  Read at row r, each is the row function of Spec
  applied to row r of its inputs, with the weights as the reference holds them (a bias as a vector of length 256).
  A masked mean depends on its source array only through the one gather at its head: the boundary means of level 1
  are the chunk-feature mean's own chain applied to the dimension-0 embedding, and the boundary means of level 2
  are one chain applied to the level-1 embedding.
-/
import proofs.«132306_j27711128994331_2_alg».proof.Proof.Gen.ReferenceIdeal.Read
import proofs.«132306_j27711128994331_2_alg».proof.Proof.Spec

set_option maxRecDepth 16384

noncomputable section

namespace Cert.ReferenceIdeal.RefValue

open Cert.ReferenceIdeal Cert.ReferenceIdeal.Gen Cert.ReferenceIdeal.Read Cert.Spec Idealize.ShloMosaic.RowLayers
open Idealize.ShloMosaic Idealize.ShloMosaic.ValueIdx

/-- Row r of the reference's dimension-0 embedding. -/
theorem emb0_row (x0 : (⟨S100000x256, .f32⟩ : BufTy).Contents (Elt Ideal)) (x9 : (⟨S256x256, .f32⟩ : BufTy).Contents (Elt Ideal)) (x10 : (⟨S256, .f32⟩ : BufTy).Contents (Elt Ideal)) (x19 : (⟨S256x256, .f32⟩ : BufTy).Contents (Elt Ideal)) (x20 : (⟨S256, .f32⟩ : BufTy).Contents (Elt Ideal)) (r : Fin 100000) :
    rowOf (val_main_v7 (F := Ideal) x0 x9 x10 x19 x20) r = emb0Row (mat x9) (vec x10) (mat x19) (vec x20) (rowOf x0 r) := by
  unfold val_main_v7 val_main_v6 val_main_v5 val_main_v4 val_main_v3 val_main_v2 val_main_v1 val_main_v0 emb0Row
  rw [host_lin_row dot_S100000x256_S256x256_S100000x256_1_0_0_1_n_n rfl rfl rfl rfl rfl rfl, host_lin_row dot_S100000x256_S256x256_S100000x256_1_0_0_1_n_n rfl rfl rfl rfl rfl rfl]

/-- The level-1 boundary mean is the chunk-feature mean's chain applied to the dimension-0 embedding. -/
theorem v51_eq (x0 : (⟨S100000x256, .f32⟩ : BufTy).Contents (Elt Ideal)) (x2 : (⟨S50000x16, .i32⟩ : BufTy).Contents (Elt Ideal)) (x6 : (⟨S50000x16, .f32⟩ : BufTy).Contents (Elt Ideal)) (x9 : (⟨S256x256, .f32⟩ : BufTy).Contents (Elt Ideal)) (x10 : (⟨S256, .f32⟩ : BufTy).Contents (Elt Ideal)) (x19 : (⟨S256x256, .f32⟩ : BufTy).Contents (Elt Ideal)) (x20 : (⟨S256, .f32⟩ : BufTy).Contents (Elt Ideal)) :
    val_main_v51 (F := Ideal) x0 x2 x6 x9 x10 x19 x20 = val_main_v27 (F := Ideal) (val_main_v7 (F := Ideal) x0 x9 x10 x19 x20) x2 x6 := rfl

/-- Row r of the reference's level-1 embedding, from row r of its two masked means. -/
theorem level1_row (x0 : (⟨S100000x256, .f32⟩ : BufTy).Contents (Elt Ideal)) (x1 : (⟨S50000x16, .i32⟩ : BufTy).Contents (Elt Ideal)) (x2 : (⟨S50000x16, .i32⟩ : BufTy).Contents (Elt Ideal)) (x5 : (⟨S50000x16, .f32⟩ : BufTy).Contents (Elt Ideal)) (x6 : (⟨S50000x16, .f32⟩ : BufTy).Contents (Elt Ideal)) (x9 : (⟨S256x256, .f32⟩ : BufTy).Contents (Elt Ideal)) (x10 : (⟨S256, .f32⟩ : BufTy).Contents (Elt Ideal)) (x11 : (⟨S512x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x19 : (⟨S256x256, .f32⟩ : BufTy).Contents (Elt Ideal)) (x20 : (⟨S256, .f32⟩ : BufTy).Contents (Elt Ideal)) (r : Fin 50000) :
    rowOf (val_main_v65 (F := Ideal) x0 x1 x2 x5 x6 x9 x10 x11 x12 x13 x14 x19 x20) r
      = levelRow (mat x9) (vec x10) (mat x11) (vec x12) (mat x13) (vec x14) (mat x19) (vec x20)
          (rowOf (val_main_v27 (F := Ideal) x0 x1 x5) r) (rowOf (val_main_v51 (F := Ideal) x0 x2 x6 x9 x10 x19 x20) r) := by
  unfold val_main_v65 val_main_v64 val_main_v63 val_main_v62 val_main_v61 val_main_v60 val_main_v59 val_main_v58 val_main_v57
    val_main_call2_v0 val_main_call2_cst val_main_v56 val_main_v55 val_main_v54 val_main_v53 val_main_v52 val_main_v31
    val_main_v30 val_main_v29 val_main_v28 levelRow
  rw [host_lin_row dot_S50000x256_S256x256_S50000x256_1_0_0_1_n_n rfl rfl rfl rfl rfl rfl, host_lin_row dot_S50000x256_S256x256_S50000x256_1_0_0_1_n_n rfl rfl rfl rfl rfl rfl, host_relu_row,
    host_lin_row dot_S50000x512_S512x256_S50000x256_1_0_0_1_n_n rfl rfl rfl rfl rfl rfl, concat_row (b₁ := 256) (b₂ := 256) (b := 512) rfl, host_lin_row dot_S50000x256_S256x256_S50000x256_1_0_0_1_n_n rfl rfl rfl rfl rfl rfl]

/-- The level-2 boundary mean as a function of its source: the gather of the source's rows at the (wrapped)
    boundary indices, weighted by the mask, summed over the boundary axis, divided by the clipped count, and zero
    where the count is not positive. -/
def bndMean2 (src : (⟨S50000x256, .f32⟩ : BufTy).Contents (Elt Ideal)) (x4 : (⟨S10000x8, .i32⟩ : BufTy).Contents (Elt Ideal)) (x8 : (⟨S10000x8, .f32⟩ : BufTy).Contents (Elt Ideal)) : (⟨S10000x256, .f32⟩ : BufTy).Contents (Elt Ideal) :=
  select (val_main_call4_v1 (F := Ideal) x8)
    (Host.divf (F := Ideal) (φ := .f32) (Host.reduceAdd (F := Ideal) (φ := .f32) (mulf (F := Ideal) (φ := .f32) ((Host.gather gather_S50000x256_S10000x8x1_S10000x8x256_2_0_n_n_0_2_1256 src (val_main_v95 (F := Ideal) x4)) : (⟨S10000x8x256, .f32⟩ : BufTy).Contents (Elt Ideal))
        (val_main_v98 (F := Ideal) x8)) (val_main_cst_21 (F := Ideal)) reducesTo_S10000x8x256_S10000x256_d1 h_S_)
      (val_main_v107 (F := Ideal) x8))
    (val_main_call4_v2 (F := Ideal))

/-- The reference's level-2 boundary mean is that chain applied to its level-1 embedding. -/
theorem v109_eq (x0 : (⟨S100000x256, .f32⟩ : BufTy).Contents (Elt Ideal)) (x1 : (⟨S50000x16, .i32⟩ : BufTy).Contents (Elt Ideal)) (x2 : (⟨S50000x16, .i32⟩ : BufTy).Contents (Elt Ideal)) (x4 : (⟨S10000x8, .i32⟩ : BufTy).Contents (Elt Ideal)) (x5 : (⟨S50000x16, .f32⟩ : BufTy).Contents (Elt Ideal)) (x6 : (⟨S50000x16, .f32⟩ : BufTy).Contents (Elt Ideal)) (x8 : (⟨S10000x8, .f32⟩ : BufTy).Contents (Elt Ideal)) (x9 : (⟨S256x256, .f32⟩ : BufTy).Contents (Elt Ideal)) (x10 : (⟨S256, .f32⟩ : BufTy).Contents (Elt Ideal)) (x11 : (⟨S512x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x19 : (⟨S256x256, .f32⟩ : BufTy).Contents (Elt Ideal)) (x20 : (⟨S256, .f32⟩ : BufTy).Contents (Elt Ideal)) :
    val_main_v109 (F := Ideal) x0 x1 x2 x4 x5 x6 x8 x9 x10 x11 x12 x13 x14 x19 x20 = bndMean2 (val_main_v65 (F := Ideal) x0 x1 x2 x5 x6 x9 x10 x11 x12 x13 x14 x19 x20) x4 x8 := rfl

/-- Row r of the reference's level-2 embedding, from row r of its two masked means. -/
theorem level2_row (x0 : (⟨S100000x256, .f32⟩ : BufTy).Contents (Elt Ideal)) (x1 : (⟨S50000x16, .i32⟩ : BufTy).Contents (Elt Ideal)) (x2 : (⟨S50000x16, .i32⟩ : BufTy).Contents (Elt Ideal)) (x3 : (⟨S10000x32, .i32⟩ : BufTy).Contents (Elt Ideal)) (x4 : (⟨S10000x8, .i32⟩ : BufTy).Contents (Elt Ideal)) (x5 : (⟨S50000x16, .f32⟩ : BufTy).Contents (Elt Ideal)) (x6 : (⟨S50000x16, .f32⟩ : BufTy).Contents (Elt Ideal)) (x7 : (⟨S10000x32, .f32⟩ : BufTy).Contents (Elt Ideal)) (x8 : (⟨S10000x8, .f32⟩ : BufTy).Contents (Elt Ideal)) (x9 : (⟨S256x256, .f32⟩ : BufTy).Contents (Elt Ideal)) (x10 : (⟨S256, .f32⟩ : BufTy).Contents (Elt Ideal)) (x11 : (⟨S512x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S512x256, .f32⟩ : BufTy).Contents (Elt Ideal)) (x16 : (⟨S256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x20 : (⟨S256, .f32⟩ : BufTy).Contents (Elt Ideal)) (r : Fin 10000) :
    rowOf (val_main_v123 (F := Ideal) x0 x1 x2 x3 x4 x5 x6 x7 x8 x9 x10 x11 x12 x13 x14 x15 x16 x17 x18 x19 x20) r
      = levelRow (mat x9) (vec x10) (mat x15) (vec x16) (mat x17) (vec x18) (mat x19) (vec x20)
          (rowOf (val_main_v85 (F := Ideal) x0 x3 x7) r) (rowOf (val_main_v109 (F := Ideal) x0 x1 x2 x4 x5 x6 x8 x9 x10 x11 x12 x13 x14 x19 x20) r) := by
  unfold val_main_v123 val_main_v122 val_main_v121 val_main_v120 val_main_v119 val_main_v118 val_main_v117 val_main_v116 val_main_v115
    val_main_call5_v0 val_main_call5_cst val_main_v114 val_main_v113 val_main_v112 val_main_v111 val_main_v110 val_main_v89
    val_main_v88 val_main_v87 val_main_v86 levelRow
  rw [host_lin_row dot_S10000x256_S256x256_S10000x256_1_0_0_1_n_n rfl rfl rfl rfl rfl rfl, host_lin_row dot_S10000x256_S256x256_S10000x256_1_0_0_1_n_n rfl rfl rfl rfl rfl rfl, host_relu_row,
    host_lin_row dot_S10000x512_S512x256_S10000x256_1_0_0_1_n_n rfl rfl rfl rfl rfl rfl, concat_row (b₁ := 256) (b₂ := 256) (b := 512) rfl, host_lin_row dot_S10000x256_S256x256_S10000x256_1_0_0_1_n_n rfl rfl rfl rfl rfl rfl]

end Cert.ReferenceIdeal.RefValue

end
-- ==== Proof.Host2.lean ====
/-
  The host operations between region 1 and region 2, read at the buffers region 2 takes.

  Between the two regions the host computes the two level-2 masked means (of the narrowed chunk features at the
  level-2 chunk indices, and of the narrowed level-1 embedding at the level-2 boundary indices) and views the four
  bias vectors as one-row matrices.  Each buffer after the stretch is its operations' function of the buffers the
  stretch starts from; a buffer the stretch never writes keeps its contents.  Both chains are, operation for
  operation, the reference's (a change of float format being the identity on extended reals).
-/
import proofs.«132306_j27711128994331_2_alg».proof.Proof.Gen.KernelIdeal.Frame
import proofs.«132306_j27711128994331_2_alg».proof.Proof.Gen.ReferenceIdeal.Read
import proofs.«132306_j27711128994331_2_alg».proof.Proof.Spec
import proofs.«132306_j27711128994331_2_alg».proof.Proof.RefRows
import Idealize.ShloMosaic.Lib.StableHlo.Run
import Idealize.ShloMosaic.Lib.ValueLayout

set_option maxRecDepth 16384

noncomputable section

namespace Cert.KernelIdeal.Host2

open Cert.KernelIdeal Cert.KernelIdeal.Gen Cert.Spec Idealize.ShloMosaic.RowLayers
open Idealize.ShloMosaic Idealize.ShloMosaic.TcCoe Idealize.ShloMosaic.Tactic Idealize.ShloMosaic.StableHlo Idealize.ShloMosaic.ValueIdx
open Idealize.SL Idealize.SL.Sem

macro "read_stretch" : tactic =>
  `(tactic| (dsimp only [hostOps2, hostOps2_1, hostOps2_2, hostOps2_3, hostOps2_4]; after_results_simp))

variable (Z : Valuation τ sig (Elt Ideal))

set_option maxHeartbeats 1000000 in
set_option maxRecDepth 200000 in
/-- The masked mean of chunk features over a level-2 cell: the reference's chain at the stretch's buffers. -/
theorem mean_u (s : (⟨S100000x256, .bf16⟩ : BufTy).Contents (Elt Ideal)) (i : (⟨S10000x32, .i32⟩ : BufTy).Contents (Elt Ideal))
    (k : (⟨S10000x32, .f32⟩ : BufTy).Contents (Elt Ideal))
    (hs : Z (Proc.devRef .tc main_v0) = s) (hi : Z (Proc.devRef .tc main_arg3) = i) (hk : Z (Proc.devRef .tc main_arg7) = k)
    (T : S10000x256.Idx → EReal) (hT : Cert.ReferenceIdeal.Read.val_main_v85 (F := Ideal) s i k = T) :
    StableHlo.after hostOps2_4 (StableHlo.after hostOps2_3 (StableHlo.after hostOps2_2 (StableHlo.after hostOps2_1 (StableHlo.after hostOps2 Z)))) (Proc.devRef .tc main_v71) = T := by
  subst hs hi hk
  read_stretch
  subst hT
  rfl

set_option maxHeartbeats 1000000 in
set_option maxRecDepth 200000 in
/-- The masked mean of level-1 embeddings over a level-2 cell's boundary: the reference's chain at the narrowed
    level-1 embedding. -/
theorem mean_v (s : (⟨S50000x256, .bf16⟩ : BufTy).Contents (Elt Ideal)) (i : (⟨S10000x8, .i32⟩ : BufTy).Contents (Elt Ideal))
    (k : (⟨S10000x8, .f32⟩ : BufTy).Contents (Elt Ideal))
    (hs : Z (Proc.devRef .tc main_v50_1) = s) (hi : Z (Proc.devRef .tc main_arg4) = i) (hk : Z (Proc.devRef .tc main_arg8) = k)
    (T : S10000x256.Idx → EReal) (hT : Cert.ReferenceIdeal.RefValue.bndMean2 s i k = T) :
    StableHlo.after hostOps2_4 (StableHlo.after hostOps2_3 (StableHlo.after hostOps2_2 (StableHlo.after hostOps2_1 (StableHlo.after hostOps2 Z)))) (Proc.devRef .tc main_v92) = T := by
  subst hs hi hk
  read_stretch
  subst hT
  rfl

set_option maxHeartbeats 1000000 in
/-- A bias vector viewed as a one-row matrix. -/
theorem bias_main_v93 (b : S256.Idx → EReal) (hb : Z (Proc.devRef .tc main_arg10) = b) :
    row1 (n := 256) (StableHlo.after hostOps2_4 (StableHlo.after hostOps2_3 (StableHlo.after hostOps2_2 (StableHlo.after hostOps2_1 (StableHlo.after hostOps2 Z)))) (Proc.devRef .tc main_v93)) = vec b := by
  subst hb
  have e : StableHlo.after hostOps2_4 (StableHlo.after hostOps2_3 (StableHlo.after hostOps2_2 (StableHlo.after hostOps2_1 (StableHlo.after hostOps2 Z)))) (Proc.devRef .tc main_v93) = shapeCast S1x256 (Z (Proc.devRef .tc main_arg10)) shapeCasts_S256_S1x256 := by
    read_stretch
    rfl
  funext q
  show (StableHlo.after hostOps2_4 (StableHlo.after hostOps2_3 (StableHlo.after hostOps2_2 (StableHlo.after hostOps2_1 (StableHlo.after hostOps2 Z)))) (Proc.devRef .tc main_v93)) (ix2 (0 : Fin 1) q) = _
  rw [e]
  exact shapeCast_a_1a_apply _ _ 0 q

set_option maxHeartbeats 1000000 in
/-- A bias vector viewed as a one-row matrix. -/
theorem bias_main_v94 (b : S256.Idx → EReal) (hb : Z (Proc.devRef .tc main_arg16) = b) :
    row1 (n := 256) (StableHlo.after hostOps2_4 (StableHlo.after hostOps2_3 (StableHlo.after hostOps2_2 (StableHlo.after hostOps2_1 (StableHlo.after hostOps2 Z)))) (Proc.devRef .tc main_v94)) = vec b := by
  subst hb
  have e : StableHlo.after hostOps2_4 (StableHlo.after hostOps2_3 (StableHlo.after hostOps2_2 (StableHlo.after hostOps2_1 (StableHlo.after hostOps2 Z)))) (Proc.devRef .tc main_v94) = shapeCast S1x256 (Z (Proc.devRef .tc main_arg16)) shapeCasts_S256_S1x256 := by
    read_stretch
    rfl
  funext q
  show (StableHlo.after hostOps2_4 (StableHlo.after hostOps2_3 (StableHlo.after hostOps2_2 (StableHlo.after hostOps2_1 (StableHlo.after hostOps2 Z)))) (Proc.devRef .tc main_v94)) (ix2 (0 : Fin 1) q) = _
  rw [e]
  exact shapeCast_a_1a_apply _ _ 0 q

set_option maxHeartbeats 1000000 in
/-- A bias vector viewed as a one-row matrix. -/
theorem bias_main_v95 (b : S256.Idx → EReal) (hb : Z (Proc.devRef .tc main_arg18) = b) :
    row1 (n := 256) (StableHlo.after hostOps2_4 (StableHlo.after hostOps2_3 (StableHlo.after hostOps2_2 (StableHlo.after hostOps2_1 (StableHlo.after hostOps2 Z)))) (Proc.devRef .tc main_v95)) = vec b := by
  subst hb
  have e : StableHlo.after hostOps2_4 (StableHlo.after hostOps2_3 (StableHlo.after hostOps2_2 (StableHlo.after hostOps2_1 (StableHlo.after hostOps2 Z)))) (Proc.devRef .tc main_v95) = shapeCast S1x256 (Z (Proc.devRef .tc main_arg18)) shapeCasts_S256_S1x256 := by
    read_stretch
    rfl
  funext q
  show (StableHlo.after hostOps2_4 (StableHlo.after hostOps2_3 (StableHlo.after hostOps2_2 (StableHlo.after hostOps2_1 (StableHlo.after hostOps2 Z)))) (Proc.devRef .tc main_v95)) (ix2 (0 : Fin 1) q) = _
  rw [e]
  exact shapeCast_a_1a_apply _ _ 0 q

set_option maxHeartbeats 1000000 in
/-- A bias vector viewed as a one-row matrix. -/
theorem bias_main_v96 (b : S256.Idx → EReal) (hb : Z (Proc.devRef .tc main_arg20) = b) :
    row1 (n := 256) (StableHlo.after hostOps2_4 (StableHlo.after hostOps2_3 (StableHlo.after hostOps2_2 (StableHlo.after hostOps2_1 (StableHlo.after hostOps2 Z)))) (Proc.devRef .tc main_v96)) = vec b := by
  subst hb
  have e : StableHlo.after hostOps2_4 (StableHlo.after hostOps2_3 (StableHlo.after hostOps2_2 (StableHlo.after hostOps2_1 (StableHlo.after hostOps2 Z)))) (Proc.devRef .tc main_v96) = shapeCast S1x256 (Z (Proc.devRef .tc main_arg20)) shapeCasts_S256_S1x256 := by
    read_stretch
    rfl
  funext q
  show (StableHlo.after hostOps2_4 (StableHlo.after hostOps2_3 (StableHlo.after hostOps2_2 (StableHlo.after hostOps2_1 (StableHlo.after hostOps2 Z)))) (Proc.devRef .tc main_v96)) (ix2 (0 : Fin 1) q) = _
  rw [e]
  exact shapeCast_a_1a_apply _ _ 0 q

/-! Buffers the stretch never writes. -/

set_option maxHeartbeats 1000000 in
theorem keep_main_arg9 : StableHlo.after hostOps2_4 (StableHlo.after hostOps2_3 (StableHlo.after hostOps2_2 (StableHlo.after hostOps2_1 (StableHlo.after hostOps2 Z)))) (Proc.devRef .tc main_arg9) = Z (Proc.devRef .tc main_arg9) := by
  read_stretch

set_option maxHeartbeats 1000000 in
theorem keep_main_arg15 : StableHlo.after hostOps2_4 (StableHlo.after hostOps2_3 (StableHlo.after hostOps2_2 (StableHlo.after hostOps2_1 (StableHlo.after hostOps2 Z)))) (Proc.devRef .tc main_arg15) = Z (Proc.devRef .tc main_arg15) := by
  read_stretch

set_option maxHeartbeats 1000000 in
theorem keep_main_arg17 : StableHlo.after hostOps2_4 (StableHlo.after hostOps2_3 (StableHlo.after hostOps2_2 (StableHlo.after hostOps2_1 (StableHlo.after hostOps2 Z)))) (Proc.devRef .tc main_arg17) = Z (Proc.devRef .tc main_arg17) := by
  read_stretch

set_option maxHeartbeats 1000000 in
theorem keep_main_arg19 : StableHlo.after hostOps2_4 (StableHlo.after hostOps2_3 (StableHlo.after hostOps2_2 (StableHlo.after hostOps2_1 (StableHlo.after hostOps2 Z)))) (Proc.devRef .tc main_arg19) = Z (Proc.devRef .tc main_arg19) := by
  read_stretch

set_option maxHeartbeats 1000000 in
theorem keep_main_v3_0 : StableHlo.after hostOps2_4 (StableHlo.after hostOps2_3 (StableHlo.after hostOps2_2 (StableHlo.after hostOps2_1 (StableHlo.after hostOps2 Z)))) (Proc.devRef .tc main_v3_0) = Z (Proc.devRef .tc main_v3_0) := by
  read_stretch

set_option maxHeartbeats 1000000 in
theorem keep_main_v50_0 : StableHlo.after hostOps2_4 (StableHlo.after hostOps2_3 (StableHlo.after hostOps2_2 (StableHlo.after hostOps2_1 (StableHlo.after hostOps2 Z)))) (Proc.devRef .tc main_v50_0) = Z (Proc.devRef .tc main_v50_0) := by
  read_stretch

end Cert.KernelIdeal.Host2

end
-- ==== Proof.Host1.lean ====
/-
  The host operations between region 0 and region 1, read at the buffers region 1 takes.

  Between the two regions the host computes the two level-1 masked means (one chain of gather, mask, sum, divide and
  select, applied once to the narrowed chunk features and once to the narrowed dimension-0 embedding) and views the
  four bias vectors as one-row matrices.  Each buffer after the stretch is its operations' function of the buffers the
  stretch starts from; a buffer the stretch never writes keeps its contents.  The masked-mean chain is, operation for
  operation, the one the reference applies (a change of float format being the identity on extended reals), so its
  result is named by the reference's own stage function.
-/
import proofs.«132306_j27711128994331_2_alg».proof.Proof.Gen.KernelIdeal.Frame
import proofs.«132306_j27711128994331_2_alg».proof.Proof.Gen.ReferenceIdeal.Read
import proofs.«132306_j27711128994331_2_alg».proof.Proof.Spec
import Idealize.ShloMosaic.Lib.StableHlo.Run
import Idealize.ShloMosaic.Lib.ValueLayout

set_option maxRecDepth 16384

noncomputable section

namespace Cert.KernelIdeal.Host1

open Cert.KernelIdeal Cert.KernelIdeal.Gen Cert.Spec Idealize.ShloMosaic.RowLayers
open Idealize.ShloMosaic Idealize.ShloMosaic.TcCoe Idealize.ShloMosaic.Tactic Idealize.ShloMosaic.StableHlo Idealize.ShloMosaic.ValueIdx
open Idealize.SL Idealize.SL.Sem

macro "read_stretch" : tactic =>
  `(tactic| (dsimp only [hostOps1, hostOps1_1, hostOps1_2, hostOps1_3, hostOps1_4]; after_results_simp))

variable (Z : Valuation τ sig (Elt Ideal))

set_option maxHeartbeats 1000000 in
set_option maxRecDepth 200000 in
/-- The masked mean of chunk features: the reference's chain at the stretch's source, indices and mask. -/
theorem mean_u (s : (⟨S100000x256, .bf16⟩ : BufTy).Contents (Elt Ideal)) (i : (⟨S50000x16, .i32⟩ : BufTy).Contents (Elt Ideal))
    (k : (⟨S50000x16, .f32⟩ : BufTy).Contents (Elt Ideal))
    (hs : Z (Proc.devRef .tc main_v0) = s) (hi : Z (Proc.devRef .tc main_arg1) = i) (hk : Z (Proc.devRef .tc main_arg5) = k)
    (T : S50000x256.Idx → EReal) (hT : Cert.ReferenceIdeal.Read.val_main_v27 (F := Ideal) s i k = T) :
    StableHlo.after hostOps1_4 (StableHlo.after hostOps1_3 (StableHlo.after hostOps1_2 (StableHlo.after hostOps1_1 (StableHlo.after hostOps1 Z)))) (Proc.devRef .tc main_v24) = T := by
  subst hs hi hk
  read_stretch
  subst hT
  rfl

set_option maxHeartbeats 1000000 in
set_option maxRecDepth 200000 in
/-- The masked mean of boundary embeddings: the same chain at the narrowed dimension-0 embedding. -/
theorem mean_v (s : (⟨S100000x256, .bf16⟩ : BufTy).Contents (Elt Ideal)) (i : (⟨S50000x16, .i32⟩ : BufTy).Contents (Elt Ideal))
    (k : (⟨S50000x16, .f32⟩ : BufTy).Contents (Elt Ideal))
    (hs : Z (Proc.devRef .tc main_v3_1) = s) (hi : Z (Proc.devRef .tc main_arg2) = i) (hk : Z (Proc.devRef .tc main_arg6) = k)
    (T : S50000x256.Idx → EReal) (hT : Cert.ReferenceIdeal.Read.val_main_v27 (F := Ideal) s i k = T) :
    StableHlo.after hostOps1_4 (StableHlo.after hostOps1_3 (StableHlo.after hostOps1_2 (StableHlo.after hostOps1_1 (StableHlo.after hostOps1 Z)))) (Proc.devRef .tc main_v45) = T := by
  subst hs hi hk
  read_stretch
  subst hT
  rfl

set_option maxHeartbeats 1000000 in
/-- A bias vector viewed as a one-row matrix. -/
theorem bias_main_v46 (b : S256.Idx → EReal) (hb : Z (Proc.devRef .tc main_arg10) = b) :
    row1 (n := 256) (StableHlo.after hostOps1_4 (StableHlo.after hostOps1_3 (StableHlo.after hostOps1_2 (StableHlo.after hostOps1_1 (StableHlo.after hostOps1 Z)))) (Proc.devRef .tc main_v46)) = vec b := by
  subst hb
  have e : StableHlo.after hostOps1_4 (StableHlo.after hostOps1_3 (StableHlo.after hostOps1_2 (StableHlo.after hostOps1_1 (StableHlo.after hostOps1 Z)))) (Proc.devRef .tc main_v46) = shapeCast S1x256 (Z (Proc.devRef .tc main_arg10)) shapeCasts_S256_S1x256 := by
    read_stretch
    rfl
  funext q
  show (StableHlo.after hostOps1_4 (StableHlo.after hostOps1_3 (StableHlo.after hostOps1_2 (StableHlo.after hostOps1_1 (StableHlo.after hostOps1 Z)))) (Proc.devRef .tc main_v46)) (ix2 (0 : Fin 1) q) = _
  rw [e]
  exact shapeCast_a_1a_apply _ _ 0 q

set_option maxHeartbeats 1000000 in
/-- A bias vector viewed as a one-row matrix. -/
theorem bias_main_v47 (b : S256.Idx → EReal) (hb : Z (Proc.devRef .tc main_arg12) = b) :
    row1 (n := 256) (StableHlo.after hostOps1_4 (StableHlo.after hostOps1_3 (StableHlo.after hostOps1_2 (StableHlo.after hostOps1_1 (StableHlo.after hostOps1 Z)))) (Proc.devRef .tc main_v47)) = vec b := by
  subst hb
  have e : StableHlo.after hostOps1_4 (StableHlo.after hostOps1_3 (StableHlo.after hostOps1_2 (StableHlo.after hostOps1_1 (StableHlo.after hostOps1 Z)))) (Proc.devRef .tc main_v47) = shapeCast S1x256 (Z (Proc.devRef .tc main_arg12)) shapeCasts_S256_S1x256 := by
    read_stretch
    rfl
  funext q
  show (StableHlo.after hostOps1_4 (StableHlo.after hostOps1_3 (StableHlo.after hostOps1_2 (StableHlo.after hostOps1_1 (StableHlo.after hostOps1 Z)))) (Proc.devRef .tc main_v47)) (ix2 (0 : Fin 1) q) = _
  rw [e]
  exact shapeCast_a_1a_apply _ _ 0 q

set_option maxHeartbeats 1000000 in
/-- A bias vector viewed as a one-row matrix. -/
theorem bias_main_v48 (b : S256.Idx → EReal) (hb : Z (Proc.devRef .tc main_arg14) = b) :
    row1 (n := 256) (StableHlo.after hostOps1_4 (StableHlo.after hostOps1_3 (StableHlo.after hostOps1_2 (StableHlo.after hostOps1_1 (StableHlo.after hostOps1 Z)))) (Proc.devRef .tc main_v48)) = vec b := by
  subst hb
  have e : StableHlo.after hostOps1_4 (StableHlo.after hostOps1_3 (StableHlo.after hostOps1_2 (StableHlo.after hostOps1_1 (StableHlo.after hostOps1 Z)))) (Proc.devRef .tc main_v48) = shapeCast S1x256 (Z (Proc.devRef .tc main_arg14)) shapeCasts_S256_S1x256 := by
    read_stretch
    rfl
  funext q
  show (StableHlo.after hostOps1_4 (StableHlo.after hostOps1_3 (StableHlo.after hostOps1_2 (StableHlo.after hostOps1_1 (StableHlo.after hostOps1 Z)))) (Proc.devRef .tc main_v48)) (ix2 (0 : Fin 1) q) = _
  rw [e]
  exact shapeCast_a_1a_apply _ _ 0 q

set_option maxHeartbeats 1000000 in
/-- A bias vector viewed as a one-row matrix. -/
theorem bias_main_v49 (b : S256.Idx → EReal) (hb : Z (Proc.devRef .tc main_arg20) = b) :
    row1 (n := 256) (StableHlo.after hostOps1_4 (StableHlo.after hostOps1_3 (StableHlo.after hostOps1_2 (StableHlo.after hostOps1_1 (StableHlo.after hostOps1 Z)))) (Proc.devRef .tc main_v49)) = vec b := by
  subst hb
  have e : StableHlo.after hostOps1_4 (StableHlo.after hostOps1_3 (StableHlo.after hostOps1_2 (StableHlo.after hostOps1_1 (StableHlo.after hostOps1 Z)))) (Proc.devRef .tc main_v49) = shapeCast S1x256 (Z (Proc.devRef .tc main_arg20)) shapeCasts_S256_S1x256 := by
    read_stretch
    rfl
  funext q
  show (StableHlo.after hostOps1_4 (StableHlo.after hostOps1_3 (StableHlo.after hostOps1_2 (StableHlo.after hostOps1_1 (StableHlo.after hostOps1 Z)))) (Proc.devRef .tc main_v49)) (ix2 (0 : Fin 1) q) = _
  rw [e]
  exact shapeCast_a_1a_apply _ _ 0 q

/-! Buffers the stretch never writes. -/

set_option maxHeartbeats 1000000 in
theorem keep_main_arg9 : StableHlo.after hostOps1_4 (StableHlo.after hostOps1_3 (StableHlo.after hostOps1_2 (StableHlo.after hostOps1_1 (StableHlo.after hostOps1 Z)))) (Proc.devRef .tc main_arg9) = Z (Proc.devRef .tc main_arg9) := by
  read_stretch

set_option maxHeartbeats 1000000 in
theorem keep_main_arg11 : StableHlo.after hostOps1_4 (StableHlo.after hostOps1_3 (StableHlo.after hostOps1_2 (StableHlo.after hostOps1_1 (StableHlo.after hostOps1 Z)))) (Proc.devRef .tc main_arg11) = Z (Proc.devRef .tc main_arg11) := by
  read_stretch

set_option maxHeartbeats 1000000 in
theorem keep_main_arg13 : StableHlo.after hostOps1_4 (StableHlo.after hostOps1_3 (StableHlo.after hostOps1_2 (StableHlo.after hostOps1_1 (StableHlo.after hostOps1 Z)))) (Proc.devRef .tc main_arg13) = Z (Proc.devRef .tc main_arg13) := by
  read_stretch

set_option maxHeartbeats 1000000 in
theorem keep_main_arg19 : StableHlo.after hostOps1_4 (StableHlo.after hostOps1_3 (StableHlo.after hostOps1_2 (StableHlo.after hostOps1_1 (StableHlo.after hostOps1 Z)))) (Proc.devRef .tc main_arg19) = Z (Proc.devRef .tc main_arg19) := by
  read_stretch

set_option maxHeartbeats 1000000 in
theorem keep_main_v0 : StableHlo.after hostOps1_4 (StableHlo.after hostOps1_3 (StableHlo.after hostOps1_2 (StableHlo.after hostOps1_1 (StableHlo.after hostOps1 Z)))) (Proc.devRef .tc main_v0) = Z (Proc.devRef .tc main_v0) := by
  read_stretch

set_option maxHeartbeats 1000000 in
theorem keep_main_v3_0 : StableHlo.after hostOps1_4 (StableHlo.after hostOps1_3 (StableHlo.after hostOps1_2 (StableHlo.after hostOps1_1 (StableHlo.after hostOps1 Z)))) (Proc.devRef .tc main_v3_0) = Z (Proc.devRef .tc main_v3_0) := by
  read_stretch

set_option maxHeartbeats 1000000 in
theorem keep_main_arg3 : StableHlo.after hostOps1_4 (StableHlo.after hostOps1_3 (StableHlo.after hostOps1_2 (StableHlo.after hostOps1_1 (StableHlo.after hostOps1 Z)))) (Proc.devRef .tc main_arg3) = Z (Proc.devRef .tc main_arg3) := by
  read_stretch

set_option maxHeartbeats 1000000 in
theorem keep_main_arg4 : StableHlo.after hostOps1_4 (StableHlo.after hostOps1_3 (StableHlo.after hostOps1_2 (StableHlo.after hostOps1_1 (StableHlo.after hostOps1 Z)))) (Proc.devRef .tc main_arg4) = Z (Proc.devRef .tc main_arg4) := by
  read_stretch

set_option maxHeartbeats 1000000 in
theorem keep_main_arg7 : StableHlo.after hostOps1_4 (StableHlo.after hostOps1_3 (StableHlo.after hostOps1_2 (StableHlo.after hostOps1_1 (StableHlo.after hostOps1 Z)))) (Proc.devRef .tc main_arg7) = Z (Proc.devRef .tc main_arg7) := by
  read_stretch

set_option maxHeartbeats 1000000 in
theorem keep_main_arg8 : StableHlo.after hostOps1_4 (StableHlo.after hostOps1_3 (StableHlo.after hostOps1_2 (StableHlo.after hostOps1_1 (StableHlo.after hostOps1 Z)))) (Proc.devRef .tc main_arg8) = Z (Proc.devRef .tc main_arg8) := by
  read_stretch

set_option maxHeartbeats 1000000 in
theorem keep_main_arg10 : StableHlo.after hostOps1_4 (StableHlo.after hostOps1_3 (StableHlo.after hostOps1_2 (StableHlo.after hostOps1_1 (StableHlo.after hostOps1 Z)))) (Proc.devRef .tc main_arg10) = Z (Proc.devRef .tc main_arg10) := by
  read_stretch

set_option maxHeartbeats 1000000 in
theorem keep_main_arg15 : StableHlo.after hostOps1_4 (StableHlo.after hostOps1_3 (StableHlo.after hostOps1_2 (StableHlo.after hostOps1_1 (StableHlo.after hostOps1 Z)))) (Proc.devRef .tc main_arg15) = Z (Proc.devRef .tc main_arg15) := by
  read_stretch

set_option maxHeartbeats 1000000 in
theorem keep_main_arg16 : StableHlo.after hostOps1_4 (StableHlo.after hostOps1_3 (StableHlo.after hostOps1_2 (StableHlo.after hostOps1_1 (StableHlo.after hostOps1 Z)))) (Proc.devRef .tc main_arg16) = Z (Proc.devRef .tc main_arg16) := by
  read_stretch

set_option maxHeartbeats 1000000 in
theorem keep_main_arg17 : StableHlo.after hostOps1_4 (StableHlo.after hostOps1_3 (StableHlo.after hostOps1_2 (StableHlo.after hostOps1_1 (StableHlo.after hostOps1 Z)))) (Proc.devRef .tc main_arg17) = Z (Proc.devRef .tc main_arg17) := by
  read_stretch

set_option maxHeartbeats 1000000 in
theorem keep_main_arg18 : StableHlo.after hostOps1_4 (StableHlo.after hostOps1_3 (StableHlo.after hostOps1_2 (StableHlo.after hostOps1_1 (StableHlo.after hostOps1 Z)))) (Proc.devRef .tc main_arg18) = Z (Proc.devRef .tc main_arg18) := by
  read_stretch

set_option maxHeartbeats 1000000 in
theorem keep_main_arg20 : StableHlo.after hostOps1_4 (StableHlo.after hostOps1_3 (StableHlo.after hostOps1_2 (StableHlo.after hostOps1_1 (StableHlo.after hostOps1 Z)))) (Proc.devRef .tc main_arg20) = Z (Proc.devRef .tc main_arg20) := by
  read_stretch

end Cert.KernelIdeal.Host1

end
-- ==== Proof.Bounds.lean ====
/-
  The buffers at the boundaries between @main's segments.

  The launch memory goes through a short first stretch (the narrowed copy of the chunk features and two bias
  vectors viewed as one-row matrices), region 0, the level-1 stretch, region 1, the level-2 stretch and region 2.
  No segment ever writes an argument, a region leaves its input arrays as it found them and changes no buffer that
  is not one of its arrays, so at every boundary each argument still holds its launch contents and the narrowed
  chunk features are still the chunk features.
-/
import proofs.«132306_j27711128994331_2_alg».proof.Proof.Gen.KernelIdeal.Frame
import proofs.«132306_j27711128994331_2_alg».proof.Proof.Gen.ReferenceIdeal.Read
import proofs.«132306_j27711128994331_2_alg».proof.Proof.Spec
import proofs.«132306_j27711128994331_2_alg».proof.Proof.Host1
import Idealize.ShloMosaic.Lib.StableHlo.Run
import Idealize.ShloMosaic.Lib.ValueLayout

set_option maxRecDepth 16384

noncomputable section

namespace Cert.KernelIdeal.Bounds

open Cert.KernelIdeal Cert.KernelIdeal.Gen Cert.Spec Idealize.ShloMosaic.RowLayers
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg)

/-! ## After the first stretch (region 0's entry) -/
theorem W1_arg0 (c : Dev nD) : W1 m ρ c (Proc.devRef .tc main_arg0) = (m ((c : Thread nD τ).loc main_arg0)) := by
  dsimp only [W1, hostOps0]; after_results; try rfl
theorem W1_arg1 (c : Dev nD) : W1 m ρ c (Proc.devRef .tc main_arg1) = (m ((c : Thread nD τ).loc main_arg1)) := by
  dsimp only [W1, hostOps0]; after_results; try rfl
theorem W1_arg2 (c : Dev nD) : W1 m ρ c (Proc.devRef .tc main_arg2) = (m ((c : Thread nD τ).loc main_arg2)) := by
  dsimp only [W1, hostOps0]; after_results; try rfl
theorem W1_arg3 (c : Dev nD) : W1 m ρ c (Proc.devRef .tc main_arg3) = (m ((c : Thread nD τ).loc main_arg3)) := by
  dsimp only [W1, hostOps0]; after_results; try rfl
theorem W1_arg4 (c : Dev nD) : W1 m ρ c (Proc.devRef .tc main_arg4) = (m ((c : Thread nD τ).loc main_arg4)) := by
  dsimp only [W1, hostOps0]; after_results; try rfl
theorem W1_arg5 (c : Dev nD) : W1 m ρ c (Proc.devRef .tc main_arg5) = (m ((c : Thread nD τ).loc main_arg5)) := by
  dsimp only [W1, hostOps0]; after_results; try rfl
theorem W1_arg6 (c : Dev nD) : W1 m ρ c (Proc.devRef .tc main_arg6) = (m ((c : Thread nD τ).loc main_arg6)) := by
  dsimp only [W1, hostOps0]; after_results; try rfl
theorem W1_arg7 (c : Dev nD) : W1 m ρ c (Proc.devRef .tc main_arg7) = (m ((c : Thread nD τ).loc main_arg7)) := by
  dsimp only [W1, hostOps0]; after_results; try rfl
theorem W1_arg8 (c : Dev nD) : W1 m ρ c (Proc.devRef .tc main_arg8) = (m ((c : Thread nD τ).loc main_arg8)) := by
  dsimp only [W1, hostOps0]; after_results; try rfl
theorem W1_arg9 (c : Dev nD) : W1 m ρ c (Proc.devRef .tc main_arg9) = (m ((c : Thread nD τ).loc main_arg9)) := by
  dsimp only [W1, hostOps0]; after_results; try rfl
theorem W1_arg10 (c : Dev nD) : W1 m ρ c (Proc.devRef .tc main_arg10) = (m ((c : Thread nD τ).loc main_arg10)) := by
  dsimp only [W1, hostOps0]; after_results; try rfl
theorem W1_arg11 (c : Dev nD) : W1 m ρ c (Proc.devRef .tc main_arg11) = (m ((c : Thread nD τ).loc main_arg11)) := by
  dsimp only [W1, hostOps0]; after_results; try rfl
theorem W1_arg12 (c : Dev nD) : W1 m ρ c (Proc.devRef .tc main_arg12) = (m ((c : Thread nD τ).loc main_arg12)) := by
  dsimp only [W1, hostOps0]; after_results; try rfl
theorem W1_arg13 (c : Dev nD) : W1 m ρ c (Proc.devRef .tc main_arg13) = (m ((c : Thread nD τ).loc main_arg13)) := by
  dsimp only [W1, hostOps0]; after_results; try rfl
theorem W1_arg14 (c : Dev nD) : W1 m ρ c (Proc.devRef .tc main_arg14) = (m ((c : Thread nD τ).loc main_arg14)) := by
  dsimp only [W1, hostOps0]; after_results; try rfl
theorem W1_arg15 (c : Dev nD) : W1 m ρ c (Proc.devRef .tc main_arg15) = (m ((c : Thread nD τ).loc main_arg15)) := by
  dsimp only [W1, hostOps0]; after_results; try rfl
theorem W1_arg16 (c : Dev nD) : W1 m ρ c (Proc.devRef .tc main_arg16) = (m ((c : Thread nD τ).loc main_arg16)) := by
  dsimp only [W1, hostOps0]; after_results; try rfl
theorem W1_arg17 (c : Dev nD) : W1 m ρ c (Proc.devRef .tc main_arg17) = (m ((c : Thread nD τ).loc main_arg17)) := by
  dsimp only [W1, hostOps0]; after_results; try rfl
theorem W1_arg18 (c : Dev nD) : W1 m ρ c (Proc.devRef .tc main_arg18) = (m ((c : Thread nD τ).loc main_arg18)) := by
  dsimp only [W1, hostOps0]; after_results; try rfl
theorem W1_arg19 (c : Dev nD) : W1 m ρ c (Proc.devRef .tc main_arg19) = (m ((c : Thread nD τ).loc main_arg19)) := by
  dsimp only [W1, hostOps0]; after_results; try rfl
theorem W1_arg20 (c : Dev nD) : W1 m ρ c (Proc.devRef .tc main_arg20) = (m ((c : Thread nD τ).loc main_arg20)) := by
  dsimp only [W1, hostOps0]; after_results; try rfl

/-- The narrowed copy of the chunk features. -/
theorem W1_v0 (c : Dev nD) : (W1 m ρ c (Proc.devRef .tc main_v0) : (⟨S100000x256, .bf16⟩ : BufTy).Contents (Elt Ideal)) = (truncf (F := Ideal) .bf16 ((m ((c : Thread nD τ).loc main_arg0)) : (⟨S100000x256, .f32⟩ : BufTy).Contents (Elt Ideal)) bitsLt_bf16_f32) := by
  dsimp only [W1, hostOps0]; after_results; try rfl

/-- lin0's bias as a one-row matrix. -/
theorem W1_v1 (c : Dev nD) : row1 (n := 256) (W1 m ρ c (Proc.devRef .tc main_v1)) = vec (m ((c : Thread nD τ).loc main_arg10)) := by
  have e : W1 m ρ c (Proc.devRef .tc main_v1) = shapeCast S1x256 (m ((c : Thread nD τ).loc main_arg10)) shapeCasts_S256_S1x256 := by
    dsimp only [W1, hostOps0]; after_results; try rfl
  funext q
  show (W1 m ρ c (Proc.devRef .tc main_v1)) (ix2 (0 : Fin 1) q) = _
  rw [e]
  exact shapeCast_a_1a_apply _ _ 0 q

/-- proj's bias as a one-row matrix. -/
theorem W1_v2 (c : Dev nD) : row1 (n := 256) (W1 m ρ c (Proc.devRef .tc main_v2)) = vec (m ((c : Thread nD τ).loc main_arg20)) := by
  have e : W1 m ρ c (Proc.devRef .tc main_v2) = shapeCast S1x256 (m ((c : Thread nD τ).loc main_arg20)) shapeCasts_S256_S1x256 := by
    dsimp only [W1, hostOps0]; after_results; try rfl
  funext q
  show (W1 m ρ c (Proc.devRef .tc main_v2)) (ix2 (0 : Fin 1) q) = _
  rw [e]
  exact shapeCast_a_1a_apply _ _ 0 q

/-! ## After region 0 -/
theorem W2_arg0 (c : Dev nD) : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  ((W2_arr m ρ c 1).trans (((dat0 (V1 m ρ) c).arrAt_in 1 rfl _).trans (A_eq0 (V1 m ρ) c 1))).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)
theorem W2_arg13 (c : Dev nD) : W2 m ρ c (Proc.devRef .tc main_arg13) = (m ((c : Thread nD τ).loc main_arg13)) :=
  (W2_of_ne m ρ c main_arg13 (by decide)).trans (W1_arg13 m ρ c)
theorem W2_arg14 (c : Dev nD) : W2 m ρ c (Proc.devRef .tc main_arg14) = (m ((c : Thread nD τ).loc main_arg14)) :=
  (W2_of_ne m ρ c main_arg14 (by decide)).trans (W1_arg14 m ρ c)
theorem W2_arg15 (c : Dev nD) : W2 m ρ c (Proc.devRef .tc main_arg15) = (m ((c : Thread nD τ).loc main_arg15)) :=
  (W2_of_ne m ρ c main_arg15 (by decide)).trans (W1_arg15 m ρ c)
theorem W2_arg16 (c : Dev nD) : W2 m ρ c (Proc.devRef .tc main_arg16) = (m ((c : Thread nD τ).loc main_arg16)) :=
  (W2_of_ne m ρ c main_arg16 (by decide)).trans (W1_arg16 m ρ c)
theorem W2_arg17 (c : Dev nD) : W2 m ρ c (Proc.devRef .tc main_arg17) = (m ((c : Thread nD τ).loc main_arg17)) :=
  (W2_of_ne m ρ c main_arg17 (by decide)).trans (W1_arg17 m ρ c)
theorem W2_arg18 (c : Dev nD) : W2 m ρ c (Proc.devRef .tc main_arg18) = (m ((c : Thread nD τ).loc main_arg18)) :=
  (W2_of_ne m ρ c main_arg18 (by decide)).trans (W1_arg18 m ρ c)
theorem W2_arg19 (c : Dev nD) : W2 m ρ c (Proc.devRef .tc main_arg19) = (m ((c : Thread nD τ).loc main_arg19)) :=
  ((W2_arr m ρ c 3).trans (((dat0 (V1 m ρ) c).arrAt_in 3 rfl _).trans (A_eq0 (V1 m ρ) c 3))).trans (W1_arg19 m ρ c)
theorem W2_arg20 (c : Dev nD) : W2 m ρ c (Proc.devRef .tc main_arg20) = (m ((c : Thread nD τ).loc main_arg20)) :=
  (W2_of_ne m ρ c main_arg20 (by decide)).trans (W1_arg20 m ρ c)
theorem W2_v0 (c : Dev nD) : (W2 m ρ c (Proc.devRef .tc main_v0) : (⟨S100000x256, .bf16⟩ : BufTy).Contents (Elt Ideal)) = (truncf (F := Ideal) .bf16 ((m ((c : Thread nD τ).loc main_arg0)) : (⟨S100000x256, .f32⟩ : BufTy).Contents (Elt Ideal)) bitsLt_bf16_f32) :=
  (W2_of_ne m ρ c main_v0 (by decide)).trans (W1_v0 m ρ c)

/-! ## After region 1 -/
theorem W8_arg3 (c : Dev nD) : W8 m ρ c (Proc.devRef .tc main_arg3) = (m ((c : Thread nD τ).loc main_arg3)) :=
  (W8_of_ne m ρ c main_arg3 (by decide)).trans ((Host1.keep_main_arg3 (W2 m ρ c)).trans (W2_arg3 m ρ c))
theorem W8_arg4 (c : Dev nD) : W8 m ρ c (Proc.devRef .tc main_arg4) = (m ((c : Thread nD τ).loc main_arg4)) :=
  (W8_of_ne m ρ c main_arg4 (by decide)).trans ((Host1.keep_main_arg4 (W2 m ρ c)).trans (W2_arg4 m ρ c))
theorem W8_arg7 (c : Dev nD) : W8 m ρ c (Proc.devRef .tc main_arg7) = (m ((c : Thread nD τ).loc main_arg7)) :=
  (W8_of_ne m ρ c main_arg7 (by decide)).trans ((Host1.keep_main_arg7 (W2 m ρ c)).trans (W2_arg7 m ρ c))
theorem W8_arg8 (c : Dev nD) : W8 m ρ c (Proc.devRef .tc main_arg8) = (m ((c : Thread nD τ).loc main_arg8)) :=
  (W8_of_ne m ρ c main_arg8 (by decide)).trans ((Host1.keep_main_arg8 (W2 m ρ c)).trans (W2_arg8 m ρ c))
theorem W8_arg9 (c : Dev nD) : W8 m ρ c (Proc.devRef .tc main_arg9) = (m ((c : Thread nD τ).loc main_arg9)) :=
  ((W8_arr m ρ c 2).trans (((dat1 (V7 m ρ) c).arrAt_in 2 rfl _).trans (A_eq1 (V7 m ρ) c 2))).trans
    ((Host1.keep_main_arg9 (W2 m ρ c)).trans (W2_arg9 m ρ c))
theorem W8_arg10 (c : Dev nD) : W8 m ρ c (Proc.devRef .tc main_arg10) = (m ((c : Thread nD τ).loc main_arg10)) :=
  (W8_of_ne m ρ c main_arg10 (by decide)).trans ((Host1.keep_main_arg10 (W2 m ρ c)).trans (W2_arg10 m ρ c))
theorem W8_arg15 (c : Dev nD) : W8 m ρ c (Proc.devRef .tc main_arg15) = (m ((c : Thread nD τ).loc main_arg15)) :=
  (W8_of_ne m ρ c main_arg15 (by decide)).trans ((Host1.keep_main_arg15 (W2 m ρ c)).trans (W2_arg15 m ρ c))
theorem W8_arg16 (c : Dev nD) : W8 m ρ c (Proc.devRef .tc main_arg16) = (m ((c : Thread nD τ).loc main_arg16)) :=
  (W8_of_ne m ρ c main_arg16 (by decide)).trans ((Host1.keep_main_arg16 (W2 m ρ c)).trans (W2_arg16 m ρ c))
theorem W8_arg17 (c : Dev nD) : W8 m ρ c (Proc.devRef .tc main_arg17) = (m ((c : Thread nD τ).loc main_arg17)) :=
  (W8_of_ne m ρ c main_arg17 (by decide)).trans ((Host1.keep_main_arg17 (W2 m ρ c)).trans (W2_arg17 m ρ c))
theorem W8_arg18 (c : Dev nD) : W8 m ρ c (Proc.devRef .tc main_arg18) = (m ((c : Thread nD τ).loc main_arg18)) :=
  (W8_of_ne m ρ c main_arg18 (by decide)).trans ((Host1.keep_main_arg18 (W2 m ρ c)).trans (W2_arg18 m ρ c))
theorem W8_arg19 (c : Dev nD) : W8 m ρ c (Proc.devRef .tc main_arg19) = (m ((c : Thread nD τ).loc main_arg19)) :=
  ((W8_arr m ρ c 8).trans (((dat1 (V7 m ρ) c).arrAt_in 8 rfl _).trans (A_eq1 (V7 m ρ) c 8))).trans
    ((Host1.keep_main_arg19 (W2 m ρ c)).trans (W2_arg19 m ρ c))
theorem W8_arg20 (c : Dev nD) : W8 m ρ c (Proc.devRef .tc main_arg20) = (m ((c : Thread nD τ).loc main_arg20)) :=
  (W8_of_ne m ρ c main_arg20 (by decide)).trans ((Host1.keep_main_arg20 (W2 m ρ c)).trans (W2_arg20 m ρ c))
theorem W8_v0 (c : Dev nD) : (W8 m ρ c (Proc.devRef .tc main_v0) : (⟨S100000x256, .bf16⟩ : BufTy).Contents (Elt Ideal)) = (truncf (F := Ideal) .bf16 ((m ((c : Thread nD τ).loc main_arg0)) : (⟨S100000x256, .f32⟩ : BufTy).Contents (Elt Ideal)) bitsLt_bf16_f32) :=
  (W8_of_ne m ρ c main_v0 (by decide)).trans ((Host1.keep_main_v0 (W2 m ρ c)).trans (W2_v0 m ρ c))

end Cert.KernelIdeal.Bounds

end
-- ==== Proof.Values.lean ====
/-
  The three result arrays of the idealized kernel, as the reference's functions of the arguments.

  Region 0 leaves proj (lin0 chunk_features) in both of its outputs; the reference's dimension-0 embedding is the
  same array, row by row.  The level-1 stretch then computes the reference's two level-1 masked means — of the chunk
  features, and (the narrowed dimension-0 embedding being that embedding) of the dimension-0 embedding —, so region 1
  leaves the reference's level-1 embedding in both of its outputs; and in the same way region 2 leaves the
  reference's level-2 embedding.  The later segments do not touch an earlier region's output, so the three arrays
  are still there when @main returns.
-/
import proofs.«132306_j27711128994331_2_alg».proof.Proof.Gen.KernelIdeal.Frame
import proofs.«132306_j27711128994331_2_alg».proof.Proof.Gen.ReferenceIdeal.Read
import proofs.«132306_j27711128994331_2_alg».proof.Proof.Spec
import proofs.«132306_j27711128994331_2_alg».proof.Proof.Region0
import proofs.«132306_j27711128994331_2_alg».proof.Proof.Region1
import proofs.«132306_j27711128994331_2_alg».proof.Proof.Region2
import proofs.«132306_j27711128994331_2_alg».proof.Proof.Host2
import proofs.«132306_j27711128994331_2_alg».proof.Proof.Bounds
import Idealize.ShloMosaic.Lib.StableHlo.Run
import Idealize.ShloMosaic.Lib.ValueLayout

set_option maxRecDepth 16384

noncomputable section

namespace Cert.KernelIdeal.Values

open Cert.KernelIdeal Cert.KernelIdeal.Gen Cert.Spec Idealize.ShloMosaic.RowLayers
open Idealize.ShloMosaic Idealize.ShloMosaic.TcCoe Idealize.ShloMosaic.Tactic Idealize.ShloMosaic.StableHlo Idealize.ShloMosaic.ValueIdx
open Idealize.SL Idealize.SL.Sem

open Cert.KernelIdeal.Bounds
open Cert.ReferenceIdeal.Read (val_main_v7 val_main_v27 val_main_v51 val_main_v65 val_main_v85 val_main_v109 val_main_v123)
open Cert.ReferenceIdeal.RefValue (emb0_row level1_row level2_row v51_eq v109_eq bndMean2)

variable (m : (ℓ : Loc nD τ sig) → Buf (Elt Ideal) ℓ) (ρ : Dev nD → PrngReg)

/-! ## Dimension 0 -/

/-- proj (lin0 chunk_features), with the weights as region 0 finds them, is the reference's dimension-0 embedding. -/
theorem emb_eq (c : Dev nD) :
    embArr (M := 100000) (V1 m ρ c main_arg0) (V1 m ρ c main_arg9) (V1 m ρ c main_v1) (V1 m ρ c main_arg19) (V1 m ρ c main_v2)
      = val_main_v7 (F := Ideal) (m ((c : Thread nD τ).loc main_arg0)) (m ((c : Thread nD τ).loc main_arg9)) (m ((c : Thread nD τ).loc main_arg10)) (m ((c : Thread nD τ).loc main_arg19)) (m ((c : Thread nD τ).loc main_arg20)) := by
  have h0 : rowOf (a := 100000) (k := 256) (W1 m ρ c (Proc.devRef .tc main_arg0)) = rowOf (m ((c : Thread nD τ).loc main_arg0)) := congrArg (rowOf (a := 100000) (k := 256)) (W1_arg0 m ρ c)
  have h9 : mat (k := 256) (n := 256) (W1 m ρ c (Proc.devRef .tc main_arg9)) = mat (m ((c : Thread nD τ).loc main_arg9)) := congrArg (mat (k := 256) (n := 256)) (W1_arg9 m ρ c)
  have h19 : mat (k := 256) (n := 256) (W1 m ρ c (Proc.devRef .tc main_arg19)) = mat (m ((c : Thread nD τ).loc main_arg19)) := congrArg (mat (k := 256) (n := 256)) (W1_arg19 m ρ c)
  funext i
  obtain ⟨r, q, rfl⟩ : ∃ (r : Fin 100000) (q : Fin 256), i = ix2 r q := ⟨i 0, i 1, eq_ix2 i⟩
  show emb0Row (mat (k := 256) (n := 256) (W1 m ρ c (Proc.devRef .tc main_arg9))) (row1 (n := 256) (W1 m ρ c (Proc.devRef .tc main_v1)))
      (mat (k := 256) (n := 256) (W1 m ρ c (Proc.devRef .tc main_arg19))) (row1 (n := 256) (W1 m ρ c (Proc.devRef .tc main_v2)))
      (rowOf (a := 100000) (k := 256) (W1 m ρ c (Proc.devRef .tc main_arg0)) r) q = _
  rw [h0, h9, h19, W1_v1 m ρ c, W1_v2 m ρ c]
  exact (congrFun (emb0_row (m ((c : Thread nD τ).loc main_arg0)) (m ((c : Thread nD τ).loc main_arg9)) (m ((c : Thread nD τ).loc main_arg10)) (m ((c : Thread nD τ).loc main_arg19)) (m ((c : Thread nD τ).loc main_arg20)) r) q).symm

/-- Region 0's f32 output after the region. -/
theorem arr0 (c : Dev nD) : W2 m ρ c (Proc.devRef .tc main_v3_0) = val_main_v7 (F := Ideal) (m ((c : Thread nD τ).loc main_arg0)) (m ((c : Thread nD τ).loc main_arg9)) (m ((c : Thread nD τ).loc main_arg10)) (m ((c : Thread nD τ).loc main_arg19)) (m ((c : Thread nD τ).loc main_arg20)) :=
  (W2_arr m ρ c 5).trans ((Region0.final_5 (V1 m ρ) c).trans (emb_eq m ρ c))

/-- Region 0's narrowed output after the region: the same array. -/
theorem arr0b (c : Dev nD) : W2 m ρ c (Proc.devRef .tc main_v3_1) = val_main_v7 (F := Ideal) (m ((c : Thread nD τ).loc main_arg0)) (m ((c : Thread nD τ).loc main_arg9)) (m ((c : Thread nD τ).loc main_arg10)) (m ((c : Thread nD τ).loc main_arg19)) (m ((c : Thread nD τ).loc main_arg20)) :=
  (W2_arr m ρ c 6).trans ((Region0.final_6 (V1 m ρ) c).trans (emb_eq m ρ c))

/-! ## Level 1 -/

/-- The masked mean of chunk features region 1 is given. -/
theorem mean_u1 (c : Dev nD) : W7 m ρ c (Proc.devRef .tc main_v24) = val_main_v27 (F := Ideal) (m ((c : Thread nD τ).loc main_arg0)) (m ((c : Thread nD τ).loc main_arg1)) (m ((c : Thread nD τ).loc main_arg5)) :=
  Host1.mean_u (W2 m ρ c) _ _ _ (W2_v0 m ρ c) (W2_arg1 m ρ c) (W2_arg5 m ρ c) _ rfl

/-- The masked mean of boundary embeddings region 1 is given. -/
theorem mean_v1 (c : Dev nD) : W7 m ρ c (Proc.devRef .tc main_v45) = val_main_v51 (F := Ideal) (m ((c : Thread nD τ).loc main_arg0)) (m ((c : Thread nD τ).loc main_arg2)) (m ((c : Thread nD τ).loc main_arg6)) (m ((c : Thread nD τ).loc main_arg9)) (m ((c : Thread nD τ).loc main_arg10)) (m ((c : Thread nD τ).loc main_arg19)) (m ((c : Thread nD τ).loc main_arg20)) :=
  Host1.mean_v (W2 m ρ c) _ _ _ (arr0b m ρ c) (W2_arg2 m ρ c) (W2_arg6 m ρ c) _ (v51_eq (m ((c : Thread nD τ).loc main_arg0)) (m ((c : Thread nD τ).loc main_arg2)) (m ((c : Thread nD τ).loc main_arg6)) (m ((c : Thread nD τ).loc main_arg9)) (m ((c : Thread nD τ).loc main_arg10)) (m ((c : Thread nD τ).loc main_arg19)) (m ((c : Thread nD τ).loc main_arg20))).symm

/-- Region 1's array function at its entry contents is the reference's level-1 embedding. -/
theorem level1_eq (c : Dev nD) :
    levelArr (M := 50000) (V7 m ρ c main_v24) (V7 m ρ c main_v45) (V7 m ρ c main_arg9) (V7 m ρ c main_v46) (V7 m ρ c main_arg11)
        (V7 m ρ c main_v47) (V7 m ρ c main_arg13) (V7 m ρ c main_v48) (V7 m ρ c main_arg19) (V7 m ρ c main_v49)
      = val_main_v65 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) := by
  have hu : rowOf (a := 50000) (k := 256) (W7 m ρ c (Proc.devRef .tc main_v24)) = rowOf (val_main_v27 (F := Ideal) (m ((c : Thread nD τ).loc main_arg0)) (m ((c : Thread nD τ).loc main_arg1)) (m ((c : Thread nD τ).loc main_arg5))) :=
    congrArg (rowOf (a := 50000) (k := 256)) (mean_u1 m ρ c)
  have hv : rowOf (a := 50000) (k := 256) (W7 m ρ c (Proc.devRef .tc main_v45)) = rowOf (val_main_v51 (F := Ideal) (m ((c : Thread nD τ).loc main_arg0)) (m ((c : Thread nD τ).loc main_arg2)) (m ((c : Thread nD τ).loc main_arg6)) (m ((c : Thread nD τ).loc main_arg9)) (m ((c : Thread nD τ).loc main_arg10)) (m ((c : Thread nD τ).loc main_arg19)) (m ((c : Thread nD τ).loc main_arg20))) :=
    congrArg (rowOf (a := 50000) (k := 256)) (mean_v1 m ρ c)
  have h9 : mat (k := 256) (n := 256) (W7 m ρ c (Proc.devRef .tc main_arg9)) = mat (m ((c : Thread nD τ).loc main_arg9)) :=
    congrArg (mat (k := 256) (n := 256)) ((Host1.keep_main_arg9 (W2 m ρ c)).trans (W2_arg9 m ρ c))
  have h11 : mat (k := 512) (n := 256) (W7 m ρ c (Proc.devRef .tc main_arg11)) = mat (m ((c : Thread nD τ).loc main_arg11)) :=
    congrArg (mat (k := 512) (n := 256)) ((Host1.keep_main_arg11 (W2 m ρ c)).trans (W2_arg11 m ρ c))
  have h13 : mat (k := 256) (n := 256) (W7 m ρ c (Proc.devRef .tc main_arg13)) = mat (m ((c : Thread nD τ).loc main_arg13)) :=
    congrArg (mat (k := 256) (n := 256)) ((Host1.keep_main_arg13 (W2 m ρ c)).trans (W2_arg13 m ρ c))
  have h19 : mat (k := 256) (n := 256) (W7 m ρ c (Proc.devRef .tc main_arg19)) = mat (m ((c : Thread nD τ).loc main_arg19)) :=
    congrArg (mat (k := 256) (n := 256)) ((Host1.keep_main_arg19 (W2 m ρ c)).trans (W2_arg19 m ρ c))
  have b46 : row1 (n := 256) (W7 m ρ c (Proc.devRef .tc main_v46)) = vec (m ((c : Thread nD τ).loc main_arg10)) := Host1.bias_main_v46 (W2 m ρ c) _ (W2_arg10 m ρ c)
  have b47 : row1 (n := 256) (W7 m ρ c (Proc.devRef .tc main_v47)) = vec (m ((c : Thread nD τ).loc main_arg12)) := Host1.bias_main_v47 (W2 m ρ c) _ (W2_arg12 m ρ c)
  have b48 : row1 (n := 256) (W7 m ρ c (Proc.devRef .tc main_v48)) = vec (m ((c : Thread nD τ).loc main_arg14)) := Host1.bias_main_v48 (W2 m ρ c) _ (W2_arg14 m ρ c)
  have b49 : row1 (n := 256) (W7 m ρ c (Proc.devRef .tc main_v49)) = vec (m ((c : Thread nD τ).loc main_arg20)) := Host1.bias_main_v49 (W2 m ρ c) _ (W2_arg20 m ρ c)
  funext i
  obtain ⟨r, q, rfl⟩ : ∃ (r : Fin 50000) (q : Fin 256), i = ix2 r q := ⟨i 0, i 1, eq_ix2 i⟩
  show levelRow (mat (k := 256) (n := 256) (W7 m ρ c (Proc.devRef .tc main_arg9))) (row1 (n := 256) (W7 m ρ c (Proc.devRef .tc main_v46)))
      (mat (k := 512) (n := 256) (W7 m ρ c (Proc.devRef .tc main_arg11))) (row1 (n := 256) (W7 m ρ c (Proc.devRef .tc main_v47)))
      (mat (k := 256) (n := 256) (W7 m ρ c (Proc.devRef .tc main_arg13))) (row1 (n := 256) (W7 m ρ c (Proc.devRef .tc main_v48)))
      (mat (k := 256) (n := 256) (W7 m ρ c (Proc.devRef .tc main_arg19))) (row1 (n := 256) (W7 m ρ c (Proc.devRef .tc main_v49)))
      (rowOf (a := 50000) (k := 256) (W7 m ρ c (Proc.devRef .tc main_v24)) r) (rowOf (a := 50000) (k := 256) (W7 m ρ c (Proc.devRef .tc main_v45)) r) q = _
  rw [hu, hv, h9, h11, h13, h19, b46, b47, b48, b49]
  exact (congrFun (level1_row (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) r) q).symm

/-- Region 1's f32 output after the region. -/
theorem arr1 (c : Dev nD) : W8 m ρ c (Proc.devRef .tc main_v50_0) = val_main_v65 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) :=
  (W8_arr m ρ c 10).trans ((Region1.final_10 (V7 m ρ) c).trans (level1_eq m ρ c))

/-- Region 1's narrowed output after the region: the same array. -/
theorem arr1b (c : Dev nD) : W8 m ρ c (Proc.devRef .tc main_v50_1) = val_main_v65 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) :=
  (W8_arr m ρ c 11).trans ((Region1.final_11 (V7 m ρ) c).trans (level1_eq m ρ c))

/-! ## Level 2 -/

/-- The masked mean of chunk features region 2 is given. -/
theorem mean_u2 (c : Dev nD) : W13 m ρ c (Proc.devRef .tc main_v71) = val_main_v85 (F := Ideal) (m ((c : Thread nD τ).loc main_arg0)) (m ((c : Thread nD τ).loc main_arg3)) (m ((c : Thread nD τ).loc main_arg7)) :=
  Host2.mean_u (W8 m ρ c) _ _ _ (W8_v0 m ρ c) (W8_arg3 m ρ c) (W8_arg7 m ρ c) _ rfl

/-- The masked mean of level-1 embeddings region 2 is given. -/
theorem mean_v2 (c : Dev nD) : W13 m ρ c (Proc.devRef .tc main_v92) = val_main_v109 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) :=
  Host2.mean_v (W8 m ρ c) _ _ _ (arr1b m ρ c) (W8_arg4 m ρ c) (W8_arg8 m ρ c) _ (v109_eq (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20))).symm

/-- Region 2's array function at its entry contents is the reference's level-2 embedding. -/
theorem level2_eq (c : Dev nD) :
    levelArr (M := 10000) (V13 m ρ c main_v71) (V13 m ρ c main_v92) (V13 m ρ c main_arg9) (V13 m ρ c main_v93) (V13 m ρ c main_arg15)
        (V13 m ρ c main_v94) (V13 m ρ c main_arg17) (V13 m ρ c main_v95) (V13 m ρ c main_arg19) (V13 m ρ c main_v96)
      = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have hu : rowOf (a := 10000) (k := 256) (W13 m ρ c (Proc.devRef .tc main_v71)) = rowOf (val_main_v85 (F := Ideal) (m ((c : Thread nD τ).loc main_arg0)) (m ((c : Thread nD τ).loc main_arg3)) (m ((c : Thread nD τ).loc main_arg7))) :=
    congrArg (rowOf (a := 10000) (k := 256)) (mean_u2 m ρ c)
  have hv : rowOf (a := 10000) (k := 256) (W13 m ρ c (Proc.devRef .tc main_v92)) = rowOf (val_main_v109 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20))) :=
    congrArg (rowOf (a := 10000) (k := 256)) (mean_v2 m ρ c)
  have h9 : mat (k := 256) (n := 256) (W13 m ρ c (Proc.devRef .tc main_arg9)) = mat (m ((c : Thread nD τ).loc main_arg9)) :=
    congrArg (mat (k := 256) (n := 256)) ((Host2.keep_main_arg9 (W8 m ρ c)).trans (W8_arg9 m ρ c))
  have h15 : mat (k := 512) (n := 256) (W13 m ρ c (Proc.devRef .tc main_arg15)) = mat (m ((c : Thread nD τ).loc main_arg15)) :=
    congrArg (mat (k := 512) (n := 256)) ((Host2.keep_main_arg15 (W8 m ρ c)).trans (W8_arg15 m ρ c))
  have h17 : mat (k := 256) (n := 256) (W13 m ρ c (Proc.devRef .tc main_arg17)) = mat (m ((c : Thread nD τ).loc main_arg17)) :=
    congrArg (mat (k := 256) (n := 256)) ((Host2.keep_main_arg17 (W8 m ρ c)).trans (W8_arg17 m ρ c))
  have h19 : mat (k := 256) (n := 256) (W13 m ρ c (Proc.devRef .tc main_arg19)) = mat (m ((c : Thread nD τ).loc main_arg19)) :=
    congrArg (mat (k := 256) (n := 256)) ((Host2.keep_main_arg19 (W8 m ρ c)).trans (W8_arg19 m ρ c))
  have b93 : row1 (n := 256) (W13 m ρ c (Proc.devRef .tc main_v93)) = vec (m ((c : Thread nD τ).loc main_arg10)) := Host2.bias_main_v93 (W8 m ρ c) _ (W8_arg10 m ρ c)
  have b94 : row1 (n := 256) (W13 m ρ c (Proc.devRef .tc main_v94)) = vec (m ((c : Thread nD τ).loc main_arg16)) := Host2.bias_main_v94 (W8 m ρ c) _ (W8_arg16 m ρ c)
  have b95 : row1 (n := 256) (W13 m ρ c (Proc.devRef .tc main_v95)) = vec (m ((c : Thread nD τ).loc main_arg18)) := Host2.bias_main_v95 (W8 m ρ c) _ (W8_arg18 m ρ c)
  have b96 : row1 (n := 256) (W13 m ρ c (Proc.devRef .tc main_v96)) = vec (m ((c : Thread nD τ).loc main_arg20)) := Host2.bias_main_v96 (W8 m ρ c) _ (W8_arg20 m ρ c)
  funext i
  obtain ⟨r, q, rfl⟩ : ∃ (r : Fin 10000) (q : Fin 256), i = ix2 r q := ⟨i 0, i 1, eq_ix2 i⟩
  show levelRow (mat (k := 256) (n := 256) (W13 m ρ c (Proc.devRef .tc main_arg9))) (row1 (n := 256) (W13 m ρ c (Proc.devRef .tc main_v93)))
      (mat (k := 512) (n := 256) (W13 m ρ c (Proc.devRef .tc main_arg15))) (row1 (n := 256) (W13 m ρ c (Proc.devRef .tc main_v94)))
      (mat (k := 256) (n := 256) (W13 m ρ c (Proc.devRef .tc main_arg17))) (row1 (n := 256) (W13 m ρ c (Proc.devRef .tc main_v95)))
      (mat (k := 256) (n := 256) (W13 m ρ c (Proc.devRef .tc main_arg19))) (row1 (n := 256) (W13 m ρ c (Proc.devRef .tc main_v96)))
      (rowOf (a := 10000) (k := 256) (W13 m ρ c (Proc.devRef .tc main_v71)) r) (rowOf (a := 10000) (k := 256) (W13 m ρ c (Proc.devRef .tc main_v92)) r) q = _
  rw [hu, hv, h9, h15, h17, h19, b93, b94, b95, b96]
  exact (congrFun (level2_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) r) q).symm

/-! ## The three results when @main returns -/

/-- Result 0: nothing after region 0 writes its f32 output. -/
theorem res0 (c : Dev nD) : W14 m ρ c (Proc.devRef .tc main_v3_0) = val_main_v7 (F := Ideal) (m ((c : Thread nD τ).loc main_arg0)) (m ((c : Thread nD τ).loc main_arg9)) (m ((c : Thread nD τ).loc main_arg10)) (m ((c : Thread nD τ).loc main_arg19)) (m ((c : Thread nD τ).loc main_arg20)) :=
  (W14_of_ne m ρ c main_v3_0 (by decide)).trans ((Host2.keep_main_v3_0 (W8 m ρ c)).trans
    ((W8_of_ne m ρ c main_v3_0 (by decide)).trans ((Host1.keep_main_v3_0 (W2 m ρ c)).trans (arr0 m ρ c))))

/-- Result 1: nothing after region 1 writes its f32 output. -/
theorem res1 (c : Dev nD) : W14 m ρ c (Proc.devRef .tc main_v50_0) = val_main_v65 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) :=
  (W14_of_ne m ρ c main_v50_0 (by decide)).trans ((Host2.keep_main_v50_0 (W8 m ρ c)).trans (arr1 m ρ c))

/-- Result 2: region 2's f32 output. -/
theorem res2 (c : Dev nD) : W14 m ρ c (Proc.devRef .tc main_v97_0) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (W14_arr m ρ c 10).trans ((Region2.final_10 (V13 m ρ) c).trans (level2_eq m ρ c))

end Cert.KernelIdeal.Values

end
-- ==== Proof.lean ====
/-
  The certificate: a hierarchical cell encoder on the matrix unit against its plain reference.

  The kernel program launches three regions — the dimension-0 embedding proj (lin0 x) of every chunk row, and for
  each of two higher levels proj (enc (lin0 u | v)) of every cell, u and v being the cell's masked means of chunk
  features and of the level below's embeddings — with the masked means computed by host operations between the
  regions.  The reference computes the same three arrays by whole-array operations.  On the extended reals a change
  of float format is the identity, the matrix unit's product into a zero accumulator and the host's dot product are
  the same finite sum, and every stage acts on the rows of a matrix independently, so cutting the rows into blocks
  changes nothing: each result array of the idealized kernel is, entry by entry, the reference's.  No law of
  arithmetic beyond this is used, so the precondition (finite inputs) is never opened.

  The frames of the two kernel programs are the generated ones; the reference's frame is its generated run with the
  results dropped; the ideal pass rewrote nothing, so the idealization conjunct is trivial.
-/
import proofs.«132306_j27711128994331_2_alg».proof.Defs
import proofs.«132306_j27711128994331_2_alg».proof.Proof.Gen.Kernel
import proofs.«132306_j27711128994331_2_alg».proof.Proof.Gen.Kernel.Skeleton
import proofs.«132306_j27711128994331_2_alg».proof.Proof.Gen.Kernel.Launch
import proofs.«132306_j27711128994331_2_alg».proof.Proof.Gen.Kernel.Points
import proofs.«132306_j27711128994331_2_alg».proof.Proof.Gen.Kernel.Frame
import proofs.«132306_j27711128994331_2_alg».proof.Proof.Gen.KernelIdeal
import proofs.«132306_j27711128994331_2_alg».proof.Proof.Gen.KernelIdeal.Skeleton
import proofs.«132306_j27711128994331_2_alg».proof.Proof.Gen.KernelIdeal.Launch
import proofs.«132306_j27711128994331_2_alg».proof.Proof.Gen.KernelIdeal.Points
import proofs.«132306_j27711128994331_2_alg».proof.Proof.Gen.KernelIdeal.Frame
import proofs.«132306_j27711128994331_2_alg».proof.Proof.Gen.ReferenceIdeal
import proofs.«132306_j27711128994331_2_alg».proof.Proof.Gen.ReferenceIdeal.Read
import proofs.«132306_j27711128994331_2_alg».proof.Proof.Gen.Pre_finite_inputs
import proofs.«132306_j27711128994331_2_alg».proof.Proof.RunValues
import proofs.«132306_j27711128994331_2_alg».proof.Proof.Values
import Idealize.ShloMosaic.Adequacy
import Idealize.ShloMosaic.Init

set_option maxRecDepth 16384

noncomputable section

namespace Cert.Proof

open Idealize.ShloMosaic Idealize.SL.Sem

open Cert.ReferenceIdeal.Read (val_main_v7 val_main_v65 val_main_v123 val_main_v7_eq val_main_v65_eq val_main_v123_eq)

/-- The word-level kernel: the generated frame. -/
theorem frame_kernel : Cert.frame_Kernel := fun m ρ _ => Cert.Kernel.Gen.frame m ρ

/-- The idealized kernel: the generated frame. -/
theorem frame_kernelIdeal : Cert.frame_KernelIdeal := fun m ρ _ => Cert.KernelIdeal.Gen.frame m ρ

/-- The idealized reference: its generated run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- Both idealized programs end with the reference's three stage functions of the (agreeing) argument arrays: the
    kernel by the run with every buffer named and the three result arrays read off the last boundary, the reference
    by its generated run. -/
theorem algebraic : Cert.algebraic_KernelIdeal_ReferenceIdeal := by
  intro m ρ m' ρ' _ hagree
  refine ⟨fun c => val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => val_main_v123 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run Cert.KernelIdeal.defs _ _).mono (fun r h c => ?_) (Cert.KernelIdeal.RunV.run_all m ρ)
    exact ⟨(h c _ (Cert.KernelIdeal.Gen.mem_uc Cert.KernelIdeal.main_v3_0 (by decide))).trans (Cert.KernelIdeal.Values.res0 m ρ c),
      (h c _ (Cert.KernelIdeal.Gen.mem_uc Cert.KernelIdeal.main_v50_0 (by decide))).trans (Cert.KernelIdeal.Values.res1 m ρ c),
      (h c _ (Cert.KernelIdeal.Gen.mem_uc Cert.KernelIdeal.main_v97_0 (by decide))).trans (Cert.KernelIdeal.Values.res2 m ρ c),
      (h c _ (Cert.KernelIdeal.Gen.mem_uc Cert.KernelIdeal.main_arg0 (by decide))).trans (Cert.KernelIdeal.Gen.W14_main_arg0 m ρ c),
      (h c _ (Cert.KernelIdeal.Gen.mem_uc Cert.KernelIdeal.main_arg1 (by decide))).trans (Cert.KernelIdeal.Gen.W14_main_arg1 m ρ c),
      (h c _ (Cert.KernelIdeal.Gen.mem_uc Cert.KernelIdeal.main_arg2 (by decide))).trans (Cert.KernelIdeal.Gen.W14_main_arg2 m ρ c),
      (h c _ (Cert.KernelIdeal.Gen.mem_uc Cert.KernelIdeal.main_arg3 (by decide))).trans (Cert.KernelIdeal.Gen.W14_main_arg3 m ρ c),
      (h c _ (Cert.KernelIdeal.Gen.mem_uc Cert.KernelIdeal.main_arg4 (by decide))).trans (Cert.KernelIdeal.Gen.W14_main_arg4 m ρ c),
      (h c _ (Cert.KernelIdeal.Gen.mem_uc Cert.KernelIdeal.main_arg5 (by decide))).trans (Cert.KernelIdeal.Gen.W14_main_arg5 m ρ c),
      (h c _ (Cert.KernelIdeal.Gen.mem_uc Cert.KernelIdeal.main_arg6 (by decide))).trans (Cert.KernelIdeal.Gen.W14_main_arg6 m ρ c),
      (h c _ (Cert.KernelIdeal.Gen.mem_uc Cert.KernelIdeal.main_arg7 (by decide))).trans (Cert.KernelIdeal.Gen.W14_main_arg7 m ρ c),
      (h c _ (Cert.KernelIdeal.Gen.mem_uc Cert.KernelIdeal.main_arg8 (by decide))).trans (Cert.KernelIdeal.Gen.W14_main_arg8 m ρ c),
      (h c _ (Cert.KernelIdeal.Gen.mem_uc Cert.KernelIdeal.main_arg9 (by decide))).trans (Cert.KernelIdeal.Gen.W14_main_arg9 m ρ c),
      (h c _ (Cert.KernelIdeal.Gen.mem_uc Cert.KernelIdeal.main_arg10 (by decide))).trans (Cert.KernelIdeal.Gen.W14_main_arg10 m ρ c),
      (h c _ (Cert.KernelIdeal.Gen.mem_uc Cert.KernelIdeal.main_arg11 (by decide))).trans (Cert.KernelIdeal.Gen.W14_main_arg11 m ρ c),
      (h c _ (Cert.KernelIdeal.Gen.mem_uc Cert.KernelIdeal.main_arg12 (by decide))).trans (Cert.KernelIdeal.Gen.W14_main_arg12 m ρ c),
      (h c _ (Cert.KernelIdeal.Gen.mem_uc Cert.KernelIdeal.main_arg13 (by decide))).trans (Cert.KernelIdeal.Gen.W14_main_arg13 m ρ c),
      (h c _ (Cert.KernelIdeal.Gen.mem_uc Cert.KernelIdeal.main_arg14 (by decide))).trans (Cert.KernelIdeal.Gen.W14_main_arg14 m ρ c),
      (h c _ (Cert.KernelIdeal.Gen.mem_uc Cert.KernelIdeal.main_arg15 (by decide))).trans (Cert.KernelIdeal.Gen.W14_main_arg15 m ρ c),
      (h c _ (Cert.KernelIdeal.Gen.mem_uc Cert.KernelIdeal.main_arg16 (by decide))).trans (Cert.KernelIdeal.Gen.W14_main_arg16 m ρ c),
      (h c _ (Cert.KernelIdeal.Gen.mem_uc Cert.KernelIdeal.main_arg17 (by decide))).trans (Cert.KernelIdeal.Gen.W14_main_arg17 m ρ c),
      (h c _ (Cert.KernelIdeal.Gen.mem_uc Cert.KernelIdeal.main_arg18 (by decide))).trans (Cert.KernelIdeal.Gen.W14_main_arg18 m ρ c),
      (h c _ (Cert.KernelIdeal.Gen.mem_uc Cert.KernelIdeal.main_arg19 (by decide))).trans (Cert.KernelIdeal.Gen.W14_main_arg19 m ρ c),
      (h c _ (Cert.KernelIdeal.Gen.mem_uc Cert.KernelIdeal.main_arg20 (by decide))).trans (Cert.KernelIdeal.Gen.W14_main_arg20 m ρ c)⟩
  · refine (θ_run Cert.ReferenceIdeal.defs _ _).mono (fun r h c => ?_) (Cert.ReferenceIdeal.Value.run (F := Ideal) m' ρ')
    obtain ⟨h0, h1, h2, hargs⟩ := h c
    obtain ⟨g0, g1, g2, g3, g4, g5, g6, g7, g8, g9, g10, g11, g12, g13, g14, g15, g16, g17, g18, g19, g20⟩ := hagree c
    refine ⟨?_, ?_, ?_, hargs⟩
    · rw [h0, val_main_v7_eq, g0, g9, g10, g19, g20]
    · rw [h1, val_main_v65_eq, g0, g1, g2, g5, g6, g9, g10, g11, g12, g13, g14, g19, g20]
    · rw [h2, val_main_v123_eq, g0, g1, g2, g3, g4, g5, g6, g7, g8, g9, g10, g11, g12, g13, g14, g15, g16, g17, g18, g19, g20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
